-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x1024 .f32) (main_arg1 : FVec F S8192x2048 .f32) (main_arg2 : FVec F S1024x1024 .f32) (main_arg3 : FVec F S1024 .f32) (main_arg4 : FVec F S1024x2048 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S512x2048 : Shape := ⟨2, ![512, 2048]⟩
abbrev S512x1024 : Shape := ⟨2, ![512, 1024]⟩
abbrev S1x8192 : Shape := ⟨2, ![1, 8192]⟩
abbrev S2048x1024 : Shape := ⟨2, ![2048, 1024]⟩
abbrev S1x2048 : Shape := ⟨2, ![1, 2048]⟩
abbrev S2048 : Shape := ⟨1, ![2048]⟩
abbrev S8192x8192 : Shape := ⟨2, ![8192, 8192]⟩
abbrev S1x512 : Shape := ⟨2, ![1, 512]⟩
abbrev S1024x512 : Shape := ⟨2, ![1024, 512]⟩

abbrev nBuf : Space → Nat
  | .hbm => 14
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S8192x1024, .bf16⟩
  | .hbm, ⟨10, _⟩ => ⟨S1x8192, .f32⟩
  | .hbm, ⟨11, _⟩ => ⟨S8192x2048, .bf16⟩
  | .hbm, ⟨12, _⟩ => ⟨S8192x8192, .f32⟩
  | .hbm, ⟨13, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x2048, .f32⟩
  | .local _ .vmem, ⟨7, _⟩ => ⟨S512x2048, .f32⟩
  | .local _ .vmem, ⟨8, _⟩ => ⟨S1024x2048, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1024x1024, .bf16⟩
  | .local _ .vmem, ⟨21, _⟩ => ⟨S1024x1024, .bf16⟩
  | .local _ .vmem, ⟨22, _⟩ => ⟨S512x1024, .bf16⟩
  | .local _ .vmem, ⟨23, _⟩ => ⟨S512x1024, .bf16⟩
  | .local _ .vmem, ⟨24, _⟩ => ⟨S512x2048, .bf16⟩
  | .local _ .vmem, ⟨25, _⟩ => ⟨S512x2048, .bf16⟩
  | .local _ .vmem, ⟨26, _⟩ => ⟨S1x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1024x2048, .f32⟩
  | .local _ .vmem, ⟨31, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S512x2048_S512x2048_0_0 : ∀ a, (![0, 0] : Fin 2 → Nat) a + S512x2048.size a ≤ S512x2048.size a
  h_S512x2048 : 0 < S512x2048.numel
  inb_S1024x2048_S1024x2048_0_0 : ∀ a, (![0, 0] : Fin 2 → Nat) a + S1024x2048.size a ≤ S1024x2048.size a
  h_S1024x2048 : 0 < S1024x2048.numel
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S1024x2048_S2048 : S1024x2048.Reduces [0] S2048
  shapeCasts_S2048_S1x2048 : S2048.ShapeCasts S1x2048
  broadcasts_S1x2048_S1024x2048 : S1x2048.Broadcasts S1024x2048
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S512x2048_S512x2048 : S512x2048.ShapeCasts S512x2048
  shapeCasts_S1024x2048_S1024x2048 : S1024x2048.ShapeCasts S1024x2048
  dot_S1024x1024_S1024x1024_S1024x1024_1_1_0_0_n_n_wf : DotDims.WF S1024x1024 S1024x1024 S1024x1024 [1] [1] [0] [0] [] []
  dot_S512x2048_S1024x2048_S512x1024_1_1_0_0_n_n_wf : DotDims.WF S512x2048 S1024x2048 S512x1024 [1] [1] [0] [0] [] []
  dot_S1024x1024_S2048x1024_S1024x2048_1_1_0_0_n_n_wf : DotDims.WF S1024x1024 S2048x1024 S1024x2048 [1] [1] [0] [0] [] []
  dot_S1024x1024_S512x1024_S1024x512_1_1_0_0_n_n_wf : DotDims.WF S1024x1024 S512x1024 S1024x512 [1] [1] [0] [0] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S8192x1024.size a
  hwx2_1 : ∀ i : grid2.Coords, EltTy.bits .bf16 = 32 ∨ (Rect.block (s := S8192x1024) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .bf16 = 32 ∨ (Rect.block (s := S8192x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S8192x1024.size a
  hwx3_1 : ∀ i : grid3.Coords, EltTy.bits .bf16 = 32 ∨ (Rect.block (s := S8192x1024) S512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S8192x2048.size a
  hwx3_2 : ∀ i : grid3.Coords, EltTy.bits .bf16 = 32 ∨ (Rect.block (s := S8192x2048) S512x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x8192.size a
  hwx3_3 : ∀ i : grid3.Coords, EltTy.bits .f32 = 32 ∨ (Rect.block (s := S1x8192) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S8192x8192.size a
  hwx3_4 : ∀ i : grid3.Coords, EltTy.bits .f32 = 32 ∨ (Rect.block (s := S8192x8192) S1024x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x2048.size a ≤ S8192x2048.size a
  hwx3_5 : ∀ i : grid3.Coords, EltTy.bits .f32 = 32 ∨ (Rect.block (s := S8192x2048) S1024x2048.size (cc3_transform_5 i) (hinb3_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v2) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S512x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6_0) S1024x512.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v6_1) S1024x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S2048x1024 : Shape := ⟨2, ![2048, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S2048x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S1024x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S1x8192, .f32⟩
  | .hbm, ⟨30, _⟩ => ⟨S8192x8192, .f32⟩
  | .hbm, ⟨31, _⟩ => ⟨S8192x8192, .f32⟩
  | .hbm, ⟨32, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1024x2048_S2048x1024_1_0 : S1024x2048.Transposes [1, 0] S2048x1024
  transposes_S8192x1024_S1024x8192_1_0 : S8192x1024.Transposes [1, 0] S1024x8192
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x2048_S8192x2048_1_0_0_1_n_n_wf : DotDims.WF S8192x8192 S8192x2048 S8192x2048 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.K.Proj.lean ====
/- The two projection regions of the program (regions 0 and 1 of @main): each computes, block of rows by block of
   rows, the bf16 rounding of  bf16(x) · bf16(W)ᵀ + b  — a matrix product of the row block with the WHOLE weight
   matrix, contracted over the second axis of both, plus the bias row broadcast down the rows. Both regions read
   three arrays and write one; neither carries anything from one grid point to the next, so what each leaves in its
   output block is a function of the three input blocks alone. This file states that function, proves that the
   kernel body computes it, and packages it as the per-point obligation of the region's pipeline, all at a
   parameter `V`: what the TensorCore's buffers hold when the region is entered. -/
import proofs.«125521_j15702400434434_2_alg».proof.Proof.Gen.Kernel.Launch
import proofs.«125521_j15702400434434_2_alg».proof.Proof.Gen.Kernel.Skeleton
import proofs.«125521_j15702400434434_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one whole-buffer store tiles a buffer of 1024 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer rectangles

Every access of either kernel is of a whole staging buffer: the rectangle at offset (0, 0) of the buffer's own
extents. One per buffer shape that occurs. -/

/-- All of a [1024, 1024] buffer: region 0's row block, its weight matrix and its output block. -/
abbrev all1024x1024 : Rect S1024x1024 := Rect.unit (s := S1024x1024) ![0, 0] S1024x1024.size inb_S1024x1024_S1024x1024_0_0
/-- All of a [1, 1024] buffer: either region's bias row. -/
abbrev allRow1024 : Rect S1x1024 := Rect.unit (s := S1x1024) ![0, 0] S1x1024.size inb_S1x1024_S1x1024_0_0
/-- All of a [512, 2048] buffer: region 1's row block. -/
abbrev all512x2048 : Rect S512x2048 := Rect.unit (s := S512x2048) ![0, 0] S512x2048.size inb_S512x2048_S512x2048_0_0
/-- All of a [1024, 2048] buffer: region 1's weight matrix. -/
abbrev all1024x2048 : Rect S1024x2048 := Rect.unit (s := S1024x2048) ![0, 0] S1024x2048.size inb_S1024x2048_S1024x2048_0_0
/-- All of a [512, 1024] buffer: region 1's output block. -/
abbrev all512x1024 : Rect S512x1024 := Rect.unit (s := S512x1024) ![0, 0] S512x1024.size inb_S512x1024_S512x1024_0_0

section AtEntry
-- what the TensorCore's buffers hold when a region is entered; each region's statements are at this parameter
variable (V : (c : Dev nD) → (b : Ref sig .tc) → Buf (Elt F) ((c : Thread nD τ).loc b))

/-! # Region 0: rows of `main_arg0` projected by `main_arg2`, 8 blocks of 1024 rows

Windows: 0 the row block x [1024, 1024] (moves with the point), 1 the weight matrix W [1024, 1024] (whole, fixed),
2 the bias row b [1, 1024] (whole, fixed), 3 the output block [1024, 1024] in bf16 (moves with the point). -/

/-- The block of window `w` at point `t`, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The projection of one row block: what the body's single store, of the whole output buffer, leaves there, as a
    function of the three buffers it loaded whole (`x` the rows, `w` the weights, `b` the bias row). The value
    stored is the kernel's payload  bf16(bf16 x · (bf16 w)ᵀ + b). -/
def out0_3 (x : Vec F S1024x1024 .f32) (w : Vec F S1024x1024 .f32) (b : Vec F S1x1024 .f32) : Vec F S1024x1024 .bf16 :=
  View.canon [⟨all1024x1024, k0_pay1 (View.ld x all1024x1024) (View.ld w all1024x1024) (View.ld b allRow1024)⟩]

/-- That one store is of the whole buffer, so every index of the buffer lies in it. -/
theorem store_covers0 (p : Vec F S1024x1024 .bf16) (y : S1024x1024.Idx) :
    ∃ pc ∈ ([⟨all1024x1024, p⟩] : List (View.Piece (Elt F) S1024x1024 .bf16)), y ∈ pc.1.set :=
  View.cover_of_tiled [⟨all1024x1024, p⟩] S1024x1024.size (by rfl) y

set_option maxHeartbeats 1000000 in
/-- The body of region 0 on four whole staging buffers — the three inputs' at contents `x`, `w`, `b`, the output's at
    anything — runs to its continuation with the inputs' buffers as they were and the output's at the projection
    `out0_3 x w b`. The printed function is its skeleton of memory operations: three whole loads, a load of the output
    buffer whose value is unused, one whole store of the payload. -/
theorem proj_kernel0_runs (c : Dev nD) (E : Set ℕ) (i : grid0.Coords)
    (bx : Memref sig .tc .vmem S1024x1024 .f32) (hbx : bx.IsWhole) (bw : Memref sig .tc .vmem S1024x1024 .f32) (hbw : bw.IsWhole)
    (bb : Memref sig .tc .vmem S1x1024 .f32) (hbb : bb.IsWhole) (bo : Memref sig .tc .vmem S1024x1024 .bf16) (hbo : bo.IsWhole)
    (x : Vec F S1024x1024 .f32) (w : Vec F S1024x1024 .f32) (b : Vec F S1x1024 .f32) (K : PUnit → sProp 𝕄) :
    iprop(owns (c : Thread nD τ) bx fullShare x ∗ owns (c : Thread nD τ) bw fullShare w ∗ owns (c : Thread nD τ) bb fullShare b
        ∗ (∃ d, owns (c : Thread nD τ) bo fullShare d)
        ∗ (iprop(owns (c : Thread nD τ) bx fullShare x ∗ owns (c : Thread nD τ) bw fullShare w ∗ owns (c : Thread nD τ) bb fullShare b
            ∗ owns (c : Thread nD τ) bo fullShare (out0_3 x w b)) -∗ K ⟨⟩))
      ⊢ wp frame (wpE (defs₀ (F := F)) Variants.none c none) E (cc0__proj_kernel i bx hbx bw hbw bb hbb bo hbo) K := by
  simp only [cc0__proj_kernel_eq_skeleton]; unfold cc0__proj_kernel_skel
  unfold owns
  iintro ⟨⟨%fx, %hx, Hx⟩, ⟨%fw, %hw, Hw⟩, ⟨%fb, %hb, Hb⟩, ⟨%d, %fo, -, Ho⟩, Hk⟩
  subst hx hw hb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (store_covers0 _)

/-! ## The region's proof data -/

/-- Region 0's pipeline on core `c`: the windows' arrays as the region finds them; after the body at point `t`, each
    input's buffer still at its block and the output's at the projection of the three input blocks; the invariant
    is the class's (the scoped rest and the generator register, untouched), nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves in each window's buffer (the `match` of `dat0` reduced, one window at a time). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body is handed

An input window's current buffer holds the window's block at EVERY point. The row block is fetched at every point;
the weight matrix and the bias row are fetched at the first point only, and at each later point their block index
has not moved and the body left the buffer as it found it, so it still holds the block. No window is cut at the
array's edge and none is ever idle. -/

/-- The row block. -/
theorem held0_0 (c : Dev nD) (t : Fin cfg0.N) (d) : (dat0 V c).before 0 t d = iblk0 V c 0 t := by
  have keep : ∀ u, (cfg0.win 0).cut (cfg0.grid.coords u) ((dat0 V c).after 0 u) = (dat0 V c).blockOf 0 u := fun u => by
    rw [after0_0]; unfold Dat.blockOf iblk0; rw [A_eq0]
  rw [(dat0 V c).before_in_eq_fetched 0 rfl (fun _ => rfl) (fun _ _ _ => rfl) keep t d]
  unfold Dat.fetched Dat.blockOf iblk0; rw [A_eq0]; rfl

/-- The weight matrix. -/
theorem held0_1 (c : Dev nD) (t : Fin cfg0.N) (d) : (dat0 V c).before 1 t d = iblk0 V c 1 t := by
  have keep : ∀ u, (cfg0.win 1).cut (cfg0.grid.coords u) ((dat0 V c).after 1 u) = (dat0 V c).blockOf 1 u := fun u => by
    rw [after0_1]; unfold Dat.blockOf iblk0; rw [A_eq0]
  rw [(dat0 V c).before_in_eq_fetched 1 rfl (fun _ => rfl) (fun _ _ _ => rfl) keep t d]
  unfold Dat.fetched Dat.blockOf iblk0; rw [A_eq0]; rfl

/-- The bias row. -/
theorem held0_2 (c : Dev nD) (t : Fin cfg0.N) (d) : (dat0 V c).before 2 t d = iblk0 V c 2 t := by
  have keep : ∀ u, (cfg0.win 2).cut (cfg0.grid.coords u) ((dat0 V c).after 2 u) = (dat0 V c).blockOf 2 u := fun u => by
    rw [after0_2]; unfold Dat.blockOf iblk0; rw [A_eq0]
  rw [(dat0 V c).before_in_eq_fetched 2 rfl (fun _ => rfl) (fun _ _ _ => rfl) keep t d]
  unfold Dat.fetched Dat.blockOf iblk0; rw [A_eq0]; rfl

/-! ## The obligation at a point -/

/-- The body at point `t`, called on the windows' current buffers: it is handed the invariant, the core's debt and the
    four buffers at what they then hold, and returns all of them, the output's buffer now at the projection of the
    point's three input blocks. The inputs' buffers hold their blocks (`held0_W`), which is what the kernel's
    triple asks; the invariant and the debt are the same at every point and pass through unread. -/
theorem proj_body0_runs (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)) := by
  unfold bodyAt0
  simp only [held0_0, held0_1, held0_2]
  rw [after0_0, after0_1, after0_2, after0_3,
    show (dat0 V c).Φ t.succ = (dat0 V c).Φ t.castSucc from rfl,
    show (dat0 V c).owesAt () t.succ = (dat0 V c).owesAt () t.castSucc from rfl]
  iintro ⟨HΦ, Hdebt, ⟨%dx, Hx⟩, ⟨%dw, Hw⟩, ⟨%db, Hb⟩, ⟨%dy, Hy⟩⟩
  iapply (proj_kernel0_runs c Set.univ (grid0.coords t) _ _ _ _ _ _ _ _ (iblk0 V c 0 t) (iblk0 V c 1 t) (iblk0 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hdebt]; · iexact Hdebt
  isplitl [Hx]; · iexact Hx
  isplitl [Hw]; · iexact Hw
  isplitl [Hb]; · iexact Hb
  iexact Hy

/-- Region 0's body obligation: the statement above at every point, the windows listed one by one. -/
theorem body_obligation0 (c : Dev nD) : BodyObligation (dat0 (F := F) V c) (defs₀ (F := F)) Variants.none () Set.univ := fun t => by
  rw [bigSep_W0, bigSep_W0]
  exact proj_body0_runs V c t

/-! # Region 1: rows of `main_arg1` projected by `main_arg4`, 16 blocks of 512 rows

Windows: 0 the row block x [512, 2048] (moves with the point), 1 the weight matrix W [1024, 2048] (whole, fixed),
2 the bias row b [1, 1024] (whole, fixed), 3 the output block [512, 1024] in bf16 (moves with the point). -/

/-- The block of window `w` at point `t`, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The projection of one row block: what the body's single store, of the whole output buffer, leaves there, as a
    function of the three buffers it loaded whole (`x` the rows, `w` the weights, `b` the bias row). The value
    stored is the kernel's payload  bf16(bf16 x · (bf16 w)ᵀ + b). -/
def out1_3 (x : Vec F S512x2048 .f32) (w : Vec F S1024x2048 .f32) (b : Vec F S1x1024 .f32) : Vec F S512x1024 .bf16 :=
  View.canon [⟨all512x1024, k1_pay1 (View.ld x all512x2048) (View.ld w all1024x2048) (View.ld b allRow1024)⟩]

/-- That one store is of the whole buffer, so every index of the buffer lies in it. -/
theorem store_covers1 (p : Vec F S512x1024 .bf16) (y : S512x1024.Idx) :
    ∃ pc ∈ ([⟨all512x1024, p⟩] : List (View.Piece (Elt F) S512x1024 .bf16)), y ∈ pc.1.set :=
  View.cover_of_tiled [⟨all512x1024, p⟩] S512x1024.size (by rfl) y

set_option maxHeartbeats 1000000 in
/-- The body of region 1 on four whole staging buffers — the three inputs' at contents `x`, `w`, `b`, the output's at
    anything — runs to its continuation with the inputs' buffers as they were and the output's at the projection
    `out1_3 x w b`. The printed function is its skeleton of memory operations: three whole loads, a load of the output
    buffer whose value is unused, one whole store of the payload. -/
theorem proj_kernel1_runs (c : Dev nD) (E : Set ℕ) (i : grid1.Coords)
    (bx : Memref sig .tc .vmem S512x2048 .f32) (hbx : bx.IsWhole) (bw : Memref sig .tc .vmem S1024x2048 .f32) (hbw : bw.IsWhole)
    (bb : Memref sig .tc .vmem S1x1024 .f32) (hbb : bb.IsWhole) (bo : Memref sig .tc .vmem S512x1024 .bf16) (hbo : bo.IsWhole)
    (x : Vec F S512x2048 .f32) (w : Vec F S1024x2048 .f32) (b : Vec F S1x1024 .f32) (K : PUnit → sProp 𝕄) :
    iprop(owns (c : Thread nD τ) bx fullShare x ∗ owns (c : Thread nD τ) bw fullShare w ∗ owns (c : Thread nD τ) bb fullShare b
        ∗ (∃ d, owns (c : Thread nD τ) bo fullShare d)
        ∗ (iprop(owns (c : Thread nD τ) bx fullShare x ∗ owns (c : Thread nD τ) bw fullShare w ∗ owns (c : Thread nD τ) bb fullShare b
            ∗ owns (c : Thread nD τ) bo fullShare (out1_3 x w b)) -∗ K ⟨⟩))
      ⊢ wp frame (wpE (defs₀ (F := F)) Variants.none c none) E (cc1__proj_kernel i bx hbx bw hbw bb hbb bo hbo) K := by
  simp only [cc1__proj_kernel_eq_skeleton]; unfold cc1__proj_kernel_skel
  unfold owns
  iintro ⟨⟨%fx, %hx, Hx⟩, ⟨%fw, %hw, Hw⟩, ⟨%fb, %hb, Hb⟩, ⟨%d, %fo, -, Ho⟩, Hk⟩
  subst hx hw hb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (store_covers1 _)

/-! ## The region's proof data -/

/-- Region 1's pipeline on core `c`: the windows' arrays as the region finds them; after the body at point `t`, each
    input's buffer still at its block and the output's at the projection of the three input blocks; the invariant
    is the class's (the scoped rest and the generator register, untouched), nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves in each window's buffer (the `match` of `dat1` reduced, one window at a time). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body is handed

An input window's current buffer holds the window's block at EVERY point. The row block is fetched at every point;
the weight matrix and the bias row are fetched at the first point only, and at each later point their block index
has not moved and the body left the buffer as it found it, so it still holds the block. No window is cut at the
array's edge and none is ever idle. -/

/-- The row block. -/
theorem held1_0 (c : Dev nD) (t : Fin cfg1.N) (d) : (dat1 V c).before 0 t d = iblk1 V c 0 t := by
  have keep : ∀ u, (cfg1.win 0).cut (cfg1.grid.coords u) ((dat1 V c).after 0 u) = (dat1 V c).blockOf 0 u := fun u => by
    rw [after1_0]; unfold Dat.blockOf iblk1; rw [A_eq1]
  rw [(dat1 V c).before_in_eq_fetched 0 rfl (fun _ => rfl) (fun _ _ _ => rfl) keep t d]
  unfold Dat.fetched Dat.blockOf iblk1; rw [A_eq1]; rfl

/-- The weight matrix. -/
theorem held1_1 (c : Dev nD) (t : Fin cfg1.N) (d) : (dat1 V c).before 1 t d = iblk1 V c 1 t := by
  have keep : ∀ u, (cfg1.win 1).cut (cfg1.grid.coords u) ((dat1 V c).after 1 u) = (dat1 V c).blockOf 1 u := fun u => by
    rw [after1_1]; unfold Dat.blockOf iblk1; rw [A_eq1]
  rw [(dat1 V c).before_in_eq_fetched 1 rfl (fun _ => rfl) (fun _ _ _ => rfl) keep t d]
  unfold Dat.fetched Dat.blockOf iblk1; rw [A_eq1]; rfl

/-- The bias row. -/
theorem held1_2 (c : Dev nD) (t : Fin cfg1.N) (d) : (dat1 V c).before 2 t d = iblk1 V c 2 t := by
  have keep : ∀ u, (cfg1.win 2).cut (cfg1.grid.coords u) ((dat1 V c).after 2 u) = (dat1 V c).blockOf 2 u := fun u => by
    rw [after1_2]; unfold Dat.blockOf iblk1; rw [A_eq1]
  rw [(dat1 V c).before_in_eq_fetched 2 rfl (fun _ => rfl) (fun _ _ _ => rfl) keep t d]
  unfold Dat.fetched Dat.blockOf iblk1; rw [A_eq1]; rfl

/-! ## The obligation at a point -/

/-- The body at point `t`, called on the windows' current buffers: it is handed the invariant, the core's debt and the
    four buffers at what they then hold, and returns all of them, the output's buffer now at the projection of the
    point's three input blocks. The inputs' buffers hold their blocks (`held1_W`), which is what the kernel's
    triple asks; the invariant and the debt are the same at every point and pass through unread. -/
theorem proj_body1_runs (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  unfold bodyAt1
  simp only [held1_0, held1_1, held1_2]
  rw [after1_0, after1_1, after1_2, after1_3,
    show (dat1 V c).Φ t.succ = (dat1 V c).Φ t.castSucc from rfl,
    show (dat1 V c).owesAt () t.succ = (dat1 V c).owesAt () t.castSucc from rfl]
  iintro ⟨HΦ, Hdebt, ⟨%dx, Hx⟩, ⟨%dw, Hw⟩, ⟨%db, Hb⟩, ⟨%dy, Hy⟩⟩
  iapply (proj_kernel1_runs c Set.univ (grid1.coords t) _ _ _ _ _ _ _ _ (iblk1 V c 0 t) (iblk1 V c 1 t) (iblk1 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hdebt]; · iexact Hdebt
  isplitl [Hx]; · iexact Hx
  isplitl [Hw]; · iexact Hw
  isplitl [Hb]; · iexact Hb
  iexact Hy

/-- Region 1's body obligation: the statement above at every point, the windows listed one by one. -/
theorem body_obligation1 (c : Dev nD) : BodyObligation (dat1 (F := F) V c) (defs₀ (F := F)) Variants.none () Set.univ := fun t => by
  rw [bigSep_W1, bigSep_W1]
  exact proj_body1_runs V c t

end AtEntry

end Cert.Kernel.Hand

end
-- ==== Proof.K.LseRuns.lean ====
/-
  The online log-sum-exp pass (the third kernel region): per column block, a running maximum `m` and a running
  mass `l` are kept in two scratch rows across the eight row tiles; the first tile of a column block seeds them,
  every tile updates them, and the last tile writes `m + log l` into the output row.
  This module: the two branch conditions in closed form over the grid (tile index 0, tile index 7), where the
  output row's window is idle, and the kernel body's run in each of the three control cases, on whole staging
  memrefs, with the pieces each buffer ends with determined by the run itself.
-/
import proofs.«125521_j15702400434434_2_alg».proof.Proof.Gen.Kernel.Launch
import proofs.«125521_j15702400434434_2_alg».proof.Proof.Gen.Kernel.Skeleton
import proofs.«125521_j15702400434434_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, in closed form -/

/-- "This is the first row tile of the column block": the tile coordinate is 0. -/
abbrev firstTile (i : grid2.Coords) : Prop := (Scalar.cmpi .ne (Scalar.extui (Scalar.cmpi .eq (BitVec.ofNat 32 (i 1).val) 0#32)) 0#32) = 1#1
/-- Over the 4 × 8 grid the first tiles are the points ≡ 0 (mod 8). -/
theorem firstTile_iff : ∀ t : Fin cfg2.N, firstTile (grid2.coords t) ↔ t.val % 8 = 0 :=
  (by decide +kernel : ∀ t : Fin grid2.N, firstTile (grid2.coords t) ↔ t.val % 8 = 0)

/-- "This is the last row tile of the column block": the tile coordinate is 7. -/
abbrev lastTile (i : grid2.Coords) : Prop := k2_cond2 i = 1#1
/-- Over the grid the last tiles are the points ≡ 7 (mod 8). -/
theorem lastTile_iff : ∀ t : Fin cfg2.N, lastTile (grid2.coords t) ↔ t.val % 8 = 7 :=
  (by decide +kernel : ∀ t : Fin grid2.N, lastTile (grid2.coords t) ↔ t.val % 8 = 7)

/-! ## Where the windows are idle -/

theorem live_S : ∀ t : Fin cfg2.N, cfg2.idle 0 (grid2.coords t) = false := by decide +kernel
theorem live_K : ∀ t : Fin cfg2.N, cfg2.idle 1 (grid2.coords t) = false := by decide +kernel
/-- The output row is stored only at a last tile: elsewhere its window is idle -/
theorem idle_out : ∀ t : Fin cfg2.N, ¬lastTile (grid2.coords t) → cfg2.idle 2 (grid2.coords t) = true := by decide +kernel
/-- and not written back; -/
theorem noFlush_out : ∀ t : Fin cfg2.N, ¬lastTile (grid2.coords t) → (cfg2.win 2).flush t = false := by decide +kernel
/-- at a last tile it is live. -/
theorem live_out : ∀ t : Fin cfg2.N, lastTile (grid2.coords t) → cfg2.idle 2 (grid2.coords t) = false := by decide +kernel

/-! ## The memrefs the body is called with -/

abbrev mS (t : Fin cfg2.N) : Memref sig .tc .vmem S1024x1024 .bf16 := win2_0.stage (cfg2.slots t 0)
abbrev hS (t : Fin cfg2.N) : (mS t).IsWhole := hstage2_0 ((cfg2.slots t 0).cast nbuf2_0)
abbrev mK (t : Fin cfg2.N) : Memref sig .tc .vmem S2048x1024 .bf16 := win2_1.stage (cfg2.slots t 1)
abbrev hK (t : Fin cfg2.N) : (mK t).IsWhole := hstage2_1 ((cfg2.slots t 1).cast nbuf2_1)
abbrev mOut (t : Fin cfg2.N) : Memref sig .tc .vmem S1x2048 .f32 := win2_2.stage (cfg2.slots t 2)
abbrev hOut (t : Fin cfg2.N) : (mOut t).IsWhole := hstage2_2 ((cfg2.slots t 2).cast nbuf2_2)
/-- The running maximum's and the running mass's scratch rows. -/
abbrev mMax : Memref sig .tc .vmem S1x2048 .f32 := Memref.whole cc2_scratch0
abbrev mMass : Memref sig .tc .vmem S1x2048 .f32 := Memref.whole cc2_scratch1
abbrev vMax : View sig .tc .vmem S1x2048 .f32 := mMax.view
abbrev vMass : View sig .tc .vmem S1x2048 .f32 := mMass.view
abbrev vOut : View sig .tc .vmem S1x2048 .f32 := (Memref.whole cc2_stg2_0 : Memref sig .tc .vmem S1x2048 .f32).view

/-! ## The body's run, case by case -/

set_option maxHeartbeats 2000000 in
/-- FIRST TILE. The score tile and the key tile in; the two scratch rows and the output row at anything. The body
    seeds the scratch rows, updates them from the tile, and leaves the output row untouched. -/
noncomputable def runFirst (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : firstTile i) (hc1 : ¬lastTile i)
    (x0 : Vec F S1024x1024 .bf16) (x1 : Vec F S2048x1024 .bf16) :
    Σ' (LM : List (View.Piece (Elt F) S1x2048 .f32)), { LL : List (View.Piece (Elt F) S1x2048 .f32) //
      ∀ (xo : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc2__lse_kernel i arg2 harg2 arg3 harg3 arg4 harg4 arg5 harg5 arg6 harg6) K } := by
  refine ⟨?_, ?_, fun xo E K => ?run⟩
  case run =>
    simp only [cc2__lse_kernel_eq_skeleton]; unfold cc2__lse_kernel_skel
    unfold owns
    iintro ⟨⟨%f0, %hf0, H0⟩, ⟨%f1, %hf1, H1⟩, ⟨%fo, %hfo, HO⟩, ⟨%dm, %fm, -, HM⟩, ⟨%dl, %fl, -, HL⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    isplitl [HM]
    · iexists _; iexact HM
    iexists _; iexact HL

set_option maxHeartbeats 2000000 in
/-- MIDDLE TILE. The two scratch rows at what the tile before left (`xm`, `xl`); the body updates them from the
    tile and leaves the output row untouched. -/
noncomputable def runMiddle (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬firstTile i) (hc1 : ¬lastTile i)
    (x0 : Vec F S1024x1024 .bf16) (x1 : Vec F S2048x1024 .bf16) (xm xl : Vec F S1x2048 .f32) :
    Σ' (LM : List (View.Piece (Elt F) S1x2048 .f32)), { LL : List (View.Piece (Elt F) S1x2048 .f32) //
      ∀ (xo : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xm ∗ owns (c : Thread nD τ) arg6 fullShare xl
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc2__lse_kernel i arg2 harg2 arg3 harg3 arg4 harg4 arg5 harg5 arg6 harg6) K } := by
  refine ⟨?_, ?_, fun xo E K => ?run⟩
  case run =>
    simp only [cc2__lse_kernel_eq_skeleton]; unfold cc2__lse_kernel_skel
    unfold owns
    iintro ⟨⟨%f0, %hf0, H0⟩, ⟨%f1, %hf1, H1⟩, ⟨%fo, %hfo, HO⟩, ⟨%fm, %hfm, HM⟩, ⟨%fl, %hfl, HL⟩, Hk⟩
    obtain rfl := harg2.eq_unread hf0; obtain rfl := harg3.eq_unread hf1; obtain rfl := harg4.eq_unread hfo
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    isplitl [HM]
    · iexists _; iexact HM
    iexists _; iexact HL

set_option maxHeartbeats 2000000 in
/-- LAST TILE. As a middle tile, and then the output row, at anything before, is stored from the two updated
    scratch rows. -/
noncomputable def runLast (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬firstTile i) (hc1 : lastTile i)
    (x0 : Vec F S1024x1024 .bf16) (x1 : Vec F S2048x1024 .bf16) (xm xl : Vec F S1x2048 .f32) :
    Σ' (LO : List (View.Piece (Elt F) S1x2048 .f32)) (LM : List (View.Piece (Elt F) S1x2048 .f32)), { LL : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xm ∗ owns (c : Thread nD τ) arg6 fullShare xl
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc2__lse_kernel i arg2 harg2 arg3 harg3 arg4 harg4 arg5 harg5 arg6 harg6) K } := by
  refine ⟨?_, ?_, ?_, fun E K => ?run⟩
  case run =>
    simp only [cc2__lse_kernel_eq_skeleton]; unfold cc2__lse_kernel_skel
    unfold owns
    iintro ⟨⟨%f0, %hf0, H0⟩, ⟨%f1, %hf1, H1⟩, ⟨%dO, %fo, -, HO⟩, ⟨%fm, %hfm, HM⟩, ⟨%fl, %hfl, HL⟩, Hk⟩
    obtain rfl := harg2.eq_unread hf0; obtain rfl := harg3.eq_unread hf1
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; iexact HO
    isplitl [HM]
    · iexists _; iexact HM
    iexists _; iexact HL

end Cert.Kernel.Hand

end
-- ==== Proof.K.Lse.lean ====
/-
  The online log-sum-exp pass, continued: what the output row and the two scratch rows hold after each grid point, by
  recursion on the point (a first tile starts from nothing, a later tile from what the tile before left), the region's
  invariant (after the first point the two scratch rows are named), the proof data at the contents `V` the region is
  entered with, and the body obligation: at every point the kernel body runs from the invariant and the windows'
  current buffers to the invariant at the next point and the buffers at what the proof data says.
-/
import proofs.«125521_j15702400434434_2_alg».proof.Proof.K.LseRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The score tile's buffer holds its block at every point (it is fetched at every point). -/
theorem beforeS_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The key tile's buffer holds its block at every point: fetched at the first tile of a column block, and in place
    (the block index does not move) at the seven that follow. -/
theorem beforeK_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What one point leaves in the three rows -/

/-- (output row, running maximum, running mass) after a FIRST tile: the output row is not stored (a placeholder
    nothing reads: the window is idle there and not written back), the scratch rows hold what the run's stores left. -/
def firstRows (c : Dev nD) (t : Fin cfg2.N) (h0 : t.val % 8 = 0) : Vec F S1x2048 .f32 × Vec F S1x2048 .f32 × Vec F S1x2048 .f32 :=
  (vOut.read (Elt F) (vOut.writes (Elt F) vOut.junk []),
   vMax.read (Elt F) (vMax.writes (Elt F) vMax.junk (runFirst c (grid2.coords t) (mS t) (hS t) (mK t) (hK t) (mOut t) (hOut t) mMax (Memref.isWhole_whole _) mMass (Memref.isWhole_whole _) ((firstTile_iff t).mpr h0) (fun h => by have := (lastTile_iff t).mp h; omega) (iblk2 V c 0 t) (iblk2 V c 1 t)).1),
   vMass.read (Elt F) (vMass.writes (Elt F) vMass.junk (runFirst c (grid2.coords t) (mS t) (hS t) (mK t) (hK t) (mOut t) (hOut t) mMax (Memref.isWhole_whole _) mMass (Memref.isWhole_whole _) ((firstTile_iff t).mpr h0) (fun h => by have := (lastTile_iff t).mp h; omega) (iblk2 V c 0 t) (iblk2 V c 1 t)).2.1))

/-- After a MIDDLE tile, from the scratch rows `xm`, `xl` the tile before left. -/
def middleRows (c : Dev nD) (t : Fin cfg2.N) (h0 : ¬t.val % 8 = 0) (h1 : ¬t.val % 8 = 7) (xm xl : Vec F S1x2048 .f32) : Vec F S1x2048 .f32 × Vec F S1x2048 .f32 × Vec F S1x2048 .f32 :=
  (vOut.read (Elt F) (vOut.writes (Elt F) vOut.junk []),
   vMax.read (Elt F) (vMax.writes (Elt F) vMax.junk (runMiddle c (grid2.coords t) (mS t) (hS t) (mK t) (hK t) (mOut t) (hOut t) mMax (Memref.isWhole_whole _) mMass (Memref.isWhole_whole _) (fun h => h0 ((firstTile_iff t).mp h)) (fun h => h1 ((lastTile_iff t).mp h)) (iblk2 V c 0 t) (iblk2 V c 1 t) xm xl).1),
   vMass.read (Elt F) (vMass.writes (Elt F) vMass.junk (runMiddle c (grid2.coords t) (mS t) (hS t) (mK t) (hK t) (mOut t) (hOut t) mMax (Memref.isWhole_whole _) mMass (Memref.isWhole_whole _) (fun h => h0 ((firstTile_iff t).mp h)) (fun h => h1 ((lastTile_iff t).mp h)) (iblk2 V c 0 t) (iblk2 V c 1 t) xm xl).2.1))

/-- After a LAST tile: the output row too holds what the run's store left. -/
def lastRows (c : Dev nD) (t : Fin cfg2.N) (h0 : ¬t.val % 8 = 0) (h1 : t.val % 8 = 7) (xm xl : Vec F S1x2048 .f32) : Vec F S1x2048 .f32 × Vec F S1x2048 .f32 × Vec F S1x2048 .f32 :=
  (vOut.read (Elt F) (vOut.writes (Elt F) vOut.junk (runLast c (grid2.coords t) (mS t) (hS t) (mK t) (hK t) (mOut t) (hOut t) mMax (Memref.isWhole_whole _) mMass (Memref.isWhole_whole _) (fun h => h0 ((firstTile_iff t).mp h)) ((lastTile_iff t).mpr h1) (iblk2 V c 0 t) (iblk2 V c 1 t) xm xl).1),
   vMax.read (Elt F) (vMax.writes (Elt F) vMax.junk (runLast c (grid2.coords t) (mS t) (hS t) (mK t) (hK t) (mOut t) (hOut t) mMax (Memref.isWhole_whole _) mMass (Memref.isWhole_whole _) (fun h => h0 ((firstTile_iff t).mp h)) ((lastTile_iff t).mpr h1) (iblk2 V c 0 t) (iblk2 V c 1 t) xm xl).2.1),
   vMass.read (Elt F) (vMass.writes (Elt F) vMass.junk (runLast c (grid2.coords t) (mS t) (hS t) (mK t) (hK t) (mOut t) (hOut t) mMax (Memref.isWhole_whole _) mMass (Memref.isWhole_whole _) (fun h => h0 ((firstTile_iff t).mp h)) ((lastTile_iff t).mpr h1) (iblk2 V c 0 t) (iblk2 V c 1 t) xm xl).2.2.1))

/-! ## The rows after each point -/

/-- THE RECURRENCE over the grid's points: a first tile starts afresh, every other tile continues from the scratch
    rows the point before left. -/
def rowsAt (c : Dev nD) : (n : ℕ) → n < cfg2.N → Vec F S1x2048 .f32 × Vec F S1x2048 .f32 × Vec F S1x2048 .f32
  | 0, hn => firstRows V c ⟨0, hn⟩ (Nat.zero_mod _)
  | n + 1, hn =>
    if h0 : (n + 1) % 8 = 0 then firstRows V c ⟨n + 1, hn⟩ h0
    else if h1 : (n + 1) % 8 = 7 then
      lastRows V c ⟨n + 1, hn⟩ h0 h1 (rowsAt c n (Nat.lt_of_succ_lt hn)).2.1 (rowsAt c n (Nat.lt_of_succ_lt hn)).2.2
    else
      middleRows V c ⟨n + 1, hn⟩ h0 h1 (rowsAt c n (Nat.lt_of_succ_lt hn)).2.1 (rowsAt c n (Nat.lt_of_succ_lt hn)).2.2

theorem rowsAt_first (c : Dev nD) (t : Fin cfg2.N) (h0 : t.val % 8 = 0) : rowsAt V c t.val t.isLt = firstRows V c t h0 := by
  obtain ⟨n, hn⟩ := t
  cases n with
  | zero => rfl
  | succ n => exact dif_pos h0

theorem rowsAt_middle (c : Dev nD) (t : Fin cfg2.N) (h0 : ¬t.val % 8 = 0) (h1 : ¬t.val % 8 = 7) :
    rowsAt V c t.val t.isLt = middleRows V c t h0 h1 (rowsAt V c (t.val - 1) (Nat.lt_of_le_of_lt (Nat.sub_le _ _) t.isLt)).2.1 (rowsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem rowsAt_last (c : Dev nD) (t : Fin cfg2.N) (h0 : ¬t.val % 8 = 0) (h1 : t.val % 8 = 7) :
    rowsAt V c t.val t.isLt = lastRows V c t h0 h1 (rowsAt V c (t.val - 1) (Nat.lt_of_le_of_lt (Nat.sub_le _ _) t.isLt)).2.1 (rowsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region's invariant -/

/-- Before the first point: every scoped buffer no window stages at anything, the generator register at some state.
    After point `n`: the two scratch rows at what that point left, the other such buffers at anything. -/
def PhiLse (c : Dev nD) : (n : ℕ) → n ≤ cfg2.N → sProp 𝕄
  | 0, _ => Pipeline.ΦA spec2 c
  | n + 1, hn => iprop(iprop(iprop(owns (c : Thread nD τ) mMax fullShare (rowsAt V c n hn).2.1 ∗ owns (c : Thread nD τ) mMass fullShare (rowsAt V c n hn).2.2)
      ∗ Pipeline.scopedRestBut (Ix := Unit) (Name := ℕ) (U := UR sig nD τ) (Lvl := ℕ) (Val := Elt F) spec2 c [cc2_scratch0, cc2_scratch1]) ∗ (∃ r, prngReg c r))

/-- The class invariant with the two scratch rows split out, each at some contents. -/
theorem PhiA2_eq (c : Dev nD) :
    (Pipeline.ΦA spec2 c : sProp 𝕄)
      = iprop(iprop(iprop((∃ d, owns (c : Thread nD τ) mMax fullShare d) ∗ (∃ d, owns (c : Thread nD τ) mMass fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [mMax, mMass, owns_whole]; try rfl

theorem PhiLse_pos (c : Dev nD) (n : ℕ) (h : n ≤ cfg2.N) (hz : n ≠ 0) :
    PhiLse V c n h = iprop(iprop(iprop(owns (c : Thread nD τ) mMax fullShare (rowsAt V c (n - 1) (by omega)).2.1 ∗ owns (c : Thread nD τ) mMass fullShare (rowsAt V c (n - 1) (by omega)).2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- At any point the invariant gives the two scratch rows at SOME contents. -/
theorem PhiLse_forget (c : Dev nD) (n : ℕ) (h : n ≤ cfg2.N) : PhiLse V c n h ⊢ Pipeline.ΦA spec2 c := by
  cases n with
  | zero => exact .rfl
  | succ n =>
    rw [PhiA2_eq]; unfold PhiLse
    iintro ⟨⟨⟨HM, HL⟩, Hr⟩, Hg⟩
    isplitl [HM HL Hr]
    · isplitl [HM HL]
      · isplitl [HM]
        · iexists _; iexact HM
        iexists _; iexact HL
      iexact Hr
    iexact Hg

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (rowsAt V c t.val t.isLt).1
  Φ t := PhiLse V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (rowsAt V c t.val t.isLt).1 := by dsimp only [dat2]
theorem Phi2_castSucc (c : Dev nD) (t : Fin cfg2.N) : (dat2 V c).Φ t.castSucc = PhiLse V c t.val (Nat.le_of_lt t.isLt) := by
  dsimp only [dat2]; simp only [Fin.coe_castSucc]
theorem before2_0 (c : Dev nD) (t : Fin cfg2.N) (d) : (dat2 V c).before 0 t d = iblk2 V c 0 t :=
  beforeS_of V (dat2 V c) (A_eq2 V c 0) (after2_0 V c) t d
theorem before2_1 (c : Dev nD) (t : Fin cfg2.N) (d) : (dat2 V c).before 1 t d = iblk2 V c 1 t :=
  beforeK_of V (dat2 V c) (A_eq2 V c 1) (after2_1 V c) t d

/-! ## The stores of each case cover the rows they write -/

section Covers
variable (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (x0 : Vec F S1024x1024 .bf16) (x1 : Vec F S2048x1024 .bf16) (xm xl : Vec F S1x2048 .f32)

theorem coverFirst_max (hc0 : firstTile i) (hc1 : ¬lastTile i) (y : S1x2048.Idx) : ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1x2048.size (by sl_kernel_rfl) y
theorem coverFirst_mass (hc0 : firstTile i) (hc1 : ¬lastTile i) (y : S1x2048.Idx) : ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1x2048.size (by sl_kernel_rfl) y
theorem coverMiddle_max (hc0 : ¬firstTile i) (hc1 : ¬lastTile i) (y : S1x2048.Idx) : ∃ pc ∈ (runMiddle c i arg2 harg2 arg3 harg3 arg4 harg4 arg5 harg5 arg6 harg6 hc0 hc1 x0 x1 xm xl).1, y ∈ pc.1.set :=
  View.cover_of_tiledL (runMiddle c i arg2 harg2 arg3 harg3 arg4 harg4 arg5 harg5 arg6 harg6 hc0 hc1 x0 x1 xm xl).1 S1x2048.size (by sl_kernel_rfl) y
theorem coverMiddle_mass (hc0 : ¬firstTile i) (hc1 : ¬lastTile i) (y : S1x2048.Idx) : ∃ pc ∈ (runMiddle c i arg2 harg2 arg3 harg3 arg4 harg4 arg5 harg5 arg6 harg6 hc0 hc1 x0 x1 xm xl).2.1, y ∈ pc.1.set :=
  View.cover_of_tiledL (runMiddle c i arg2 harg2 arg3 harg3 arg4 harg4 arg5 harg5 arg6 harg6 hc0 hc1 x0 x1 xm xl).2.1 S1x2048.size (by sl_kernel_rfl) y
theorem coverLast_out (hc0 : ¬firstTile i) (hc1 : lastTile i) (y : S1x2048.Idx) : ∃ pc ∈ (runLast c i arg2 harg2 arg3 harg3 arg4 harg4 arg5 harg5 arg6 harg6 hc0 hc1 x0 x1 xm xl).1, y ∈ pc.1.set :=
  View.cover_of_tiledL (runLast c i arg2 harg2 arg3 harg3 arg4 harg4 arg5 harg5 arg6 harg6 hc0 hc1 x0 x1 xm xl).1 S1x2048.size (by sl_kernel_rfl) y
theorem coverLast_max (hc0 : ¬firstTile i) (hc1 : lastTile i) (y : S1x2048.Idx) : ∃ pc ∈ (runLast c i arg2 harg2 arg3 harg3 arg4 harg4 arg5 harg5 arg6 harg6 hc0 hc1 x0 x1 xm xl).2.1, y ∈ pc.1.set :=
  View.cover_of_tiledL (runLast c i arg2 harg2 arg3 harg3 arg4 harg4 arg5 harg5 arg6 harg6 hc0 hc1 x0 x1 xm xl).2.1 S1x2048.size (by sl_kernel_rfl) y
theorem coverLast_mass (hc0 : ¬firstTile i) (hc1 : lastTile i) (y : S1x2048.Idx) : ∃ pc ∈ (runLast c i arg2 harg2 arg3 harg3 arg4 harg4 arg5 harg5 arg6 harg6 hc0 hc1 x0 x1 xm xl).2.2.1, y ∈ pc.1.set :=
  View.cover_of_tiledL (runLast c i arg2 harg2 arg3 harg3 arg4 harg4 arg5 harg5 arg6 harg6 hc0 hc1 x0 x1 xm xl).2.2.1 S1x2048.size (by sl_kernel_rfl) y
end Covers

/-! ## The body obligation -/

theorem PhiLse_succ (c : Dev nD) (n : ℕ) (hn : n < cfg2.N) :
    PhiLse V c (n + 1) hn = iprop(iprop(iprop(owns (c : Thread nD τ) mMax fullShare (rowsAt V c n hn).2.1 ∗ owns (c : Thread nD τ) mMass fullShare (rowsAt V c n hn).2.2)
      ∗ Pipeline.scopedRestBut (Ix := Unit) (Name := ℕ) (U := UR sig nD τ) (Lvl := ℕ) (Val := Elt F) spec2 c [cc2_scratch0, cc2_scratch1]) ∗ (∃ r, prngReg c r)) := rfl

/-- At any point the invariant gives the two scratch rows at SOME contents, beside the rest. -/
theorem PhiLse_some (c : Dev nD) (n : ℕ) (h : n ≤ cfg2.N) : PhiLse V c n h ⊢ iprop(iprop(iprop((∃ d, owns (c : Thread nD τ) mMax fullShare d) ∗ (∃ d, owns (c : Thread nD τ) mMass fullShare d))
          ∗ Pipeline.scopedRestBut (Ix := Unit) (Name := ℕ) (U := UR sig nD τ) (Lvl := ℕ) (Val := Elt F) spec2 c [cc2_scratch0, cc2_scratch1]) ∗ (∃ r, prngReg c r)) := by
  rw [← PhiA2_eq]; exact PhiLse_forget V c n h

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (mS t) fullShare ((dat2 V c).before 0 t d))
    ∗ (∃ d, owns (c : Thread nD τ) (mK t) fullShare ((dat2 V c).before 1 t d))
    ∗ (∃ d, owns (c : Thread nD τ) (mOut t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4800000 in
/-- The body at any point, by the position of the tile in its column block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiLse V c (t.val + 1) t.isLt from rfl, PhiLse_succ, Phi2_castSucc]
  rw [show (dat2 V c).leavesExact 0 t = owns (c : Thread nD τ) (mS t) fullShare ((dat2 V c).after 0 t) from by
    unfold Dat.leavesExact; rw [live_S t], after2_0]
  rw [show (dat2 V c).leavesExact 1 t = owns (c : Thread nD τ) (mK t) fullShare ((dat2 V c).after 1 t) from by
    unfold Dat.leavesExact; rw [live_K t], after2_1]
  have hN : t.val < 32 := lt_of_lt_of_eq t.isLt (show cfg2.N = 32 from N_2)
  by_cases h0 : t.val % 8 = 0
  · -- a first tile: the scratch rows at anything in, at the seeded-and-updated rows out; the output row untouched
    have hnl : ¬lastTile (grid2.coords t) := fun h => by have := (lastTile_iff t).mp h; omega
    rw [Dat.leavesExact_idle (dat2 V c) 2 t (idle_out t hnl) (noFlush_out t hnl)]
    rw [rowsAt_first V c t h0]
    unfold firstRows; (try dsimp only)
    iintro ⟨HΦ, Ho, ⟨%d0, H0⟩, ⟨%d1, H1⟩, ⟨%d2, H2⟩⟩
    ihave HΦ' := (PhiLse_some V c t.val (Nat.le_of_lt t.isLt)) $$ HΦ
    icases HΦ' with ⟨⟨⟨HM, HL⟩, Hr⟩, Hg⟩
    iapply ((runFirst c (grid2.coords t) (mS t) (hS t) (mK t) (hK t) (mOut t) (hOut t) mMax (Memref.isWhole_whole _) mMass (Memref.isWhole_whole _) ((firstTile_iff t).mpr h0) hnl (iblk2 V c 0 t) (iblk2 V c 1 t)).2.2 ((dat2 V c).before 2 t d2) Set.univ _)
    isplitl [H0]; · iexact H0
    isplitl [H1]; · iexact H1
    isplitl [H2]; · iexact H2
    isplitl [HM]; · iexact HM
    isplitl [HL]; · iexact HL
    iintro ⟨H0, H1, H2, ⟨%em, HM⟩, ⟨%el, HL⟩⟩
    isplitl [HM HL Hr Hg]
    · isplitl [HM HL Hr]
      · isplitl [HM HL]
        · isplitl [HM]
          · unfold owns; iexists _; isplitr
            swap; · iexact HM
            ipureintro; exact View.read_writes_of_cover _ _ _ _ _ (coverFirst_max c _ _ _ _ _ _ _ _ _ _ _ _ _ _ _)
          · unfold owns; iexists _; isplitr
            swap; · iexact HL
            ipureintro; exact View.read_writes_of_cover _ _ _ _ _ (coverFirst_mass c _ _ _ _ _ _ _ _ _ _ _ _ _ _ _)
        iexact Hr
      iexact Hg
    isplitl [Ho]; · iexact Ho
    isplitl [H0]; · iexact H0
    isplitl [H1]; · iexact H1
    iexists _; iexact H2
  · have hnf : ¬firstTile (grid2.coords t) := fun h => h0 ((firstTile_iff t).mp h)
    have hz : t.val ≠ 0 := fun e => h0 (by rw [e])
    rw [PhiLse_pos V c _ _ hz]
    by_cases h1 : t.val % 8 = 7
    · -- a last tile: as a middle one, and the output row stored
      rw [show (dat2 V c).leavesExact 2 t = owns (c : Thread nD τ) (mOut t) fullShare ((dat2 V c).after 2 t) from by
        unfold Dat.leavesExact; rw [live_out t ((lastTile_iff t).mpr h1)], after2_2]
      rw [rowsAt_last V c t h0 h1]
      unfold lastRows; (try dsimp only)
      iintro ⟨⟨⟨⟨HM, HL⟩, Hr⟩, Hg⟩, Ho, ⟨%d0, H0⟩, ⟨%d1, H1⟩, ⟨%d2, H2⟩⟩
      iapply ((runLast c (grid2.coords t) (mS t) (hS t) (mK t) (hK t) (mOut t) (hOut t) mMax (Memref.isWhole_whole _) mMass (Memref.isWhole_whole _) hnf ((lastTile_iff t).mpr h1) (iblk2 V c 0 t) (iblk2 V c 1 t) (rowsAt V c (t.val - 1) (Nat.lt_of_le_of_lt (Nat.sub_le _ _) t.isLt)).2.1 (rowsAt V c (t.val - 1) (Nat.lt_of_le_of_lt (Nat.sub_le _ _) t.isLt)).2.2).2.2.2 Set.univ _)
      isplitl [H0]; · iexact H0
      isplitl [H1]; · iexact H1
      isplitl [H2]; · iexists _; iexact H2
      isplitl [HM]; · iexact HM
      isplitl [HL]; · iexact HL
      iintro ⟨H0, H1, ⟨%eo, H2⟩, ⟨%em, HM⟩, ⟨%el, HL⟩⟩
      isplitl [HM HL Hr Hg]
      · isplitl [HM HL Hr]
        · isplitl [HM HL]
          · isplitl [HM]
            · unfold owns; iexists _; isplitr
              swap; · iexact HM
              ipureintro; exact View.read_writes_of_cover _ _ _ _ _ (coverLast_max c _ _ _ _ _ _ _ _ _ _ _ _ _ _ _ _ _)
            · unfold owns; iexists _; isplitr
              swap; · iexact HL
              ipureintro; exact View.read_writes_of_cover _ _ _ _ _ (coverLast_mass c _ _ _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast_out c _ _ _ _ _ _ _ _ _ _ _ _ _ _ _ _ _)
    · -- a middle tile
      have hnl : ¬lastTile (grid2.coords t) := fun h => h1 ((lastTile_iff t).mp h)
      rw [Dat.leavesExact_idle (dat2 V c) 2 t (idle_out t hnl) (noFlush_out t hnl)]
      rw [rowsAt_middle V c t h0 h1]
      unfold middleRows; (try dsimp only)
      iintro ⟨⟨⟨⟨HM, HL⟩, Hr⟩, Hg⟩, Ho, ⟨%d0, H0⟩, ⟨%d1, H1⟩, ⟨%d2, H2⟩⟩
      iapply ((runMiddle c (grid2.coords t) (mS t) (hS t) (mK t) (hK t) (mOut t) (hOut t) mMax (Memref.isWhole_whole _) mMass (Memref.isWhole_whole _) hnf hnl (iblk2 V c 0 t) (iblk2 V c 1 t) (rowsAt V c (t.val - 1) (Nat.lt_of_le_of_lt (Nat.sub_le _ _) t.isLt)).2.1 (rowsAt V c (t.val - 1) (Nat.lt_of_le_of_lt (Nat.sub_le _ _) t.isLt)).2.2).2.2 ((dat2 V c).before 2 t d2) Set.univ _)
      isplitl [H0]; · iexact H0
      isplitl [H1]; · iexact H1
      isplitl [H2]; · iexact H2
      isplitl [HM]; · iexact HM
      isplitl [HL]; · iexact HL
      iintro ⟨H0, H1, H2, ⟨%em, HM⟩, ⟨%el, HL⟩⟩
      isplitl [HM HL Hr Hg]
      · isplitl [HM HL Hr]
        · isplitl [HM HL]
          · isplitl [HM]
            · unfold owns; iexists _; isplitr
              swap; · iexact HM
              ipureintro; exact View.read_writes_of_cover _ _ _ _ _ (coverMiddle_max c _ _ _ _ _ _ _ _ _ _ _ _ _ _ _ _ _)
            · unfold owns; iexists _; isplitr
              swap; · iexact HL
              ipureintro; exact View.read_writes_of_cover _ _ _ _ _ (coverMiddle_mass c _ _ _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is what the launch hands the region, -/
theorem hin2 (c : Dev nD) : Pipeline.ΦA spec2 c ⊢ (dat2 V c).Φ 0 := by
  rw [show (dat2 V c).Φ 0 = PhiLse V c 0 (Nat.zero_le _) from rfl]; exact .rfl

/-- and after the last point it gives that back, the scratch rows' contents forgotten. -/
theorem hout2 (c : Dev nD) : (dat2 V c).Φ (Fin.last cfg2.N) ⊢ Pipeline.ΦA spec2 c := by
  rw [show (dat2 V c).Φ (Fin.last cfg2.N) = PhiLse V c (Fin.last cfg2.N).val (Nat.le_of_lt_succ (Fin.last cfg2.N).isLt) from rfl]
  exact PhiLse_forget V c _ _

end Cert.Kernel.Hand

end
-- ==== Proof.K.Fused.lean ====
/-
  The fused attention pass — the fourth kernel region of @main — on one core, stated at the contents `V` the
  TensorCore's buffers hold when the pass is entered, for any float model `F`.

  The pass runs over a grid of 8 × 16 points; point `t` has coordinates (t / 16, t % 16) = (row block, column block).
  At a point it reads a score block S [1024,1024] (row block t / 16), a key block K [512,1024], a value block
  W [512,2048] and a log-sum-exp row ℓ [1,512] (all three at column block t % 16). It stores the probabilities
  P = exp(S·Kᵀ − ℓ) ([1024,512], `k3_pay2`) as block (t / 16, t % 16) of the attention result, written back at every point,
  and adds bf16(P)·W into block t / 16 of the fused result ([1024,2048], `k3_pay3`): that block stays in one staging
  buffer for the 16 points of a row block, is set to zero (`k3_pay1`) at the first of them — the one test of the body,
  on the second grid coordinate — and is written back after the last.

  Every load and every store of the body is of a whole staging buffer. So each of the two cases of the test has a
  triple with explicit contents (`fused_first`, `fused_later`): the attention block ends at `k3_pay2` of the operand
  blocks, the fused block at one accumulation step (`step3`) over the zero block, resp. over what the buffer held.
  What the fused block's buffer holds after each point is then a recursion on the point (`accAt3`; as a fold over the
  row block's points so far, `accAt3_eq_fold`), and the pass's proof data `dat3` states it; `body_obligation3` is the
  pipeline rule's obligation for that data: at a first position the results' buffers may hold anything, at a later
  position the fused block's buffer still holds what the point before left, because it is the same buffer, never idle,
  and written back only at positions ≡ 15 (mod 16).
-/
import proofs.«125521_j15702400434434_2_alg».proof.Proof.Gen.Kernel.Launch
import proofs.«125521_j15702400434434_2_alg».proof.Proof.Gen.Kernel.Skeleton
import proofs.«125521_j15702400434434_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Fused

/- The TensorCore's buffer contents when the fused attention pass is entered: everything below is stated at this
   parameter. -/
variable (V : (c : Dev nD) → (b : Ref sig .tc) → Buf (Elt F) ((c : Thread nD τ).loc b))

/-! ## The operand blocks of a grid point -/

/-- The block of window `w` at grid point `t`, read off the window's array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the operand windows' staging buffers hold when the body runs

For any proof data whose arrays are the entry contents and whose body leaves each operand block in place: an operand's
current staging buffer holds the point's block, whether the point fetched it or an earlier point did (an unfetched
window's block index has not moved). -/

/-- The score block (window 0): fetched only when the row block changes, every sixteenth point; it holds the point's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblock : ∀ s, dat.blockOf 0 s = iblk3 V c 0 s := fun s => by unfold Dat.blockOf iblk3; rw [hA]
  rw [dat.before_in_eq_fetched 0 rfl (fun _ => rfl) (fun _ _ _ => rfl) (fun s => by rw [hafter, hblock]) t d]
  unfold Dat.fetched; rw [hblock]; rfl

/-- The key block (window 1), fetched at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblock : ∀ s, dat.blockOf 1 s = iblk3 V c 1 s := fun s => by unfold Dat.blockOf iblk3; rw [hA]
  rw [dat.before_in_eq_fetched 1 rfl (fun _ => rfl) (fun _ _ _ => rfl) (fun s => by rw [hafter, hblock]) t d]
  unfold Dat.fetched; rw [hblock]; rfl

/-- The value block (window 2), fetched at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblock : ∀ s, dat.blockOf 2 s = iblk3 V c 2 s := fun s => by unfold Dat.blockOf iblk3; rw [hA]
  rw [dat.before_in_eq_fetched 2 rfl (fun _ => rfl) (fun _ _ _ => rfl) (fun s => by rw [hafter, hblock]) t d]
  unfold Dat.fetched; rw [hblock]; rfl

/-- The log-sum-exp row (window 3), fetched at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblock : ∀ s, dat.blockOf 3 s = iblk3 V c 3 s := fun s => by unfold Dat.blockOf iblk3; rw [hA]
  rw [dat.before_in_eq_fetched 3 rfl (fun _ => rfl) (fun _ _ _ => rfl) (fun s => by rw [hafter, hblock]) t d]
  unfold Dat.fetched; rw [hblock]; rfl

/-- What any view of a buffer reads after a LAST store through the buffer's full rectangle (zero offsets, the buffer's
    own sizes): that store's payload, whatever was stored before and whatever the buffer held. -/
theorem read_writes_whole_last {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The body's branch -/

/-- The one test of the body: the position along the inner grid axis is the first (the chain of scalar operations the
    body computes from its second grid coordinate, written out). -/
abbrev atStart3 (i : grid3.Coords) : Prop :=
  (Scalar.cmpi .ne (Scalar.extui (Scalar.cmpi .eq (BitVec.ofNat 32 (i 1).val) 0#32)) 0#32) = 1#1

/-- At grid point `t` the test holds exactly when `t` is a multiple of 16 (decided over the 128 points). -/
theorem atStart3_iff : ∀ t : Fin cfg3.N, atStart3 (grid3.coords t) ↔ t.val % 16 = 0 :=
  (by decide +kernel : ∀ t : Fin grid3.N, atStart3 (grid3.coords t) ↔ t.val % 16 = 0)

/-- The two-axis zero offset, as the constant function. -/
theorem zeroOff : (![0, 0] : Fin 2 → Nat) = fun _ => 0 := funext fun a => by fin_cases a <;> rfl

/-! ## The body on any staging memrefs -/

set_option maxHeartbeats 1000000 in
/-- AT THE FIRST POSITION of the inner axis. On whole staging memrefs, the four operands' at contents `x0` (scores),
    `x1` (keys), `x2` (values), `x3` (log-sum-exp row) and the two results' at anything, the body runs to the
    continuation with the operands as they were, the attention block at `k3_pay2 x0 x1 x3` and the fused block at one
    accumulation step over the zero block: the zero store is overwritten by the second store, which read it back. -/
theorem fused_first (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x2048 .bf16) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S1024x2048 .f32) (harg7 : arg7.IsWhole)
    (hi : atStart3 i)
    (x0 : Vec F S1024x1024 .bf16) (x1 : Vec F S512x1024 .bf16) (x2 : Vec F S512x2048 .bf16) (x3 : Vec F S1x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k3_pay2 x0 x1 x3)
            ∗ owns (c : Thread nD τ) arg7 fullShare (k3_pay3 x0 x1 x3 x2 k3_pay1)) -∗ K ⟨⟩))
      ⊢ wp frame (wpE (defs₀ (F := F)) Variants.none c none) E
          (cc3__fused_kernel i arg2 harg2 arg3 harg3 arg4 harg4 arg5 harg5 arg6 harg6 arg7 harg7) K := by
  simp only [cc3__fused_kernel_eq_skeleton]; unfold cc3__fused_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  obtain rfl := harg4.eq_unread hf4; obtain rfl := harg5.eq_unread hf5
  sl_exec (disch := first | exact hi)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_whole_last _ _ zeroOff]
    simp only [View.readAt_eq_ld, harg2.read_unread, harg3.read_unread, harg5.read_unread,
      View.ld_unit_zero (S := S1024x1024) zeroOff, View.ld_unit_zero (S := S512x1024) zeroOff,
      View.ld_unit_zero (S := S1x512) zeroOff]
  · iexists _; isplitr
    swap; · iexact H7
    ipureintro
    sl_unfold_words
    rw [read_writes_whole_last _ _ zeroOff, View.readCov_unit_zero _ zeroOff]
    simp only [View.readAt_eq_ld, harg2.read_unread, harg3.read_unread, harg4.read_unread, harg5.read_unread,
      View.ld_unit_zero (S := S1024x1024) zeroOff, View.ld_unit_zero (S := S512x1024) zeroOff,
      View.ld_unit_zero (S := S512x2048) zeroOff, View.ld_unit_zero (S := S1x512) zeroOff]

set_option maxHeartbeats 1000000 in
/-- AT A LATER POSITION of the inner axis. The same, the fused block's memref now at known contents `acc` (what the
    position before left): the zeroing branch is skipped, and the fused block ends at one accumulation step over `acc`. -/
theorem fused_later (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x2048 .bf16) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S1024x2048 .f32) (harg7 : arg7.IsWhole)
    (hi : ¬atStart3 i)
    (x0 : Vec F S1024x1024 .bf16) (x1 : Vec F S512x1024 .bf16) (x2 : Vec F S512x2048 .bf16) (x3 : Vec F S1x512 .f32)
    (acc : Vec F S1024x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k3_pay2 x0 x1 x3)
            ∗ owns (c : Thread nD τ) arg7 fullShare (k3_pay3 x0 x1 x3 x2 acc)) -∗ K ⟨⟩))
      ⊢ wp frame (wpE (defs₀ (F := F)) Variants.none c none) E
          (cc3__fused_kernel i arg2 harg2 arg3 harg3 arg4 harg4 arg5 harg5 arg6 harg6 arg7 harg7) K := by
  simp only [cc3__fused_kernel_eq_skeleton]; unfold cc3__fused_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3
  obtain rfl := harg4.eq_unread hf4; obtain rfl := harg5.eq_unread hf5
  obtain rfl := harg7.eq_unread hf7
  sl_exec (disch := first | exact hi)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_whole_last _ _ zeroOff]
    simp only [View.readAt_eq_ld, harg2.read_unread, harg3.read_unread, harg5.read_unread,
      View.ld_unit_zero (S := S1024x1024) zeroOff, View.ld_unit_zero (S := S512x1024) zeroOff,
      View.ld_unit_zero (S := S1x512) zeroOff]
  · iexists _; isplitr
    swap; · iexact H7
    ipureintro
    rw [read_writes_whole_last _ _ zeroOff]
    simp only [View.readAt_eq_ld, harg2.read_unread, harg3.read_unread, harg4.read_unread, harg5.read_unread,
      harg7.read_unread, View.ld_unit_zero (S := S1024x1024) zeroOff, View.ld_unit_zero (S := S512x1024) zeroOff,
      View.ld_unit_zero (S := S512x2048) zeroOff, View.ld_unit_zero (S := S1x512) zeroOff,
      View.ld_unit_zero (S := S1024x2048) zeroOff]

/-! ## The fused block's buffer, point by point -/

/-- One accumulation step at grid point `t`: what the body leaves in the fused block's buffer there when the buffer
    held `acc` — `acc` plus the point's probabilities (rounded to bf16) times its value block. -/
def step3 (c : Dev nD) (t : Fin cfg3.N) (acc : Vec F S1024x2048 .f32) : Vec F S1024x2048 .f32 :=
  k3_pay3 (iblk3 V c 0 t) (iblk3 V c 1 t) (iblk3 V c 3 t) (iblk3 V c 2 t) acc

/-- THE RUNNING SUM. What the fused block's staging buffer holds after the body at point `n`: at a multiple of 16 (the
    first position of the inner axis) one step over the zero block; elsewhere one step over what point `n - 1` left
    (the buffer is the same one and is not written back in between). -/
def accAt3 (c : Dev nD) : (n : ℕ) → n < cfg3.N → Vec F S1024x2048 .f32
  | 0, h => step3 V c ⟨0, h⟩ k3_pay1
  | n + 1, h =>
    if (n + 1) % 16 = 0 then step3 V c ⟨n + 1, h⟩ k3_pay1
    else step3 V c ⟨n + 1, h⟩ (accAt3 c n (Nat.lt_of_succ_lt h))

/-- At a first position the running sum restarts from the zero block. -/
theorem accAt3_first (c : Dev nD) (t : Fin cfg3.N) (h0 : t.val % 16 = 0) :
    accAt3 V c t.val t.isLt = step3 V c t k3_pay1 := by
  obtain ⟨n, hn⟩ := t
  cases n with
  | zero => rfl
  | succ n => exact (if_pos h0).trans rfl

/-- At a later position it steps from the point before. -/
theorem accAt3_later (c : Dev nD) (t : Fin cfg3.N) (h0 : ¬t.val % 16 = 0) :
    accAt3 V c t.val t.isLt = step3 V c t (accAt3 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The same over bare point numbers, in the form a fold lemma takes: the restart at the multiples of 16, -/
theorem accAt3_restart (c : Dev nD) (n : ℕ) (h : n < cfg3.N) (h0 : n % 16 = 0) :
    accAt3 V c n h = step3 V c ⟨n, h⟩ k3_pay1 :=
  accAt3_first V c ⟨n, h⟩ h0

/-- and the step elsewhere. -/
theorem accAt3_succ (c : Dev nD) (n : ℕ) (h : n + 1 < cfg3.N) (h0 : ¬(n + 1) % 16 = 0) :
    accAt3 V c (n + 1) h = step3 V c ⟨n + 1, h⟩ (accAt3 V c n (Nat.lt_of_succ_lt h)) :=
  (if_neg h0).trans rfl

/-- So after point `t` the fused block's buffer holds the fold over the points of `t`'s row block up to `t`: one step
    over the zero block at the row block's first point `16·(t / 16)`, then one step per later point. -/
theorem accAt3_eq_fold (c : Dev nD) (t : ℕ) (ht : t < cfg3.N) (h' : 16 * (t / 16) + t % 16 < cfg3.N) :
    accAt3 V c t ht
      = Pipeline.accAt (fun n h => step3 V c ⟨n, h⟩ k3_pay1) (fun n h acc => step3 V c ⟨n, h⟩ acc) (16 * (t / 16)) (t % 16) h' :=
  Pipeline.eq_accAt_of_mod (accAt3 V c) 16 _ _ (accAt3_restart V c) (accAt3_succ V c) (by decide) t ht h'

/-! ## The proof data of the pass -/

/-- The proof data of the fused attention pass on core `c`: the arrays as the pass finds them; after the body at point
    `t` each operand's buffer still at its block, the attention block's at `k3_pay2` of the point's score, key and
    log-sum-exp blocks, the fused block's at the running sum; the invariant only the buffers the pass does not stage and
    the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay2 (iblk3 V c 0 t) (iblk3 V c 1 t) (iblk3 V c 3 t)
    | ⟨5, _⟩ => accAt3 V c t.val t.isLt
  Φ _ := Pipeline.ΦA spec3 c
  q _ := fullShare
  owed _ := 0

/-- Its arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay2 (iblk3 V c 0 t) (iblk3 V c 1 t) (iblk3 V c 3 t) := by dsimp only [dat3]
theorem after3_5 (c : Dev nD) (t : Fin cfg3.N) : (dat3 V c).after 5 t = accAt3 V c t.val t.isLt := by dsimp only [dat3]

/-- What the body finds in each operand's buffer: the point's block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What it finds in the fused block's buffer at a later position: what the point before left. The point is not the
    first; the window is written back only at the last position of the inner axis (`t % 16 = 15`), which the point
    before is not; the window is never idle and its blocks are whole. -/
theorem before3_5_later (c : Dev nD) (t : Fin cfg3.N) (h0 : ¬t.val % 16 = 0) (d) :
    (dat3 V c).before 5 t d = accAt3 V c (t.val - 1) (Nat.lt_of_le_of_lt (Nat.sub_le _ _) t.isLt) := by
  have hprev : (cfg3.win 5).flush ⟨t.val - 1, Nat.lt_of_le_of_lt (Nat.sub_le _ _) t.isLt⟩ = false :=
    Bool.eq_false_iff.mpr fun h => by have := (flush3_5 _).mp h; dsimp only at this; omega
  rw [Dat.before_out_kept _ 5 rfl t (by omega) hprev (fun _ => rfl) (fun _ _ => rfl)]
  dsimp only [dat3]

/-! ## The body obligation -/

/-- What the body is called with at point `t`: the invariant, the owed tallies, and each window's current staging
    buffer at what the proof data says it holds. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 800000 in
/-- The body at any point. The operands' buffers hold their blocks; whether the point is a first position of the inner
    axis is read off its number; at a first position the results' buffers may hold anything, at a later one the fused
    block's holds the running sum so far; the matching triple applies; the invariant and the tallies pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  by_cases h0 : t.val % 16 = 0
  · rw [accAt3_first V c t h0]
    unfold step3
    iintro ⟨HΦ, Ho, ⟨%d0, H0⟩, ⟨%d1, H1⟩, ⟨%d2, H2⟩, ⟨%d3, H3⟩, ⟨%d4, H4⟩, ⟨%d5, H5⟩⟩
    iapply (fused_first c Set.univ (grid3.coords t) _ _ _ _ _ _ _ _ _ _ _ _ ((atStart3_iff t).mpr h0)
      (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt3_later V c t h0]
    simp only [before3_5_later V c t h0]
    unfold step3
    iintro ⟨HΦ, Ho, ⟨%d0, H0⟩, ⟨%d1, H1⟩, ⟨%d2, H2⟩, ⟨%d3, H3⟩, ⟨%d4, H4⟩, ⟨%d5, H5⟩⟩
    iapply (fused_later c Set.univ (grid3.coords t) _ _ _ _ _ _ _ _ _ _ _ _ (fun h => h0 ((atStart3_iff t).mp h))
      (iblk3 V c 0 t) (iblk3 V c 1 t) (iblk3 V c 2 t) (iblk3 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation for the pass, at every point. -/
theorem body_obligation3 (c : Dev nD) : BodyObligation (dat3 (F := F) V c) (defs₀ (F := F)) Variants.none () Set.univ := fun t => by
  rw [bigSep_W3, bigSep_W3]
  exact sound_body3 V c t

end Fused

end Cert.Kernel.Hand

end
-- ==== Proof.K.Frame.lean ====
/-
  The four kernel regions in sequence. Between two items of the program every unscoped buffer of a core is held whole
  at a known valuation: the launch memory, then each host stretch applied, then each region's outputs replaced by what
  its write-backs leave. Each region's proof data is stated at the valuation the region is entered with, so the
  valuations are built stage by stage, and each region is packaged as a segment entered at one stage and left at the next.
-/
import proofs.«125521_j15702400434434_2_alg».proof.Proof.K.Proj
import proofs.«125521_j15702400434434_2_alg».proof.Proof.K.Lse
import proofs.«125521_j15702400434434_2_alg».proof.Proof.K.Fused
import proofs.«125521_j15702400434434_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents between items, stage by stage -/

/-- A valuation read at the TensorCore's references: what a region's proof data takes. -/
abbrev atTc (W : Dev nD → Valuation τ sig (Elt F)) (c : Dev nD) (b : Ref sig .tc) : Buf (Elt F) ((c : Thread nD τ).loc b) := W c b

/-- After the first host stretch (the two bias rows reshaped). -/
abbrev U1 (c : Dev nD) : Valuation τ sig (Elt F) := Gen.V1 m c
/-- What the first projection leaves in its output array. -/
def o2 (c : Dev nD) : Buf (Elt F) ((c : Thread nD τ).loc main_v2) := (dat0 (atTc (U1 m)) c).arrAt 3 cfg0.N
abbrev U2 (c : Dev nD) : Valuation τ sig (Elt F) := Function.update (U1 m c) main_v2 (o2 m c)
/-- What the second projection leaves. -/
def o3 (c : Dev nD) : Buf (Elt F) ((c : Thread nD τ).loc main_v3) := (dat1 (atTc (U2 m)) c).arrAt 3 cfg1.N
abbrev U3 (c : Dev nD) : Valuation τ sig (Elt F) := Function.update (U2 m c) main_v3 (o3 m c)
/-- What the log-sum-exp pass leaves. -/
def o4 (c : Dev nD) : Buf (Elt F) ((c : Thread nD τ).loc main_v4) := (dat2 (atTc (U3 m)) c).arrAt 2 cfg2.N
abbrev U4 (c : Dev nD) : Valuation τ sig (Elt F) := Function.update (U3 m c) main_v4 (o4 m c)
/-- After the second host stretch (the value matrix's format change). -/
abbrev U5 (c : Dev nD) : Valuation τ sig (Elt F) := StableHlo.after hostOps3 (U4 m c)
/-- What the fused pass leaves in its two output arrays. -/
def o60 (c : Dev nD) : Buf (Elt F) ((c : Thread nD τ).loc main_v6_0) := (dat3 (atTc (U5 m)) c).arrAt 4 cfg3.N
def o61 (c : Dev nD) : Buf (Elt F) ((c : Thread nD τ).loc main_v6_1) := (dat3 (atTc (U5 m)) c).arrAt 5 cfg3.N
abbrev U6 (c : Dev nD) : Valuation τ sig (Elt F) := Function.update (Function.update (U5 m c) main_v6_0 (o60 m c)) main_v6_1 (o61 m c)

/-- What the regions leave, as the unknowns the conditional frame is stated over: stage `J`'s valuation read at `r`. -/
def outs : Gen.Outs (F := F) := fun J r c =>
  match J with
  | 2 => U2 m c r
  | 3 => U3 m c r
  | 4 => U4 m c r
  | 6 => U6 m c r
  | _ => m ((c : Thread nD τ).loc r)

theorem V2_eq (c : Dev nD) : Gen.V2 m (outs m) c = U2 m c := by
  show Function.update (Gen.V1 m c) main_v2 (U2 m c main_v2) = U2 m c
  rw [show U2 m c main_v2 = o2 m c from Function.update_self ..]
theorem V3_eq (c : Dev nD) : Gen.V3 m (outs m) c = U3 m c := by
  show Function.update (Gen.V2 m (outs m) c) main_v3 (U3 m c main_v3) = U3 m c
  rw [V2_eq, show U3 m c main_v3 = o3 m c from Function.update_self ..]
theorem V4_eq (c : Dev nD) : Gen.V4 m (outs m) c = U4 m c := by
  show Function.update (Gen.V3 m (outs m) c) main_v4 (U4 m c main_v4) = U4 m c
  rw [V3_eq, show U4 m c main_v4 = o4 m c from Function.update_self ..]
theorem V5_eq (c : Dev nD) : Gen.V5 m (outs m) c = U5 m c := by
  show StableHlo.after hostOps3 (Gen.V4 m (outs m) c) = U5 m c
  rw [V4_eq]
theorem V6_eq (c : Dev nD) : Gen.V6 m (outs m) c = U6 m c := by
  show Function.update (Function.update (Gen.V5 m (outs m) c) main_v6_0 (U6 m c main_v6_0)) main_v6_1 (U6 m c main_v6_1) = U6 m c
  rw [V5_eq, show U6 m c main_v6_1 = o61 m c from Function.update_self ..,
    show U6 m c main_v6_0 = o60 m c from (Function.update_of_ne (StableHlo.devRef_ne_of_ne (by decide) : (Proc.devRef .tc main_v6_0 : DevRef τ sig) ≠ Proc.devRef .tc main_v6_1) _ _).trans (Function.update_self ..)]

/-! ## The proof data family and what rides beside the buffers -/

/-- Every region's proof data, each at the contents its region is entered with (a literal match). -/
def pdats : (p : Fin 4) → (c : Dev nD) → Dat τ (Elt F) Unit ℕ (UR sig nD τ) ℕ (cfgs p) c
  | ⟨0, _⟩ => fun c => dat0 (atTc (U1 m)) c
  | ⟨1, _⟩ => fun c => dat1 (atTc (U2 m)) c
  | ⟨2, _⟩ => fun c => dat2 (atTc (U3 m)) c
  | ⟨3, _⟩ => fun c => dat3 (atTc (U5 m)) c

/-- No core owes another anything: no level is assigned. -/
abbrev Lz : GSem nD τ sig → Finset Unit := fun _ => ∅
abbrev lvz : GSem nD τ sig → Unit → ℕ := fun _ _ => 0
/-- Beside the buffers, through every item: the generator register at some state, and the core owing nothing. -/
abbrev Rst (c : Dev nD) : sProp 𝕄 := iprop((∃ r, prngReg c r) ∗ ∃ W, owes (c : Thread nD τ) (0 : CellTallies nD τ sig Unit) W)

/-! ## Each region's arrays after it, and the buffers it leaves alone -/

theorem left0 (c : Dev nD) : ∀ w : Fin cfg0.W, (pdats m 0 c).arrAt w cfg0.N = atTc (U2 m) c (Pipeline.arrRef spec0 w) := fun
  | 0 => ((dat0 (atTc (U1 m)) c).arrAt_in 0 rfl _).trans ((A_eq0 (atTc (U1 m)) c 0).trans (Function.update_of_ne (StableHlo.devRef_ne_of_ne (by decide) : (Proc.devRef .tc main_arg0 : DevRef τ sig) ≠ Proc.devRef .tc main_v2) _ _).symm)
  | 1 => ((dat0 (atTc (U1 m)) c).arrAt_in 1 rfl _).trans ((A_eq0 (atTc (U1 m)) c 1).trans (Function.update_of_ne (StableHlo.devRef_ne_of_ne (by decide) : (Proc.devRef .tc main_arg2 : DevRef τ sig) ≠ Proc.devRef .tc main_v2) _ _).symm)
  | 2 => ((dat0 (atTc (U1 m)) c).arrAt_in 2 rfl _).trans ((A_eq0 (atTc (U1 m)) c 2).trans (Function.update_of_ne (StableHlo.devRef_ne_of_ne (by decide) : (Proc.devRef .tc main_v0 : DevRef τ sig) ≠ Proc.devRef .tc main_v2) _ _).symm)
  | 3 => (show (pdats m 0 c).arrAt 3 cfg0.N = o2 m c from rfl).trans (show U2 m c main_v2 = o2 m c from Function.update_self ..).symm
  | ⟨_ + 4, h⟩ => absurd h (Nat.not_lt.2 (Nat.le_add_left _ _))
theorem rest0 (c : Dev nD) : ∀ b, b ∉ Finset.univ.image (Pipeline.arrRef spec0) → atTc (U2 m) c b = atTc (U1 m) c b :=
  fun b hb => Function.update_of_ne (StableHlo.devRef_ne_of_ne fun e => hb (Finset.mem_image.mpr ⟨3, Finset.mem_univ _, e.symm⟩)) _ _

theorem left1 (c : Dev nD) : ∀ w : Fin cfg1.W, (pdats m 1 c).arrAt w cfg1.N = atTc (U3 m) c (Pipeline.arrRef spec1 w) := fun
  | 0 => ((dat1 (atTc (U2 m)) c).arrAt_in 0 rfl _).trans ((A_eq1 (atTc (U2 m)) c 0).trans (Function.update_of_ne (StableHlo.devRef_ne_of_ne (by decide) : (Proc.devRef .tc main_arg1 : DevRef τ sig) ≠ Proc.devRef .tc main_v3) _ _).symm)
  | 1 => ((dat1 (atTc (U2 m)) c).arrAt_in 1 rfl _).trans ((A_eq1 (atTc (U2 m)) c 1).trans (Function.update_of_ne (StableHlo.devRef_ne_of_ne (by decide) : (Proc.devRef .tc main_arg4 : DevRef τ sig) ≠ Proc.devRef .tc main_v3) _ _).symm)
  | 2 => ((dat1 (atTc (U2 m)) c).arrAt_in 2 rfl _).trans ((A_eq1 (atTc (U2 m)) c 2).trans (Function.update_of_ne (StableHlo.devRef_ne_of_ne (by decide) : (Proc.devRef .tc main_v1 : DevRef τ sig) ≠ Proc.devRef .tc main_v3) _ _).symm)
  | 3 => (show (pdats m 1 c).arrAt 3 cfg1.N = o3 m c from rfl).trans (show U3 m c main_v3 = o3 m c from Function.update_self ..).symm
  | ⟨_ + 4, h⟩ => absurd h (Nat.not_lt.2 (Nat.le_add_left _ _))
theorem rest1 (c : Dev nD) : ∀ b, b ∉ Finset.univ.image (Pipeline.arrRef spec1) → atTc (U3 m) c b = atTc (U2 m) c b :=
  fun b hb => Function.update_of_ne (StableHlo.devRef_ne_of_ne fun e => hb (Finset.mem_image.mpr ⟨3, Finset.mem_univ _, e.symm⟩)) _ _

theorem left2 (c : Dev nD) : ∀ w : Fin cfg2.W, (pdats m 2 c).arrAt w cfg2.N = atTc (U4 m) c (Pipeline.arrRef spec2 w) := fun
  | 0 => ((dat2 (atTc (U3 m)) c).arrAt_in 0 rfl _).trans ((A_eq2 (atTc (U3 m)) c 0).trans (Function.update_of_ne (StableHlo.devRef_ne_of_ne (by decide) : (Proc.devRef .tc main_v2 : DevRef τ sig) ≠ Proc.devRef .tc main_v4) _ _).symm)
  | 1 => ((dat2 (atTc (U3 m)) c).arrAt_in 1 rfl _).trans ((A_eq2 (atTc (U3 m)) c 1).trans (Function.update_of_ne (StableHlo.devRef_ne_of_ne (by decide) : (Proc.devRef .tc main_v3 : DevRef τ sig) ≠ Proc.devRef .tc main_v4) _ _).symm)
  | 2 => (show (pdats m 2 c).arrAt 2 cfg2.N = o4 m c from rfl).trans (show U4 m c main_v4 = o4 m c from Function.update_self ..).symm
  | ⟨_ + 3, h⟩ => absurd h (Nat.not_lt.2 (Nat.le_add_left _ _))
theorem rest2 (c : Dev nD) : ∀ b, b ∉ Finset.univ.image (Pipeline.arrRef spec2) → atTc (U4 m) c b = atTc (U3 m) c b :=
  fun b hb => Function.update_of_ne (StableHlo.devRef_ne_of_ne fun e => hb (Finset.mem_image.mpr ⟨2, Finset.mem_univ _, e.symm⟩)) _ _

/-! ## The regions as segments -/

set_option backward.isDefEq.respectTransparency.types false in
/-- Region 0 as a segment: entered with every unscoped buffer at the contents before it, left with them at the
    contents after it; its arrays are split out of the unscoped buffers at entry and put back at exit, the generator
    register goes into the region's invariant and comes back, nothing is owed, the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ Lz lvz 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit, the generator
    register goes into the region's invariant and comes back, nothing is owed, the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (U2 m)) c).loose
  hwaits := Pipeline.hwaits_of_owed_zero _ _ _ _ Lz lvz 1 fun _ _ => rfl
  pre c := iprop(StableHlo.held (c : Thread nD τ) (Pipeline.ucRefs τ sig) (U2 m c) ∗ Rst c)
  post c := iprop(StableHlo.held (c : Thread nD τ) (Pipeline.ucRefs τ sig) (U3 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (U2 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (U2 m) c) (atTc (U3 m) c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its arrays are split out of the unscoped buffers at entry and put back at exit, the generator
    register goes into the region's invariant and comes back, nothing is owed, the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (U3 m)) c).loose
  hwaits := Pipeline.hwaits_of_owed_zero _ _ _ _ Lz lvz 2 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (U3 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (U3 m)) c)
    unfold Pipeline.ΦA
    iintro ⟨Hp, -, Hr⟩
    isplitl [Hr]; · iexact Hr
    iexact Hp
  hout c := by
    rw [Pipeline.ownSems0_none]
    refine BIBase.Entails.trans (hout2 (atTc (U3 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (U3 m) c) (atTc (U4 m) c) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem left3 (c : Dev nD) : ∀ w : Fin cfg3.W, (pdats m 3 c).arrAt w cfg3.N = atTc (U6 m) c (Pipeline.arrRef spec3 w) := fun
  | 0 => ((dat3 (atTc (U5 m)) c).arrAt_in 0 rfl _).trans ((A_eq3 (atTc (U5 m)) c 0).trans ((Function.update_of_ne (StableHlo.devRef_ne_of_ne (by decide) : (Proc.devRef .tc main_v2 : DevRef τ sig) ≠ Proc.devRef .tc main_v6_1) _ _).trans (Function.update_of_ne (StableHlo.devRef_ne_of_ne (by decide) : (Proc.devRef .tc main_v2 : DevRef τ sig) ≠ Proc.devRef .tc main_v6_0) _ _)).symm)
  | 1 => ((dat3 (atTc (U5 m)) c).arrAt_in 1 rfl _).trans ((A_eq3 (atTc (U5 m)) c 1).trans ((Function.update_of_ne (StableHlo.devRef_ne_of_ne (by decide) : (Proc.devRef .tc main_v3 : DevRef τ sig) ≠ Proc.devRef .tc main_v6_1) _ _).trans (Function.update_of_ne (StableHlo.devRef_ne_of_ne (by decide) : (Proc.devRef .tc main_v3 : DevRef τ sig) ≠ Proc.devRef .tc main_v6_0) _ _)).symm)
  | 2 => ((dat3 (atTc (U5 m)) c).arrAt_in 2 rfl _).trans ((A_eq3 (atTc (U5 m)) c 2).trans ((Function.update_of_ne (StableHlo.devRef_ne_of_ne (by decide) : (Proc.devRef .tc main_v5 : DevRef τ sig) ≠ Proc.devRef .tc main_v6_1) _ _).trans (Function.update_of_ne (StableHlo.devRef_ne_of_ne (by decide) : (Proc.devRef .tc main_v5 : DevRef τ sig) ≠ Proc.devRef .tc main_v6_0) _ _)).symm)
  | 3 => ((dat3 (atTc (U5 m)) c).arrAt_in 3 rfl _).trans ((A_eq3 (atTc (U5 m)) c 3).trans ((Function.update_of_ne (StableHlo.devRef_ne_of_ne (by decide) : (Proc.devRef .tc main_v4 : DevRef τ sig) ≠ Proc.devRef .tc main_v6_1) _ _).trans (Function.update_of_ne (StableHlo.devRef_ne_of_ne (by decide) : (Proc.devRef .tc main_v4 : DevRef τ sig) ≠ Proc.devRef .tc main_v6_0) _ _)).symm)
  | 4 => (show (pdats m 3 c).arrAt 4 cfg3.N = o60 m c from rfl).trans (show U6 m c main_v6_0 = o60 m c from (Function.update_of_ne (StableHlo.devRef_ne_of_ne (by decide) : (Proc.devRef .tc main_v6_0 : DevRef τ sig) ≠ Proc.devRef .tc main_v6_1) _ _).trans (Function.update_self ..)).symm
  | 5 => (show (pdats m 3 c).arrAt 5 cfg3.N = o61 m c from rfl).trans (show U6 m c main_v6_1 = o61 m c from Function.update_self ..).symm
  | ⟨_ + 6, h⟩ => absurd h (Nat.not_lt.2 (Nat.le_add_left _ _))
theorem rest3 (c : Dev nD) : ∀ b, b ∉ Finset.univ.image (Pipeline.arrRef spec3) → atTc (U6 m) c b = atTc (U5 m) c b :=
  fun b hb => (Function.update_of_ne (StableHlo.devRef_ne_of_ne fun e => hb (Finset.mem_image.mpr ⟨5, Finset.mem_univ _, e.symm⟩)) _ _).trans
    (Function.update_of_ne (StableHlo.devRef_ne_of_ne fun e => hb (Finset.mem_image.mpr ⟨4, Finset.mem_univ _, e.symm⟩)) _ _)

set_option backward.isDefEq.respectTransparency.types false in
/-- Region 3 as a segment: entered with every unscoped buffer at the contents before it, left with them at the
    contents after it; its arrays are split out of the unscoped buffers at entry and put back at exit, the generator
    register goes into the region's invariant and comes back, nothing is owed, the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atTc (U5 m)) c).loose
  hwaits := Pipeline.hwaits_of_owed_zero _ _ _ _ Lz lvz 3 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (U5 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]
    unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (U5 m) c) (atTc (U6 m) c) ((pdats m 3 c).arrAt · cfg3.N) (left3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The launch memory as a valuation. -/
abbrev U0 (c : Dev nD) : Valuation τ sig (Elt F) := Gen.V0 m c

/-- A host stretch as a segment over the unscoped buffers from the contents `W`, the generator register and the
    core's empty debt riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- The program's six items in order. -/
abbrev segs : List (Pipeline.Seg (pcfgs (F := F)) Gen.adm (pdats m) () defs₀ Variants.none Lz lvz) :=
  [ .host (hostSeg hostOps0 hostOps0_sub hostOps0_fresh (U0 m)),
    .region (reg0 m), .region (reg1 m), .region (reg2 m),
    .host (hostSeg hostOps3 hostOps3_sub hostOps3_fresh (U4 m)),
    .region (reg3 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates without a fault,
    and in every final state each unscoped buffer of each core holds the last stage's valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = U6 m c b) :=
  Pipeline.θ_run_regions_kit (pcfgs (F := F)) Gen.adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rst c))
    (Tₙ := fun c => iprop(StableHlo.held (c : Thread nD τ) (Pipeline.ucRefs τ sig) (U6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (U6 m c) ∗ Rst c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-! ## What the run says of the arguments and of the results -/

theorem U6_main_arg0 (c : Dev nD) : U6 m c main_arg0 = m ((c : Thread nD τ).loc main_arg0) := by
  rw [← V6_eq]; exact Gen.V6_main_arg0 m (outs m) c
theorem U6_main_arg1 (c : Dev nD) : U6 m c main_arg1 = m ((c : Thread nD τ).loc main_arg1) := by
  rw [← V6_eq]; exact Gen.V6_main_arg1 m (outs m) c
theorem U6_main_arg2 (c : Dev nD) : U6 m c main_arg2 = m ((c : Thread nD τ).loc main_arg2) := by
  rw [← V6_eq]; exact Gen.V6_main_arg2 m (outs m) c
theorem U6_main_arg3 (c : Dev nD) : U6 m c main_arg3 = m ((c : Thread nD τ).loc main_arg3) := by
  rw [← V6_eq]; exact Gen.V6_main_arg3 m (outs m) c
theorem U6_main_arg4 (c : Dev nD) : U6 m c main_arg4 = m ((c : Thread nD τ).loc main_arg4) := by
  rw [← V6_eq]; exact Gen.V6_main_arg4 m (outs m) c
theorem U6_main_arg5 (c : Dev nD) : U6 m c main_arg5 = m ((c : Thread nD τ).loc main_arg5) := by
  rw [← V6_eq]; exact Gen.V6_main_arg5 m (outs m) c
theorem U6_res0 (c : Dev nD) : U6 m c main_v6_0 = o60 m c :=
  (Function.update_of_ne (StableHlo.devRef_ne_of_ne (by decide) : (Proc.devRef .tc main_v6_0 : DevRef τ sig) ≠ Proc.devRef .tc main_v6_1) _ _).trans (Function.update_self ..)
theorem U6_res1 (c : Dev nD) : U6 m c main_v6_1 = o61 m c := Function.update_self ..

/-- THE FRAME: every weakly fair execution terminates, nothing faults, the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (U6_main_arg0 m c),
    (h c _ (mem_uc main_arg1 (by decide))).trans (U6_main_arg1 m c),
    (h c _ (mem_uc main_arg2 (by decide))).trans (U6_main_arg2 m c),
    (h c _ (mem_uc main_arg3 (by decide))).trans (U6_main_arg3 m c),
    (h c _ (mem_uc main_arg4 (by decide))).trans (U6_main_arg4 m c),
    (h c _ (mem_uc main_arg5 (by decide))).trans (U6_main_arg5 m c)⟩) (run_all m ρ)

/-- THE RESULTS: the same run, read at the two result arrays too: they end at what the fused pass's write-backs leave. -/
theorem run_results (ρ : Dev nD → PrngReg) : θ_run defs (onTc (τ := τ) (main (F := F))) ⟨m, fun _ => 0, ρ⟩ (fun r => ∀ c : Dev nD,
      r.2.mem ((c.tc : Thread nD τ).loc main_v6_0) = o60 m c
      ∧ r.2.mem ((c.tc : Thread nD τ).loc main_v6_1) = o61 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v6_0 (by decide))).trans (U6_res0 m c), (h c _ (mem_uc main_v6_1 (by decide))).trans (U6_res1 m c),
    (h c _ (mem_uc main_arg0 (by decide))).trans (U6_main_arg0 m c),
    (h c _ (mem_uc main_arg1 (by decide))).trans (U6_main_arg1 m c),
    (h c _ (mem_uc main_arg2 (by decide))).trans (U6_main_arg2 m c),
    (h c _ (mem_uc main_arg3 (by decide))).trans (U6_main_arg3 m c),
    (h c _ (mem_uc main_arg4 (by decide))).trans (U6_main_arg4 m c),
    (h c _ (mem_uc main_arg5 (by decide))).trans (U6_main_arg5 m c)⟩) (run_all m ρ)

end Cert.Kernel.Hand

end
-- ==== Proof.KI.Proj.lean ====
/- The two projection regions of the program (regions 0 and 1 of @main): each computes, block of rows by block of
   rows, the bf16 rounding of  bf16(x) · bf16(W)ᵀ + b  — a matrix product of the row block with the WHOLE weight
   matrix, contracted over the second axis of both, plus the bias row broadcast down the rows. Both regions read
   three arrays and write one; neither carries anything from one grid point to the next, so what each leaves in its
   output block is a function of the three input blocks alone. This file states that function, proves that the
   kernel body computes it, and packages it as the per-point obligation of the region's pipeline, all at a
   parameter `V`: what the TensorCore's buffers hold when the region is entered. -/
import proofs.«125521_j15702400434434_2_alg».proof.Proof.Gen.KernelIdeal.Launch
import proofs.«125521_j15702400434434_2_alg».proof.Proof.Gen.KernelIdeal.Skeleton
import proofs.«125521_j15702400434434_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one whole-buffer store tiles a buffer of 1024 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer rectangles

Every access of either kernel is of a whole staging buffer: the rectangle at offset (0, 0) of the buffer's own
extents. One per buffer shape that occurs. -/

/-- All of a [1024, 1024] buffer: region 0's row block, its weight matrix and its output block. -/
abbrev all1024x1024 : Rect S1024x1024 := Rect.unit (s := S1024x1024) ![0, 0] S1024x1024.size inb_S1024x1024_S1024x1024_0_0
/-- All of a [1, 1024] buffer: either region's bias row. -/
abbrev allRow1024 : Rect S1x1024 := Rect.unit (s := S1x1024) ![0, 0] S1x1024.size inb_S1x1024_S1x1024_0_0
/-- All of a [512, 2048] buffer: region 1's row block. -/
abbrev all512x2048 : Rect S512x2048 := Rect.unit (s := S512x2048) ![0, 0] S512x2048.size inb_S512x2048_S512x2048_0_0
/-- All of a [1024, 2048] buffer: region 1's weight matrix. -/
abbrev all1024x2048 : Rect S1024x2048 := Rect.unit (s := S1024x2048) ![0, 0] S1024x2048.size inb_S1024x2048_S1024x2048_0_0
/-- All of a [512, 1024] buffer: region 1's output block. -/
abbrev all512x1024 : Rect S512x1024 := Rect.unit (s := S512x1024) ![0, 0] S512x1024.size inb_S512x1024_S512x1024_0_0

section AtEntry
-- what the TensorCore's buffers hold when a region is entered; each region's statements are at this parameter
variable (V : (c : Dev nD) → (b : Ref sig .tc) → Buf (Elt F) ((c : Thread nD τ).loc b))

/-! # Region 0: rows of `main_arg0` projected by `main_arg2`, 8 blocks of 1024 rows

Windows: 0 the row block x [1024, 1024] (moves with the point), 1 the weight matrix W [1024, 1024] (whole, fixed),
2 the bias row b [1, 1024] (whole, fixed), 3 the output block [1024, 1024] in bf16 (moves with the point). -/

/-- The block of window `w` at point `t`, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The projection of one row block: what the body's single store, of the whole output buffer, leaves there, as a
    function of the three buffers it loaded whole (`x` the rows, `w` the weights, `b` the bias row). The value
    stored is the kernel's payload  bf16(bf16 x · (bf16 w)ᵀ + b). -/
def out0_3 (x : Vec F S1024x1024 .f32) (w : Vec F S1024x1024 .f32) (b : Vec F S1x1024 .f32) : Vec F S1024x1024 .bf16 :=
  View.canon [⟨all1024x1024, k0_pay1 (View.ld x all1024x1024) (View.ld w all1024x1024) (View.ld b allRow1024)⟩]

/-- That one store is of the whole buffer, so every index of the buffer lies in it. -/
theorem store_covers0 (p : Vec F S1024x1024 .bf16) (y : S1024x1024.Idx) :
    ∃ pc ∈ ([⟨all1024x1024, p⟩] : List (View.Piece (Elt F) S1024x1024 .bf16)), y ∈ pc.1.set :=
  View.cover_of_tiled [⟨all1024x1024, p⟩] S1024x1024.size (by rfl) y

set_option maxHeartbeats 1000000 in
/-- The body of region 0 on four whole staging buffers — the three inputs' at contents `x`, `w`, `b`, the output's at
    anything — runs to its continuation with the inputs' buffers as they were and the output's at the projection
    `out0_3 x w b`. The printed function is its skeleton of memory operations: three whole loads, a load of the output
    buffer whose value is unused, one whole store of the payload. -/
theorem proj_kernel0_runs (c : Dev nD) (E : Set ℕ) (i : grid0.Coords)
    (bx : Memref sig .tc .vmem S1024x1024 .f32) (hbx : bx.IsWhole) (bw : Memref sig .tc .vmem S1024x1024 .f32) (hbw : bw.IsWhole)
    (bb : Memref sig .tc .vmem S1x1024 .f32) (hbb : bb.IsWhole) (bo : Memref sig .tc .vmem S1024x1024 .bf16) (hbo : bo.IsWhole)
    (x : Vec F S1024x1024 .f32) (w : Vec F S1024x1024 .f32) (b : Vec F S1x1024 .f32) (K : PUnit → sProp 𝕄) :
    iprop(owns (c : Thread nD τ) bx fullShare x ∗ owns (c : Thread nD τ) bw fullShare w ∗ owns (c : Thread nD τ) bb fullShare b
        ∗ (∃ d, owns (c : Thread nD τ) bo fullShare d)
        ∗ (iprop(owns (c : Thread nD τ) bx fullShare x ∗ owns (c : Thread nD τ) bw fullShare w ∗ owns (c : Thread nD τ) bb fullShare b
            ∗ owns (c : Thread nD τ) bo fullShare (out0_3 x w b)) -∗ K ⟨⟩))
      ⊢ wp frame (wpE (defs₀ (F := F)) Variants.none c none) E (cc0__proj_kernel i bx hbx bw hbw bb hbb bo hbo) K := by
  simp only [cc0__proj_kernel_eq_skeleton]; unfold cc0__proj_kernel_skel
  unfold owns
  iintro ⟨⟨%fx, %hx, Hx⟩, ⟨%fw, %hw, Hw⟩, ⟨%fb, %hb, Hb⟩, ⟨%d, %fo, -, Ho⟩, Hk⟩
  subst hx hw hb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (store_covers0 _)

/-! ## The region's proof data -/

/-- Region 0's pipeline on core `c`: the windows' arrays as the region finds them; after the body at point `t`, each
    input's buffer still at its block and the output's at the projection of the three input blocks; the invariant
    is the class's (the scoped rest and the generator register, untouched), nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves in each window's buffer (the `match` of `dat0` reduced, one window at a time). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body is handed

An input window's current buffer holds the window's block at EVERY point. The row block is fetched at every point;
the weight matrix and the bias row are fetched at the first point only, and at each later point their block index
has not moved and the body left the buffer as it found it, so it still holds the block. No window is cut at the
array's edge and none is ever idle. -/

/-- The row block. -/
theorem held0_0 (c : Dev nD) (t : Fin cfg0.N) (d) : (dat0 V c).before 0 t d = iblk0 V c 0 t := by
  have keep : ∀ u, (cfg0.win 0).cut (cfg0.grid.coords u) ((dat0 V c).after 0 u) = (dat0 V c).blockOf 0 u := fun u => by
    rw [after0_0]; unfold Dat.blockOf iblk0; rw [A_eq0]
  rw [(dat0 V c).before_in_eq_fetched 0 rfl (fun _ => rfl) (fun _ _ _ => rfl) keep t d]
  unfold Dat.fetched Dat.blockOf iblk0; rw [A_eq0]; rfl

/-- The weight matrix. -/
theorem held0_1 (c : Dev nD) (t : Fin cfg0.N) (d) : (dat0 V c).before 1 t d = iblk0 V c 1 t := by
  have keep : ∀ u, (cfg0.win 1).cut (cfg0.grid.coords u) ((dat0 V c).after 1 u) = (dat0 V c).blockOf 1 u := fun u => by
    rw [after0_1]; unfold Dat.blockOf iblk0; rw [A_eq0]
  rw [(dat0 V c).before_in_eq_fetched 1 rfl (fun _ => rfl) (fun _ _ _ => rfl) keep t d]
  unfold Dat.fetched Dat.blockOf iblk0; rw [A_eq0]; rfl

/-- The bias row. -/
theorem held0_2 (c : Dev nD) (t : Fin cfg0.N) (d) : (dat0 V c).before 2 t d = iblk0 V c 2 t := by
  have keep : ∀ u, (cfg0.win 2).cut (cfg0.grid.coords u) ((dat0 V c).after 2 u) = (dat0 V c).blockOf 2 u := fun u => by
    rw [after0_2]; unfold Dat.blockOf iblk0; rw [A_eq0]
  rw [(dat0 V c).before_in_eq_fetched 2 rfl (fun _ => rfl) (fun _ _ _ => rfl) keep t d]
  unfold Dat.fetched Dat.blockOf iblk0; rw [A_eq0]; rfl

/-! ## The obligation at a point -/

/-- The body at point `t`, called on the windows' current buffers: it is handed the invariant, the core's debt and the
    four buffers at what they then hold, and returns all of them, the output's buffer now at the projection of the
    point's three input blocks. The inputs' buffers hold their blocks (`held0_W`), which is what the kernel's
    triple asks; the invariant and the debt are the same at every point and pass through unread. -/
theorem proj_body0_runs (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)) := by
  unfold bodyAt0
  simp only [held0_0, held0_1, held0_2]
  rw [after0_0, after0_1, after0_2, after0_3,
    show (dat0 V c).Φ t.succ = (dat0 V c).Φ t.castSucc from rfl,
    show (dat0 V c).owesAt () t.succ = (dat0 V c).owesAt () t.castSucc from rfl]
  iintro ⟨HΦ, Hdebt, ⟨%dx, Hx⟩, ⟨%dw, Hw⟩, ⟨%db, Hb⟩, ⟨%dy, Hy⟩⟩
  iapply (proj_kernel0_runs c Set.univ (grid0.coords t) _ _ _ _ _ _ _ _ (iblk0 V c 0 t) (iblk0 V c 1 t) (iblk0 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hdebt]; · iexact Hdebt
  isplitl [Hx]; · iexact Hx
  isplitl [Hw]; · iexact Hw
  isplitl [Hb]; · iexact Hb
  iexact Hy

/-- Region 0's body obligation: the statement above at every point, the windows listed one by one. -/
theorem body_obligation0 (c : Dev nD) : BodyObligation (dat0 (F := F) V c) (defs₀ (F := F)) Variants.none () Set.univ := fun t => by
  rw [bigSep_W0, bigSep_W0]
  exact proj_body0_runs V c t

/-! # Region 1: rows of `main_arg1` projected by `main_arg4`, 16 blocks of 512 rows

Windows: 0 the row block x [512, 2048] (moves with the point), 1 the weight matrix W [1024, 2048] (whole, fixed),
2 the bias row b [1, 1024] (whole, fixed), 3 the output block [512, 1024] in bf16 (moves with the point). -/

/-- The block of window `w` at point `t`, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The projection of one row block: what the body's single store, of the whole output buffer, leaves there, as a
    function of the three buffers it loaded whole (`x` the rows, `w` the weights, `b` the bias row). The value
    stored is the kernel's payload  bf16(bf16 x · (bf16 w)ᵀ + b). -/
def out1_3 (x : Vec F S512x2048 .f32) (w : Vec F S1024x2048 .f32) (b : Vec F S1x1024 .f32) : Vec F S512x1024 .bf16 :=
  View.canon [⟨all512x1024, k1_pay1 (View.ld x all512x2048) (View.ld w all1024x2048) (View.ld b allRow1024)⟩]

/-- That one store is of the whole buffer, so every index of the buffer lies in it. -/
theorem store_covers1 (p : Vec F S512x1024 .bf16) (y : S512x1024.Idx) :
    ∃ pc ∈ ([⟨all512x1024, p⟩] : List (View.Piece (Elt F) S512x1024 .bf16)), y ∈ pc.1.set :=
  View.cover_of_tiled [⟨all512x1024, p⟩] S512x1024.size (by rfl) y

set_option maxHeartbeats 1000000 in
/-- The body of region 1 on four whole staging buffers — the three inputs' at contents `x`, `w`, `b`, the output's at
    anything — runs to its continuation with the inputs' buffers as they were and the output's at the projection
    `out1_3 x w b`. The printed function is its skeleton of memory operations: three whole loads, a load of the output
    buffer whose value is unused, one whole store of the payload. -/
theorem proj_kernel1_runs (c : Dev nD) (E : Set ℕ) (i : grid1.Coords)
    (bx : Memref sig .tc .vmem S512x2048 .f32) (hbx : bx.IsWhole) (bw : Memref sig .tc .vmem S1024x2048 .f32) (hbw : bw.IsWhole)
    (bb : Memref sig .tc .vmem S1x1024 .f32) (hbb : bb.IsWhole) (bo : Memref sig .tc .vmem S512x1024 .bf16) (hbo : bo.IsWhole)
    (x : Vec F S512x2048 .f32) (w : Vec F S1024x2048 .f32) (b : Vec F S1x1024 .f32) (K : PUnit → sProp 𝕄) :
    iprop(owns (c : Thread nD τ) bx fullShare x ∗ owns (c : Thread nD τ) bw fullShare w ∗ owns (c : Thread nD τ) bb fullShare b
        ∗ (∃ d, owns (c : Thread nD τ) bo fullShare d)
        ∗ (iprop(owns (c : Thread nD τ) bx fullShare x ∗ owns (c : Thread nD τ) bw fullShare w ∗ owns (c : Thread nD τ) bb fullShare b
            ∗ owns (c : Thread nD τ) bo fullShare (out1_3 x w b)) -∗ K ⟨⟩))
      ⊢ wp frame (wpE (defs₀ (F := F)) Variants.none c none) E (cc1__proj_kernel i bx hbx bw hbw bb hbb bo hbo) K := by
  simp only [cc1__proj_kernel_eq_skeleton]; unfold cc1__proj_kernel_skel
  unfold owns
  iintro ⟨⟨%fx, %hx, Hx⟩, ⟨%fw, %hw, Hw⟩, ⟨%fb, %hb, Hb⟩, ⟨%d, %fo, -, Ho⟩, Hk⟩
  subst hx hw hb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (store_covers1 _)

/-! ## The region's proof data -/

/-- Region 1's pipeline on core `c`: the windows' arrays as the region finds them; after the body at point `t`, each
    input's buffer still at its block and the output's at the projection of the three input blocks; the invariant
    is the class's (the scoped rest and the generator register, untouched), nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves in each window's buffer (the `match` of `dat1` reduced, one window at a time). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body is handed

An input window's current buffer holds the window's block at EVERY point. The row block is fetched at every point;
the weight matrix and the bias row are fetched at the first point only, and at each later point their block index
has not moved and the body left the buffer as it found it, so it still holds the block. No window is cut at the
array's edge and none is ever idle. -/

/-- The row block. -/
theorem held1_0 (c : Dev nD) (t : Fin cfg1.N) (d) : (dat1 V c).before 0 t d = iblk1 V c 0 t := by
  have keep : ∀ u, (cfg1.win 0).cut (cfg1.grid.coords u) ((dat1 V c).after 0 u) = (dat1 V c).blockOf 0 u := fun u => by
    rw [after1_0]; unfold Dat.blockOf iblk1; rw [A_eq1]
  rw [(dat1 V c).before_in_eq_fetched 0 rfl (fun _ => rfl) (fun _ _ _ => rfl) keep t d]
  unfold Dat.fetched Dat.blockOf iblk1; rw [A_eq1]; rfl

/-- The weight matrix. -/
theorem held1_1 (c : Dev nD) (t : Fin cfg1.N) (d) : (dat1 V c).before 1 t d = iblk1 V c 1 t := by
  have keep : ∀ u, (cfg1.win 1).cut (cfg1.grid.coords u) ((dat1 V c).after 1 u) = (dat1 V c).blockOf 1 u := fun u => by
    rw [after1_1]; unfold Dat.blockOf iblk1; rw [A_eq1]
  rw [(dat1 V c).before_in_eq_fetched 1 rfl (fun _ => rfl) (fun _ _ _ => rfl) keep t d]
  unfold Dat.fetched Dat.blockOf iblk1; rw [A_eq1]; rfl

/-- The bias row. -/
theorem held1_2 (c : Dev nD) (t : Fin cfg1.N) (d) : (dat1 V c).before 2 t d = iblk1 V c 2 t := by
  have keep : ∀ u, (cfg1.win 2).cut (cfg1.grid.coords u) ((dat1 V c).after 2 u) = (dat1 V c).blockOf 2 u := fun u => by
    rw [after1_2]; unfold Dat.blockOf iblk1; rw [A_eq1]
  rw [(dat1 V c).before_in_eq_fetched 2 rfl (fun _ => rfl) (fun _ _ _ => rfl) keep t d]
  unfold Dat.fetched Dat.blockOf iblk1; rw [A_eq1]; rfl

/-! ## The obligation at a point -/

/-- The body at point `t`, called on the windows' current buffers: it is handed the invariant, the core's debt and the
    four buffers at what they then hold, and returns all of them, the output's buffer now at the projection of the
    point's three input blocks. The inputs' buffers hold their blocks (`held1_W`), which is what the kernel's
    triple asks; the invariant and the debt are the same at every point and pass through unread. -/
theorem proj_body1_runs (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  unfold bodyAt1
  simp only [held1_0, held1_1, held1_2]
  rw [after1_0, after1_1, after1_2, after1_3,
    show (dat1 V c).Φ t.succ = (dat1 V c).Φ t.castSucc from rfl,
    show (dat1 V c).owesAt () t.succ = (dat1 V c).owesAt () t.castSucc from rfl]
  iintro ⟨HΦ, Hdebt, ⟨%dx, Hx⟩, ⟨%dw, Hw⟩, ⟨%db, Hb⟩, ⟨%dy, Hy⟩⟩
  iapply (proj_kernel1_runs c Set.univ (grid1.coords t) _ _ _ _ _ _ _ _ (iblk1 V c 0 t) (iblk1 V c 1 t) (iblk1 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hdebt]; · iexact Hdebt
  isplitl [Hx]; · iexact Hx
  isplitl [Hw]; · iexact Hw
  isplitl [Hb]; · iexact Hb
  iexact Hy

/-- Region 1's body obligation: the statement above at every point, the windows listed one by one. -/
theorem body_obligation1 (c : Dev nD) : BodyObligation (dat1 (F := F) V c) (defs₀ (F := F)) Variants.none () Set.univ := fun t => by
  rw [bigSep_W1, bigSep_W1]
  exact proj_body1_runs V c t

end AtEntry

end Cert.KernelIdeal.Hand

end
-- ==== Proof.KI.LseRuns.lean ====
/-
  The online log-sum-exp pass (the third kernel region): per column block, a running maximum `m` and a running
  mass `l` are kept in two scratch rows across the eight row tiles; the first tile of a column block seeds them,
  every tile updates them, and the last tile writes `m + log l` into the output row.
  This module: the two branch conditions in closed form over the grid (tile index 0, tile index 7), where the
  output row's window is idle, and the kernel body's run in each of the three control cases, on whole staging
  memrefs, with the pieces each buffer ends with determined by the run itself.
-/
import proofs.«125521_j15702400434434_2_alg».proof.Proof.Gen.KernelIdeal.Launch
import proofs.«125521_j15702400434434_2_alg».proof.Proof.Gen.KernelIdeal.Skeleton
import proofs.«125521_j15702400434434_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, in closed form -/

/-- "This is the first row tile of the column block": the tile coordinate is 0. -/
abbrev firstTile (i : grid2.Coords) : Prop := (Scalar.cmpi .ne (Scalar.extui (Scalar.cmpi .eq (BitVec.ofNat 32 (i 1).val) 0#32)) 0#32) = 1#1
/-- Over the 4 × 8 grid the first tiles are the points ≡ 0 (mod 8). -/
theorem firstTile_iff : ∀ t : Fin cfg2.N, firstTile (grid2.coords t) ↔ t.val % 8 = 0 :=
  (by decide +kernel : ∀ t : Fin grid2.N, firstTile (grid2.coords t) ↔ t.val % 8 = 0)

/-- "This is the last row tile of the column block": the tile coordinate is 7. -/
abbrev lastTile (i : grid2.Coords) : Prop := k2_cond2 i = 1#1
/-- Over the grid the last tiles are the points ≡ 7 (mod 8). -/
theorem lastTile_iff : ∀ t : Fin cfg2.N, lastTile (grid2.coords t) ↔ t.val % 8 = 7 :=
  (by decide +kernel : ∀ t : Fin grid2.N, lastTile (grid2.coords t) ↔ t.val % 8 = 7)

/-! ## Where the windows are idle -/

theorem live_S : ∀ t : Fin cfg2.N, cfg2.idle 0 (grid2.coords t) = false := by decide +kernel
theorem live_K : ∀ t : Fin cfg2.N, cfg2.idle 1 (grid2.coords t) = false := by decide +kernel
/-- The output row is stored only at a last tile: elsewhere its window is idle -/
theorem idle_out : ∀ t : Fin cfg2.N, ¬lastTile (grid2.coords t) → cfg2.idle 2 (grid2.coords t) = true := by decide +kernel
/-- and not written back; -/
theorem noFlush_out : ∀ t : Fin cfg2.N, ¬lastTile (grid2.coords t) → (cfg2.win 2).flush t = false := by decide +kernel
/-- at a last tile it is live. -/
theorem live_out : ∀ t : Fin cfg2.N, lastTile (grid2.coords t) → cfg2.idle 2 (grid2.coords t) = false := by decide +kernel

/-! ## The memrefs the body is called with -/

abbrev mS (t : Fin cfg2.N) : Memref sig .tc .vmem S1024x1024 .bf16 := win2_0.stage (cfg2.slots t 0)
abbrev hS (t : Fin cfg2.N) : (mS t).IsWhole := hstage2_0 ((cfg2.slots t 0).cast nbuf2_0)
abbrev mK (t : Fin cfg2.N) : Memref sig .tc .vmem S2048x1024 .bf16 := win2_1.stage (cfg2.slots t 1)
abbrev hK (t : Fin cfg2.N) : (mK t).IsWhole := hstage2_1 ((cfg2.slots t 1).cast nbuf2_1)
abbrev mOut (t : Fin cfg2.N) : Memref sig .tc .vmem S1x2048 .f32 := win2_2.stage (cfg2.slots t 2)
abbrev hOut (t : Fin cfg2.N) : (mOut t).IsWhole := hstage2_2 ((cfg2.slots t 2).cast nbuf2_2)
/-- The running maximum's and the running mass's scratch rows. -/
abbrev mMax : Memref sig .tc .vmem S1x2048 .f32 := Memref.whole cc2_scratch0
abbrev mMass : Memref sig .tc .vmem S1x2048 .f32 := Memref.whole cc2_scratch1
abbrev vMax : View sig .tc .vmem S1x2048 .f32 := mMax.view
abbrev vMass : View sig .tc .vmem S1x2048 .f32 := mMass.view
abbrev vOut : View sig .tc .vmem S1x2048 .f32 := (Memref.whole cc2_stg2_0 : Memref sig .tc .vmem S1x2048 .f32).view

/-! ## The body's run, case by case -/

set_option maxHeartbeats 2000000 in
/-- FIRST TILE. The score tile and the key tile in; the two scratch rows and the output row at anything. The body
    seeds the scratch rows, updates them from the tile, and leaves the output row untouched. -/
noncomputable def runFirst (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : firstTile i) (hc1 : ¬lastTile i)
    (x0 : Vec F S1024x1024 .bf16) (x1 : Vec F S2048x1024 .bf16) :
    Σ' (LM : List (View.Piece (Elt F) S1x2048 .f32)), { LL : List (View.Piece (Elt F) S1x2048 .f32) //
      ∀ (xo : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc2__lse_kernel i arg2 harg2 arg3 harg3 arg4 harg4 arg5 harg5 arg6 harg6) K } := by
  refine ⟨?_, ?_, fun xo E K => ?run⟩
  case run =>
    simp only [cc2__lse_kernel_eq_skeleton]; unfold cc2__lse_kernel_skel
    unfold owns
    iintro ⟨⟨%f0, %hf0, H0⟩, ⟨%f1, %hf1, H1⟩, ⟨%fo, %hfo, HO⟩, ⟨%dm, %fm, -, HM⟩, ⟨%dl, %fl, -, HL⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    isplitl [HM]
    · iexists _; iexact HM
    iexists _; iexact HL

set_option maxHeartbeats 2000000 in
/-- MIDDLE TILE. The two scratch rows at what the tile before left (`xm`, `xl`); the body updates them from the
    tile and leaves the output row untouched. -/
noncomputable def runMiddle (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬firstTile i) (hc1 : ¬lastTile i)
    (x0 : Vec F S1024x1024 .bf16) (x1 : Vec F S2048x1024 .bf16) (xm xl : Vec F S1x2048 .f32) :
    Σ' (LM : List (View.Piece (Elt F) S1x2048 .f32)), { LL : List (View.Piece (Elt F) S1x2048 .f32) //
      ∀ (xo : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xm ∗ owns (c : Thread nD τ) arg6 fullShare xl
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc2__lse_kernel i arg2 harg2 arg3 harg3 arg4 harg4 arg5 harg5 arg6 harg6) K } := by
  refine ⟨?_, ?_, fun xo E K => ?run⟩
  case run =>
    simp only [cc2__lse_kernel_eq_skeleton]; unfold cc2__lse_kernel_skel
    unfold owns
    iintro ⟨⟨%f0, %hf0, H0⟩, ⟨%f1, %hf1, H1⟩, ⟨%fo, %hfo, HO⟩, ⟨%fm, %hfm, HM⟩, ⟨%fl, %hfl, HL⟩, Hk⟩
    obtain rfl := harg2.eq_unread hf0; obtain rfl := harg3.eq_unread hf1; obtain rfl := harg4.eq_unread hfo
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    isplitl [HM]
    · iexists _; iexact HM
    iexists _; iexact HL

set_option maxHeartbeats 2000000 in
/-- LAST TILE. As a middle tile, and then the output row, at anything before, is stored from the two updated
    scratch rows. -/
noncomputable def runLast (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (hc0 : ¬firstTile i) (hc1 : lastTile i)
    (x0 : Vec F S1024x1024 .bf16) (x1 : Vec F S2048x1024 .bf16) (xm xl : Vec F S1x2048 .f32) :
    Σ' (LO : List (View.Piece (Elt F) S1x2048 .f32)) (LM : List (View.Piece (Elt F) S1x2048 .f32)), { LL : List (View.Piece (Elt F) S1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xm ∗ owns (c : Thread nD τ) arg6 fullShare xl
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LM)
                ∗ (∃ f, arg6.view.loc (c : Thread nD τ) ↦[arg6.view.set]{fullShare} arg6.view.writes (Elt F) f LL)) -∗ K ⟨⟩))
          ⊢ wp frame (wpE (defs₀ (F := F)) Variants.none c none) E (cc2__lse_kernel i arg2 harg2 arg3 harg3 arg4 harg4 arg5 harg5 arg6 harg6) K } := by
  refine ⟨?_, ?_, ?_, fun E K => ?run⟩
  case run =>
    simp only [cc2__lse_kernel_eq_skeleton]; unfold cc2__lse_kernel_skel
    unfold owns
    iintro ⟨⟨%f0, %hf0, H0⟩, ⟨%f1, %hf1, H1⟩, ⟨%dO, %fo, -, HO⟩, ⟨%fm, %hfm, HM⟩, ⟨%fl, %hfl, HL⟩, Hk⟩
    obtain rfl := harg2.eq_unread hf0; obtain rfl := harg3.eq_unread hf1
    obtain rfl := harg5.eq_unread hfm; obtain rfl := harg6.eq_unread hfl
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; iexact HO
    isplitl [HM]
    · iexists _; iexact HM
    iexists _; iexact HL

end Cert.KernelIdeal.Hand

end
-- ==== Proof.KI.Lse.lean ====
/-
  The online log-sum-exp pass, continued: what the output row and the two scratch rows hold after each grid point, by
  recursion on the point (a first tile starts from nothing, a later tile from what the tile before left), the region's
  invariant (after the first point the two scratch rows are named), the proof data at the contents `V` the region is
  entered with, and the body obligation: at every point the kernel body runs from the invariant and the windows'
  current buffers to the invariant at the next point and the buffers at what the proof data says.
-/
import proofs.«125521_j15702400434434_2_alg».proof.Proof.KI.LseRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The score tile's buffer holds its block at every point (it is fetched at every point). -/
theorem beforeS_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The key tile's buffer holds its block at every point: fetched at the first tile of a column block, and in place
    (the block index does not move) at the seven that follow. -/
theorem beforeK_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What one point leaves in the three rows -/

/-- (output row, running maximum, running mass) after a FIRST tile: the output row is not stored (a placeholder
    nothing reads: the window is idle there and not written back), the scratch rows hold what the run's stores left. -/
def firstRows (c : Dev nD) (t : Fin cfg2.N) (h0 : t.val % 8 = 0) : Vec F S1x2048 .f32 × Vec F S1x2048 .f32 × Vec F S1x2048 .f32 :=
  (vOut.read (Elt F) (vOut.writes (Elt F) vOut.junk []),
   vMax.read (Elt F) (vMax.writes (Elt F) vMax.junk (runFirst c (grid2.coords t) (mS t) (hS t) (mK t) (hK t) (mOut t) (hOut t) mMax (Memref.isWhole_whole _) mMass (Memref.isWhole_whole _) ((firstTile_iff t).mpr h0) (fun h => by have := (lastTile_iff t).mp h; omega) (iblk2 V c 0 t) (iblk2 V c 1 t)).1),
   vMass.read (Elt F) (vMass.writes (Elt F) vMass.junk (runFirst c (grid2.coords t) (mS t) (hS t) (mK t) (hK t) (mOut t) (hOut t) mMax (Memref.isWhole_whole _) mMass (Memref.isWhole_whole _) ((firstTile_iff t).mpr h0) (fun h => by have := (lastTile_iff t).mp h; omega) (iblk2 V c 0 t) (iblk2 V c 1 t)).2.1))

/-- After a MIDDLE tile, from the scratch rows `xm`, `xl` the tile before left. -/
def middleRows (c : Dev nD) (t : Fin cfg2.N) (h0 : ¬t.val % 8 = 0) (h1 : ¬t.val % 8 = 7) (xm xl : Vec F S1x2048 .f32) : Vec F S1x2048 .f32 × Vec F S1x2048 .f32 × Vec F S1x2048 .f32 :=
  (vOut.read (Elt F) (vOut.writes (Elt F) vOut.junk []),
   vMax.read (Elt F) (vMax.writes (Elt F) vMax.junk (runMiddle c (grid2.coords t) (mS t) (hS t) (mK t) (hK t) (mOut t) (hOut t) mMax (Memref.isWhole_whole _) mMass (Memref.isWhole_whole _) (fun h => h0 ((firstTile_iff t).mp h)) (fun h => h1 ((lastTile_iff t).mp h)) (iblk2 V c 0 t) (iblk2 V c 1 t) xm xl).1),
   vMass.read (Elt F) (vMass.writes (Elt F) vMass.junk (runMiddle c (grid2.coords t) (mS t) (hS t) (mK t) (hK t) (mOut t) (hOut t) mMax (Memref.isWhole_whole _) mMass (Memref.isWhole_whole _) (fun h => h0 ((firstTile_iff t).mp h)) (fun h => h1 ((lastTile_iff t).mp h)) (iblk2 V c 0 t) (iblk2 V c 1 t) xm xl).2.1))

/-- After a LAST tile: the output row too holds what the run's store left. -/
def lastRows (c : Dev nD) (t : Fin cfg2.N) (h0 : ¬t.val % 8 = 0) (h1 : t.val % 8 = 7) (xm xl : Vec F S1x2048 .f32) : Vec F S1x2048 .f32 × Vec F S1x2048 .f32 × Vec F S1x2048 .f32 :=
  (vOut.read (Elt F) (vOut.writes (Elt F) vOut.junk (runLast c (grid2.coords t) (mS t) (hS t) (mK t) (hK t) (mOut t) (hOut t) mMax (Memref.isWhole_whole _) mMass (Memref.isWhole_whole _) (fun h => h0 ((firstTile_iff t).mp h)) ((lastTile_iff t).mpr h1) (iblk2 V c 0 t) (iblk2 V c 1 t) xm xl).1),
   vMax.read (Elt F) (vMax.writes (Elt F) vMax.junk (runLast c (grid2.coords t) (mS t) (hS t) (mK t) (hK t) (mOut t) (hOut t) mMax (Memref.isWhole_whole _) mMass (Memref.isWhole_whole _) (fun h => h0 ((firstTile_iff t).mp h)) ((lastTile_iff t).mpr h1) (iblk2 V c 0 t) (iblk2 V c 1 t) xm xl).2.1),
   vMass.read (Elt F) (vMass.writes (Elt F) vMass.junk (runLast c (grid2.coords t) (mS t) (hS t) (mK t) (hK t) (mOut t) (hOut t) mMax (Memref.isWhole_whole _) mMass (Memref.isWhole_whole _) (fun h => h0 ((firstTile_iff t).mp h)) ((lastTile_iff t).mpr h1) (iblk2 V c 0 t) (iblk2 V c 1 t) xm xl).2.2.1))

/-! ## The rows after each point -/

/-- THE RECURRENCE over the grid's points: a first tile starts afresh, every other tile continues from the scratch
    rows the point before left. -/
def rowsAt (c : Dev nD) : (n : ℕ) → n < cfg2.N → Vec F S1x2048 .f32 × Vec F S1x2048 .f32 × Vec F S1x2048 .f32
  | 0, hn => firstRows V c ⟨0, hn⟩ (Nat.zero_mod _)
  | n + 1, hn =>
    if h0 : (n + 1) % 8 = 0 then firstRows V c ⟨n + 1, hn⟩ h0
    else if h1 : (n + 1) % 8 = 7 then
      lastRows V c ⟨n + 1, hn⟩ h0 h1 (rowsAt c n (Nat.lt_of_succ_lt hn)).2.1 (rowsAt c n (Nat.lt_of_succ_lt hn)).2.2
    else
      middleRows V c ⟨n + 1, hn⟩ h0 h1 (rowsAt c n (Nat.lt_of_succ_lt hn)).2.1 (rowsAt c n (Nat.lt_of_succ_lt hn)).2.2

theorem rowsAt_first (c : Dev nD) (t : Fin cfg2.N) (h0 : t.val % 8 = 0) : rowsAt V c t.val t.isLt = firstRows V c t h0 := by
  obtain ⟨n, hn⟩ := t
  cases n with
  | zero => rfl
  | succ n => exact dif_pos h0

theorem rowsAt_middle (c : Dev nD) (t : Fin cfg2.N) (h0 : ¬t.val % 8 = 0) (h1 : ¬t.val % 8 = 7) :
    rowsAt V c t.val t.isLt = middleRows V c t h0 h1 (rowsAt V c (t.val - 1) (Nat.lt_of_le_of_lt (Nat.sub_le _ _) t.isLt)).2.1 (rowsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem rowsAt_last (c : Dev nD) (t : Fin cfg2.N) (h0 : ¬t.val % 8 = 0) (h1 : t.val % 8 = 7) :
    rowsAt V c t.val t.isLt = lastRows V c t h0 h1 (rowsAt V c (t.val - 1) (Nat.lt_of_le_of_lt (Nat.sub_le _ _) t.isLt)).2.1 (rowsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The region's invariant -/

/-- Before the first point: every scoped buffer no window stages at anything, the generator register at some state.
    After point `n`: the two scratch rows at what that point left, the other such buffers at anything. -/
def PhiLse (c : Dev nD) : (n : ℕ) → n ≤ cfg2.N → sProp 𝕄
  | 0, _ => Pipeline.ΦA spec2 c
  | n + 1, hn => iprop(iprop(iprop(owns (c : Thread nD τ) mMax fullShare (rowsAt V c n hn).2.1 ∗ owns (c : Thread nD τ) mMass fullShare (rowsAt V c n hn).2.2)
      ∗ Pipeline.scopedRestBut (Ix := Unit) (Name := ℕ) (U := UR sig nD τ) (Lvl := ℕ) (Val := Elt F) spec2 c [cc2_scratch0, cc2_scratch1]) ∗ (∃ r, prngReg c r))

/-- The class invariant with the two scratch rows split out, each at some contents. -/
theorem PhiA2_eq (c : Dev nD) :
    (Pipeline.ΦA spec2 c : sProp 𝕄)
      = iprop(iprop(iprop((∃ d, owns (c : Thread nD τ) mMax fullShare d) ∗ (∃ d, owns (c : Thread nD τ) mMass fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [mMax, mMass, owns_whole]; try rfl

theorem PhiLse_pos (c : Dev nD) (n : ℕ) (h : n ≤ cfg2.N) (hz : n ≠ 0) :
    PhiLse V c n h = iprop(iprop(iprop(owns (c : Thread nD τ) mMax fullShare (rowsAt V c (n - 1) (by omega)).2.1 ∗ owns (c : Thread nD τ) mMass fullShare (rowsAt V c (n - 1) (by omega)).2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- At any point the invariant gives the two scratch rows at SOME contents. -/
theorem PhiLse_forget (c : Dev nD) (n : ℕ) (h : n ≤ cfg2.N) : PhiLse V c n h ⊢ Pipeline.ΦA spec2 c := by
  cases n with
  | zero => exact .rfl
  | succ n =>
    rw [PhiA2_eq]; unfold PhiLse
    iintro ⟨⟨⟨HM, HL⟩, Hr⟩, Hg⟩
    isplitl [HM HL Hr]
    · isplitl [HM HL]
      · isplitl [HM]
        · iexists _; iexact HM
        iexists _; iexact HL
      iexact Hr
    iexact Hg

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (rowsAt V c t.val t.isLt).1
  Φ t := PhiLse V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (rowsAt V c t.val t.isLt).1 := by dsimp only [dat2]
theorem Phi2_castSucc (c : Dev nD) (t : Fin cfg2.N) : (dat2 V c).Φ t.castSucc = PhiLse V c t.val (Nat.le_of_lt t.isLt) := by
  dsimp only [dat2]; simp only [Fin.coe_castSucc]
theorem before2_0 (c : Dev nD) (t : Fin cfg2.N) (d) : (dat2 V c).before 0 t d = iblk2 V c 0 t :=
  beforeS_of V (dat2 V c) (A_eq2 V c 0) (after2_0 V c) t d
theorem before2_1 (c : Dev nD) (t : Fin cfg2.N) (d) : (dat2 V c).before 1 t d = iblk2 V c 1 t :=
  beforeK_of V (dat2 V c) (A_eq2 V c 1) (after2_1 V c) t d

/-! ## The stores of each case cover the rows they write -/

section Covers
variable (c : Dev nD) (i : grid2.Coords) (arg2 : Memref sig .tc .vmem S1024x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (x0 : Vec F S1024x1024 .bf16) (x1 : Vec F S2048x1024 .bf16) (xm xl : Vec F S1x2048 .f32)

theorem coverFirst_max (hc0 : firstTile i) (hc1 : ¬lastTile i) (y : S1x2048.Idx) : ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1x2048.size (by sl_kernel_rfl) y
theorem coverFirst_mass (hc0 : firstTile i) (hc1 : ¬lastTile i) (y : S1x2048.Idx) : ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1x2048.size (by sl_kernel_rfl) y
theorem coverMiddle_max (hc0 : ¬firstTile i) (hc1 : ¬lastTile i) (y : S1x2048.Idx) : ∃ pc ∈ (runMiddle c i arg2 harg2 arg3 harg3 arg4 harg4 arg5 harg5 arg6 harg6 hc0 hc1 x0 x1 xm xl).1, y ∈ pc.1.set :=
  View.cover_of_tiledL (runMiddle c i arg2 harg2 arg3 harg3 arg4 harg4 arg5 harg5 arg6 harg6 hc0 hc1 x0 x1 xm xl).1 S1x2048.size (by sl_kernel_rfl) y
theorem coverMiddle_mass (hc0 : ¬firstTile i) (hc1 : ¬lastTile i) (y : S1x2048.Idx) : ∃ pc ∈ (runMiddle c i arg2 harg2 arg3 harg3 arg4 harg4 arg5 harg5 arg6 harg6 hc0 hc1 x0 x1 xm xl).2.1, y ∈ pc.1.set :=
  View.cover_of_tiledL (runMiddle c i arg2 harg2 arg3 harg3 arg4 harg4 arg5 harg5 arg6 harg6 hc0 hc1 x0 x1 xm xl).2.1 S1x2048.size (by sl_kernel_rfl) y
theorem coverLast_out (hc0 : ¬firstTile i) (hc1 : lastTile i) (y : S1x2048.Idx) : ∃ pc ∈ (runLast c i arg2 harg2 arg3 harg3 arg4 harg4 arg5 harg5 arg6 harg6 hc0 hc1 x0 x1 xm xl).1, y ∈ pc.1.set :=
  View.cover_of_tiledL (runLast c i arg2 harg2 arg3 harg3 arg4 harg4 arg5 harg5 arg6 harg6 hc0 hc1 x0 x1 xm xl).1 S1x2048.size (by sl_kernel_rfl) y
theorem coverLast_max (hc0 : ¬firstTile i) (hc1 : lastTile i) (y : S1x2048.Idx) : ∃ pc ∈ (runLast c i arg2 harg2 arg3 harg3 arg4 harg4 arg5 harg5 arg6 harg6 hc0 hc1 x0 x1 xm xl).2.1, y ∈ pc.1.set :=
  View.cover_of_tiledL (runLast c i arg2 harg2 arg3 harg3 arg4 harg4 arg5 harg5 arg6 harg6 hc0 hc1 x0 x1 xm xl).2.1 S1x2048.size (by sl_kernel_rfl) y
theorem coverLast_mass (hc0 : ¬firstTile i) (hc1 : lastTile i) (y : S1x2048.Idx) : ∃ pc ∈ (runLast c i arg2 harg2 arg3 harg3 arg4 harg4 arg5 harg5 arg6 harg6 hc0 hc1 x0 x1 xm xl).2.2.1, y ∈ pc.1.set :=
  View.cover_of_tiledL (runLast c i arg2 harg2 arg3 harg3 arg4 harg4 arg5 harg5 arg6 harg6 hc0 hc1 x0 x1 xm xl).2.2.1 S1x2048.size (by sl_kernel_rfl) y
end Covers

/-! ## The body obligation -/

theorem PhiLse_succ (c : Dev nD) (n : ℕ) (hn : n < cfg2.N) :
    PhiLse V c (n + 1) hn = iprop(iprop(iprop(owns (c : Thread nD τ) mMax fullShare (rowsAt V c n hn).2.1 ∗ owns (c : Thread nD τ) mMass fullShare (rowsAt V c n hn).2.2)
      ∗ Pipeline.scopedRestBut (Ix := Unit) (Name := ℕ) (U := UR sig nD τ) (Lvl := ℕ) (Val := Elt F) spec2 c [cc2_scratch0, cc2_scratch1]) ∗ (∃ r, prngReg c r)) := rfl

/-- At any point the invariant gives the two scratch rows at SOME contents, beside the rest. -/
theorem PhiLse_some (c : Dev nD) (n : ℕ) (h : n ≤ cfg2.N) : PhiLse V c n h ⊢ iprop(iprop(iprop((∃ d, owns (c : Thread nD τ) mMax fullShare d) ∗ (∃ d, owns (c : Thread nD τ) mMass fullShare d))
          ∗ Pipeline.scopedRestBut (Ix := Unit) (Name := ℕ) (U := UR sig nD τ) (Lvl := ℕ) (Val := Elt F) spec2 c [cc2_scratch0, cc2_scratch1]) ∗ (∃ r, prngReg c r)) := by
  rw [← PhiA2_eq]; exact PhiLse_forget V c n h

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (mS t) fullShare ((dat2 V c).before 0 t d))
    ∗ (∃ d, owns (c : Thread nD τ) (mK t) fullShare ((dat2 V c).before 1 t d))
    ∗ (∃ d, owns (c : Thread nD τ) (mOut t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4800000 in
/-- The body at any point, by the position of the tile in its column block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiLse V c (t.val + 1) t.isLt from rfl, PhiLse_succ, Phi2_castSucc]
  rw [show (dat2 V c).leavesExact 0 t = owns (c : Thread nD τ) (mS t) fullShare ((dat2 V c).after 0 t) from by
    unfold Dat.leavesExact; rw [live_S t], after2_0]
  rw [show (dat2 V c).leavesExact 1 t = owns (c : Thread nD τ) (mK t) fullShare ((dat2 V c).after 1 t) from by
    unfold Dat.leavesExact; rw [live_K t], after2_1]
  have hN : t.val < 32 := lt_of_lt_of_eq t.isLt (show cfg2.N = 32 from N_2)
  by_cases h0 : t.val % 8 = 0
  · -- a first tile: the scratch rows at anything in, at the seeded-and-updated rows out; the output row untouched
    have hnl : ¬lastTile (grid2.coords t) := fun h => by have := (lastTile_iff t).mp h; omega
    rw [Dat.leavesExact_idle (dat2 V c) 2 t (idle_out t hnl) (noFlush_out t hnl)]
    rw [rowsAt_first V c t h0]
    unfold firstRows; (try dsimp only)
    iintro ⟨HΦ, Ho, ⟨%d0, H0⟩, ⟨%d1, H1⟩, ⟨%d2, H2⟩⟩
    ihave HΦ' := (PhiLse_some V c t.val (Nat.le_of_lt t.isLt)) $$ HΦ
    icases HΦ' with ⟨⟨⟨HM, HL⟩, Hr⟩, Hg⟩
    iapply ((runFirst c (grid2.coords t) (mS t) (hS t) (mK t) (hK t) (mOut t) (hOut t) mMax (Memref.isWhole_whole _) mMass (Memref.isWhole_whole _) ((firstTile_iff t).mpr h0) hnl (iblk2 V c 0 t) (iblk2 V c 1 t)).2.2 ((dat2 V c).before 2 t d2) Set.univ _)
    isplitl [H0]; · iexact H0
    isplitl [H1]; · iexact H1
    isplitl [H2]; · iexact H2
    isplitl [HM]; · iexact HM
    isplitl [HL]; · iexact HL
    iintro ⟨H0, H1, H2, ⟨%em, HM⟩, ⟨%el, HL⟩⟩
    isplitl [HM HL Hr Hg]
    · isplitl [HM HL Hr]
      · isplitl [HM HL]
        · isplitl [HM]
          · unfold owns; iexists _; isplitr
            swap; · iexact HM
            ipureintro; exact View.read_writes_of_cover _ _ _ _ _ (coverFirst_max c _ _ _ _ _ _ _ _ _ _ _ _ _ _ _)
          · unfold owns; iexists _; isplitr
            swap; · iexact HL
            ipureintro; exact View.read_writes_of_cover _ _ _ _ _ (coverFirst_mass c _ _ _ _ _ _ _ _ _ _ _ _ _ _ _)
        iexact Hr
      iexact Hg
    isplitl [Ho]; · iexact Ho
    isplitl [H0]; · iexact H0
    isplitl [H1]; · iexact H1
    iexists _; iexact H2
  · have hnf : ¬firstTile (grid2.coords t) := fun h => h0 ((firstTile_iff t).mp h)
    have hz : t.val ≠ 0 := fun e => h0 (by rw [e])
    rw [PhiLse_pos V c _ _ hz]
    by_cases h1 : t.val % 8 = 7
    · -- a last tile: as a middle one, and the output row stored
      rw [show (dat2 V c).leavesExact 2 t = owns (c : Thread nD τ) (mOut t) fullShare ((dat2 V c).after 2 t) from by
        unfold Dat.leavesExact; rw [live_out t ((lastTile_iff t).mpr h1)], after2_2]
      rw [rowsAt_last V c t h0 h1]
      unfold lastRows; (try dsimp only)
      iintro ⟨⟨⟨⟨HM, HL⟩, Hr⟩, Hg⟩, Ho, ⟨%d0, H0⟩, ⟨%d1, H1⟩, ⟨%d2, H2⟩⟩
      iapply ((runLast c (grid2.coords t) (mS t) (hS t) (mK t) (hK t) (mOut t) (hOut t) mMax (Memref.isWhole_whole _) mMass (Memref.isWhole_whole _) hnf ((lastTile_iff t).mpr h1) (iblk2 V c 0 t) (iblk2 V c 1 t) (rowsAt V c (t.val - 1) (Nat.lt_of_le_of_lt (Nat.sub_le _ _) t.isLt)).2.1 (rowsAt V c (t.val - 1) (Nat.lt_of_le_of_lt (Nat.sub_le _ _) t.isLt)).2.2).2.2.2 Set.univ _)
      isplitl [H0]; · iexact H0
      isplitl [H1]; · iexact H1
      isplitl [H2]; · iexists _; iexact H2
      isplitl [HM]; · iexact HM
      isplitl [HL]; · iexact HL
      iintro ⟨H0, H1, ⟨%eo, H2⟩, ⟨%em, HM⟩, ⟨%el, HL⟩⟩
      isplitl [HM HL Hr Hg]
      · isplitl [HM HL Hr]
        · isplitl [HM HL]
          · isplitl [HM]
            · unfold owns; iexists _; isplitr
              swap; · iexact HM
              ipureintro; exact View.read_writes_of_cover _ _ _ _ _ (coverLast_max c _ _ _ _ _ _ _ _ _ _ _ _ _ _ _ _ _)
            · unfold owns; iexists _; isplitr
              swap; · iexact HL
              ipureintro; exact View.read_writes_of_cover _ _ _ _ _ (coverLast_mass c _ _ _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast_out c _ _ _ _ _ _ _ _ _ _ _ _ _ _ _ _ _)
    · -- a middle tile
      have hnl : ¬lastTile (grid2.coords t) := fun h => h1 ((lastTile_iff t).mp h)
      rw [Dat.leavesExact_idle (dat2 V c) 2 t (idle_out t hnl) (noFlush_out t hnl)]
      rw [rowsAt_middle V c t h0 h1]
      unfold middleRows; (try dsimp only)
      iintro ⟨⟨⟨⟨HM, HL⟩, Hr⟩, Hg⟩, Ho, ⟨%d0, H0⟩, ⟨%d1, H1⟩, ⟨%d2, H2⟩⟩
      iapply ((runMiddle c (grid2.coords t) (mS t) (hS t) (mK t) (hK t) (mOut t) (hOut t) mMax (Memref.isWhole_whole _) mMass (Memref.isWhole_whole _) hnf hnl (iblk2 V c 0 t) (iblk2 V c 1 t) (rowsAt V c (t.val - 1) (Nat.lt_of_le_of_lt (Nat.sub_le _ _) t.isLt)).2.1 (rowsAt V c (t.val - 1) (Nat.lt_of_le_of_lt (Nat.sub_le _ _) t.isLt)).2.2).2.2 ((dat2 V c).before 2 t d2) Set.univ _)
      isplitl [H0]; · iexact H0
      isplitl [H1]; · iexact H1
      isplitl [H2]; · iexact H2
      isplitl [HM]; · iexact HM
      isplitl [HL]; · iexact HL
      iintro ⟨H0, H1, H2, ⟨%em, HM⟩, ⟨%el, HL⟩⟩
      isplitl [HM HL Hr Hg]
      · isplitl [HM HL Hr]
        · isplitl [HM HL]
          · isplitl [HM]
            · unfold owns; iexists _; isplitr
              swap; · iexact HM
              ipureintro; exact View.read_writes_of_cover _ _ _ _ _ (coverMiddle_max c _ _ _ _ _ _ _ _ _ _ _ _ _ _ _ _ _)
            · unfold owns; iexists _; isplitr
              swap; · iexact HL
              ipureintro; exact View.read_writes_of_cover _ _ _ _ _ (coverMiddle_mass c _ _ _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is what the launch hands the region, -/
theorem hin2 (c : Dev nD) : Pipeline.ΦA spec2 c ⊢ (dat2 V c).Φ 0 := by
  rw [show (dat2 V c).Φ 0 = PhiLse V c 0 (Nat.zero_le _) from rfl]; exact .rfl

/-- and after the last point it gives that back, the scratch rows' contents forgotten. -/
theorem hout2 (c : Dev nD) : (dat2 V c).Φ (Fin.last cfg2.N) ⊢ Pipeline.ΦA spec2 c := by
  rw [show (dat2 V c).Φ (Fin.last cfg2.N) = PhiLse V c (Fin.last cfg2.N).val (Nat.le_of_lt_succ (Fin.last cfg2.N).isLt) from rfl]
  exact PhiLse_forget V c _ _

end Cert.KernelIdeal.Hand

end
-- ==== Proof.KI.Fused.lean ====
/-
  The fused attention pass — the fourth kernel region of @main — on one core, stated at the contents `V` the
  TensorCore's buffers hold when the pass is entered, for any float model `F`.

  The pass runs over a grid of 8 × 16 points; point `t` has coordinates (t / 16, t % 16) = (row block, column block).
  At a point it reads a score block S [1024,1024] (row block t / 16), a key block K [512,1024], a value block
  W [512,2048] and a log-sum-exp row ℓ [1,512] (all three at column block t % 16). It stores the probabilities
  P = exp(S·Kᵀ − ℓ) ([1024,512], `k3_pay2`) as block (t / 16, t % 16) of the attention result, written back at every point,
  and adds bf16(P)·W into block t / 16 of the fused result ([1024,2048], `k3_pay3`): that block stays in one staging
  buffer for the 16 points of a row block, is set to zero (`k3_pay1`) at the first of them — the one test of the body,
  on the second grid coordinate — and is written back after the last.

  Every load and every store of the body is of a whole staging buffer. So each of the two cases of the test has a
  triple with explicit contents (`fused_first`, `fused_later`): the attention block ends at `k3_pay2` of the operand
  blocks, the fused block at one accumulation step (`step3`) over the zero block, resp. over what the buffer held.
  What the fused block's buffer holds after each point is then a recursion on the point (`accAt3`; as a fold over the
  row block's points so far, `accAt3_eq_fold`), and the pass's proof data `dat3` states it; `body_obligation3` is the
  pipeline rule's obligation for that data: at a first position the results' buffers may hold anything, at a later
  position the fused block's buffer still holds what the point before left, because it is the same buffer, never idle,
  and written back only at positions ≡ 15 (mod 16).
-/
import proofs.«125521_j15702400434434_2_alg».proof.Proof.Gen.KernelIdeal.Launch
import proofs.«125521_j15702400434434_2_alg».proof.Proof.Gen.KernelIdeal.Skeleton
import proofs.«125521_j15702400434434_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Fused

/- The TensorCore's buffer contents when the fused attention pass is entered: everything below is stated at this
   parameter. -/
variable (V : (c : Dev nD) → (b : Ref sig .tc) → Buf (Elt F) ((c : Thread nD τ).loc b))

/-! ## The operand blocks of a grid point -/

/-- The block of window `w` at grid point `t`, read off the window's array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the operand windows' staging buffers hold when the body runs

For any proof data whose arrays are the entry contents and whose body leaves each operand block in place: an operand's
current staging buffer holds the point's block, whether the point fetched it or an earlier point did (an unfetched
window's block index has not moved). -/

/-- The score block (window 0): fetched only when the row block changes, every sixteenth point; it holds the point's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblock : ∀ s, dat.blockOf 0 s = iblk3 V c 0 s := fun s => by unfold Dat.blockOf iblk3; rw [hA]
  rw [dat.before_in_eq_fetched 0 rfl (fun _ => rfl) (fun _ _ _ => rfl) (fun s => by rw [hafter, hblock]) t d]
  unfold Dat.fetched; rw [hblock]; rfl

/-- The key block (window 1), fetched at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblock : ∀ s, dat.blockOf 1 s = iblk3 V c 1 s := fun s => by unfold Dat.blockOf iblk3; rw [hA]
  rw [dat.before_in_eq_fetched 1 rfl (fun _ => rfl) (fun _ _ _ => rfl) (fun s => by rw [hafter, hblock]) t d]
  unfold Dat.fetched; rw [hblock]; rfl

/-- The value block (window 2), fetched at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblock : ∀ s, dat.blockOf 2 s = iblk3 V c 2 s := fun s => by unfold Dat.blockOf iblk3; rw [hA]
  rw [dat.before_in_eq_fetched 2 rfl (fun _ => rfl) (fun _ _ _ => rfl) (fun s => by rw [hafter, hblock]) t d]
  unfold Dat.fetched; rw [hblock]; rfl

/-- The log-sum-exp row (window 3), fetched at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblock : ∀ s, dat.blockOf 3 s = iblk3 V c 3 s := fun s => by unfold Dat.blockOf iblk3; rw [hA]
  rw [dat.before_in_eq_fetched 3 rfl (fun _ => rfl) (fun _ _ _ => rfl) (fun s => by rw [hafter, hblock]) t d]
  unfold Dat.fetched; rw [hblock]; rfl

/-- What any view of a buffer reads after a LAST store through the buffer's full rectangle (zero offsets, the buffer's
    own sizes): that store's payload, whatever was stored before and whatever the buffer held. -/
theorem read_writes_whole_last {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The body's branch -/

/-- The one test of the body: the position along the inner grid axis is the first (the chain of scalar operations the
    body computes from its second grid coordinate, written out). -/
abbrev atStart3 (i : grid3.Coords) : Prop :=
  (Scalar.cmpi .ne (Scalar.extui (Scalar.cmpi .eq (BitVec.ofNat 32 (i 1).val) 0#32)) 0#32) = 1#1

/-- At grid point `t` the test holds exactly when `t` is a multiple of 16 (decided over the 128 points). -/
theorem atStart3_iff : ∀ t : Fin cfg3.N, atStart3 (grid3.coords t) ↔ t.val % 16 = 0 :=
  (by decide +kernel : ∀ t : Fin grid3.N, atStart3 (grid3.coords t) ↔ t.val % 16 = 0)

/-- The two-axis zero offset, as the constant function. -/
theorem zeroOff : (![0, 0] : Fin 2 → Nat) = fun _ => 0 := funext fun a => by fin_cases a <;> rfl

/-! ## The body on any staging memrefs -/

set_option maxHeartbeats 1000000 in
/-- AT THE FIRST POSITION of the inner axis. On whole staging memrefs, the four operands' at contents `x0` (scores),
    `x1` (keys), `x2` (values), `x3` (log-sum-exp row) and the two results' at anything, the body runs to the
    continuation with the operands as they were, the attention block at `k3_pay2 x0 x1 x3` and the fused block at one
    accumulation step over the zero block: the zero store is overwritten by the second store, which read it back. -/
theorem fused_first (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x2048 .bf16) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S1024x2048 .f32) (harg7 : arg7.IsWhole)
    (hi : atStart3 i)
    (x0 : Vec F S1024x1024 .bf16) (x1 : Vec F S512x1024 .bf16) (x2 : Vec F S512x2048 .bf16) (x3 : Vec F S1x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k3_pay2 x0 x1 x3)
            ∗ owns (c : Thread nD τ) arg7 fullShare (k3_pay3 x0 x1 x3 x2 k3_pay1)) -∗ K ⟨⟩))
      ⊢ wp frame (wpE (defs₀ (F := F)) Variants.none c none) E
          (cc3__fused_kernel i arg2 harg2 arg3 harg3 arg4 harg4 arg5 harg5 arg6 harg6 arg7 harg7) K := by
  simp only [cc3__fused_kernel_eq_skeleton]; unfold cc3__fused_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  obtain rfl := harg4.eq_unread hf4; obtain rfl := harg5.eq_unread hf5
  sl_exec (disch := first | exact hi)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_whole_last _ _ zeroOff]
    simp only [View.readAt_eq_ld, harg2.read_unread, harg3.read_unread, harg5.read_unread,
      View.ld_unit_zero (S := S1024x1024) zeroOff, View.ld_unit_zero (S := S512x1024) zeroOff,
      View.ld_unit_zero (S := S1x512) zeroOff]
  · iexists _; isplitr
    swap; · iexact H7
    ipureintro
    sl_unfold_words
    rw [read_writes_whole_last _ _ zeroOff, View.readCov_unit_zero _ zeroOff]
    simp only [View.readAt_eq_ld, harg2.read_unread, harg3.read_unread, harg4.read_unread, harg5.read_unread,
      View.ld_unit_zero (S := S1024x1024) zeroOff, View.ld_unit_zero (S := S512x1024) zeroOff,
      View.ld_unit_zero (S := S512x2048) zeroOff, View.ld_unit_zero (S := S1x512) zeroOff]

set_option maxHeartbeats 1000000 in
/-- AT A LATER POSITION of the inner axis. The same, the fused block's memref now at known contents `acc` (what the
    position before left): the zeroing branch is skipped, and the fused block ends at one accumulation step over `acc`. -/
theorem fused_later (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x2048 .bf16) (harg4 : arg4.IsWhole) (arg5 : Memref sig .tc .vmem S1x512 .f32) (harg5 : arg5.IsWhole)
    (arg6 : Memref sig .tc .vmem S1024x512 .f32) (harg6 : arg6.IsWhole) (arg7 : Memref sig .tc .vmem S1024x2048 .f32) (harg7 : arg7.IsWhole)
    (hi : ¬atStart3 i)
    (x0 : Vec F S1024x1024 .bf16) (x1 : Vec F S512x1024 .bf16) (x2 : Vec F S512x2048 .bf16) (x3 : Vec F S1x512 .f32)
    (acc : Vec F S1024x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k3_pay2 x0 x1 x3)
            ∗ owns (c : Thread nD τ) arg7 fullShare (k3_pay3 x0 x1 x3 x2 acc)) -∗ K ⟨⟩))
      ⊢ wp frame (wpE (defs₀ (F := F)) Variants.none c none) E
          (cc3__fused_kernel i arg2 harg2 arg3 harg3 arg4 harg4 arg5 harg5 arg6 harg6 arg7 harg7) K := by
  simp only [cc3__fused_kernel_eq_skeleton]; unfold cc3__fused_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3
  obtain rfl := harg4.eq_unread hf4; obtain rfl := harg5.eq_unread hf5
  obtain rfl := harg7.eq_unread hf7
  sl_exec (disch := first | exact hi)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_whole_last _ _ zeroOff]
    simp only [View.readAt_eq_ld, harg2.read_unread, harg3.read_unread, harg5.read_unread,
      View.ld_unit_zero (S := S1024x1024) zeroOff, View.ld_unit_zero (S := S512x1024) zeroOff,
      View.ld_unit_zero (S := S1x512) zeroOff]
  · iexists _; isplitr
    swap; · iexact H7
    ipureintro
    rw [read_writes_whole_last _ _ zeroOff]
    simp only [View.readAt_eq_ld, harg2.read_unread, harg3.read_unread, harg4.read_unread, harg5.read_unread,
      harg7.read_unread, View.ld_unit_zero (S := S1024x1024) zeroOff, View.ld_unit_zero (S := S512x1024) zeroOff,
      View.ld_unit_zero (S := S512x2048) zeroOff, View.ld_unit_zero (S := S1x512) zeroOff,
      View.ld_unit_zero (S := S1024x2048) zeroOff]

/-! ## The fused block's buffer, point by point -/

/-- One accumulation step at grid point `t`: what the body leaves in the fused block's buffer there when the buffer
    held `acc` — `acc` plus the point's probabilities (rounded to bf16) times its value block. -/
def step3 (c : Dev nD) (t : Fin cfg3.N) (acc : Vec F S1024x2048 .f32) : Vec F S1024x2048 .f32 :=
  k3_pay3 (iblk3 V c 0 t) (iblk3 V c 1 t) (iblk3 V c 3 t) (iblk3 V c 2 t) acc

/-- THE RUNNING SUM. What the fused block's staging buffer holds after the body at point `n`: at a multiple of 16 (the
    first position of the inner axis) one step over the zero block; elsewhere one step over what point `n - 1` left
    (the buffer is the same one and is not written back in between). -/
def accAt3 (c : Dev nD) : (n : ℕ) → n < cfg3.N → Vec F S1024x2048 .f32
  | 0, h => step3 V c ⟨0, h⟩ k3_pay1
  | n + 1, h =>
    if (n + 1) % 16 = 0 then step3 V c ⟨n + 1, h⟩ k3_pay1
    else step3 V c ⟨n + 1, h⟩ (accAt3 c n (Nat.lt_of_succ_lt h))

/-- At a first position the running sum restarts from the zero block. -/
theorem accAt3_first (c : Dev nD) (t : Fin cfg3.N) (h0 : t.val % 16 = 0) :
    accAt3 V c t.val t.isLt = step3 V c t k3_pay1 := by
  obtain ⟨n, hn⟩ := t
  cases n with
  | zero => rfl
  | succ n => exact (if_pos h0).trans rfl

/-- At a later position it steps from the point before. -/
theorem accAt3_later (c : Dev nD) (t : Fin cfg3.N) (h0 : ¬t.val % 16 = 0) :
    accAt3 V c t.val t.isLt = step3 V c t (accAt3 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The same over bare point numbers, in the form a fold lemma takes: the restart at the multiples of 16, -/
theorem accAt3_restart (c : Dev nD) (n : ℕ) (h : n < cfg3.N) (h0 : n % 16 = 0) :
    accAt3 V c n h = step3 V c ⟨n, h⟩ k3_pay1 :=
  accAt3_first V c ⟨n, h⟩ h0

/-- and the step elsewhere. -/
theorem accAt3_succ (c : Dev nD) (n : ℕ) (h : n + 1 < cfg3.N) (h0 : ¬(n + 1) % 16 = 0) :
    accAt3 V c (n + 1) h = step3 V c ⟨n + 1, h⟩ (accAt3 V c n (Nat.lt_of_succ_lt h)) :=
  (if_neg h0).trans rfl

/-- So after point `t` the fused block's buffer holds the fold over the points of `t`'s row block up to `t`: one step
    over the zero block at the row block's first point `16·(t / 16)`, then one step per later point. -/
theorem accAt3_eq_fold (c : Dev nD) (t : ℕ) (ht : t < cfg3.N) (h' : 16 * (t / 16) + t % 16 < cfg3.N) :
    accAt3 V c t ht
      = Pipeline.accAt (fun n h => step3 V c ⟨n, h⟩ k3_pay1) (fun n h acc => step3 V c ⟨n, h⟩ acc) (16 * (t / 16)) (t % 16) h' :=
  Pipeline.eq_accAt_of_mod (accAt3 V c) 16 _ _ (accAt3_restart V c) (accAt3_succ V c) (by decide) t ht h'

/-! ## The proof data of the pass -/

/-- The proof data of the fused attention pass on core `c`: the arrays as the pass finds them; after the body at point
    `t` each operand's buffer still at its block, the attention block's at `k3_pay2` of the point's score, key and
    log-sum-exp blocks, the fused block's at the running sum; the invariant only the buffers the pass does not stage and
    the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay2 (iblk3 V c 0 t) (iblk3 V c 1 t) (iblk3 V c 3 t)
    | ⟨5, _⟩ => accAt3 V c t.val t.isLt
  Φ _ := Pipeline.ΦA spec3 c
  q _ := fullShare
  owed _ := 0

/-- Its arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay2 (iblk3 V c 0 t) (iblk3 V c 1 t) (iblk3 V c 3 t) := by dsimp only [dat3]
theorem after3_5 (c : Dev nD) (t : Fin cfg3.N) : (dat3 V c).after 5 t = accAt3 V c t.val t.isLt := by dsimp only [dat3]

/-- What the body finds in each operand's buffer: the point's block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What it finds in the fused block's buffer at a later position: what the point before left. The point is not the
    first; the window is written back only at the last position of the inner axis (`t % 16 = 15`), which the point
    before is not; the window is never idle and its blocks are whole. -/
theorem before3_5_later (c : Dev nD) (t : Fin cfg3.N) (h0 : ¬t.val % 16 = 0) (d) :
    (dat3 V c).before 5 t d = accAt3 V c (t.val - 1) (Nat.lt_of_le_of_lt (Nat.sub_le _ _) t.isLt) := by
  have hprev : (cfg3.win 5).flush ⟨t.val - 1, Nat.lt_of_le_of_lt (Nat.sub_le _ _) t.isLt⟩ = false :=
    Bool.eq_false_iff.mpr fun h => by have := (flush3_5 _).mp h; dsimp only at this; omega
  rw [Dat.before_out_kept _ 5 rfl t (by omega) hprev (fun _ => rfl) (fun _ _ => rfl)]
  dsimp only [dat3]

/-! ## The body obligation -/

/-- What the body is called with at point `t`: the invariant, the owed tallies, and each window's current staging
    buffer at what the proof data says it holds. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 800000 in
/-- The body at any point. The operands' buffers hold their blocks; whether the point is a first position of the inner
    axis is read off its number; at a first position the results' buffers may hold anything, at a later one the fused
    block's holds the running sum so far; the matching triple applies; the invariant and the tallies pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  by_cases h0 : t.val % 16 = 0
  · rw [accAt3_first V c t h0]
    unfold step3
    iintro ⟨HΦ, Ho, ⟨%d0, H0⟩, ⟨%d1, H1⟩, ⟨%d2, H2⟩, ⟨%d3, H3⟩, ⟨%d4, H4⟩, ⟨%d5, H5⟩⟩
    iapply (fused_first c Set.univ (grid3.coords t) _ _ _ _ _ _ _ _ _ _ _ _ ((atStart3_iff t).mpr h0)
      (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [accAt3_later V c t h0]
    simp only [before3_5_later V c t h0]
    unfold step3
    iintro ⟨HΦ, Ho, ⟨%d0, H0⟩, ⟨%d1, H1⟩, ⟨%d2, H2⟩, ⟨%d3, H3⟩, ⟨%d4, H4⟩, ⟨%d5, H5⟩⟩
    iapply (fused_later c Set.univ (grid3.coords t) _ _ _ _ _ _ _ _ _ _ _ _ (fun h => h0 ((atStart3_iff t).mp h))
      (iblk3 V c 0 t) (iblk3 V c 1 t) (iblk3 V c 2 t) (iblk3 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation for the pass, at every point. -/
theorem body_obligation3 (c : Dev nD) : BodyObligation (dat3 (F := F) V c) (defs₀ (F := F)) Variants.none () Set.univ := fun t => by
  rw [bigSep_W3, bigSep_W3]
  exact sound_body3 V c t

end Fused

end Cert.KernelIdeal.Hand

end
-- ==== Proof.KI.Frame.lean ====
/-
  The four kernel regions in sequence. Between two items of the program every unscoped buffer of a core is held whole
  at a known valuation: the launch memory, then each host stretch applied, then each region's outputs replaced by what
  its write-backs leave. Each region's proof data is stated at the valuation the region is entered with, so the
  valuations are built stage by stage, and each region is packaged as a segment entered at one stage and left at the next.
-/
import proofs.«125521_j15702400434434_2_alg».proof.Proof.KI.Proj
import proofs.«125521_j15702400434434_2_alg».proof.Proof.KI.Lse
import proofs.«125521_j15702400434434_2_alg».proof.Proof.KI.Fused
import proofs.«125521_j15702400434434_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents between items, stage by stage -/

/-- A valuation read at the TensorCore's references: what a region's proof data takes. -/
abbrev atTc (W : Dev nD → Valuation τ sig (Elt F)) (c : Dev nD) (b : Ref sig .tc) : Buf (Elt F) ((c : Thread nD τ).loc b) := W c b

/-- After the first host stretch (the two bias rows reshaped). -/
abbrev U1 (c : Dev nD) : Valuation τ sig (Elt F) := Gen.V1 m c
/-- What the first projection leaves in its output array. -/
def o2 (c : Dev nD) : Buf (Elt F) ((c : Thread nD τ).loc main_v2) := (dat0 (atTc (U1 m)) c).arrAt 3 cfg0.N
abbrev U2 (c : Dev nD) : Valuation τ sig (Elt F) := Function.update (U1 m c) main_v2 (o2 m c)
/-- What the second projection leaves. -/
def o3 (c : Dev nD) : Buf (Elt F) ((c : Thread nD τ).loc main_v3) := (dat1 (atTc (U2 m)) c).arrAt 3 cfg1.N
abbrev U3 (c : Dev nD) : Valuation τ sig (Elt F) := Function.update (U2 m c) main_v3 (o3 m c)
/-- What the log-sum-exp pass leaves. -/
def o4 (c : Dev nD) : Buf (Elt F) ((c : Thread nD τ).loc main_v4) := (dat2 (atTc (U3 m)) c).arrAt 2 cfg2.N
abbrev U4 (c : Dev nD) : Valuation τ sig (Elt F) := Function.update (U3 m c) main_v4 (o4 m c)
/-- After the second host stretch (the value matrix's format change). -/
abbrev U5 (c : Dev nD) : Valuation τ sig (Elt F) := StableHlo.after hostOps3 (U4 m c)
/-- What the fused pass leaves in its two output arrays. -/
def o60 (c : Dev nD) : Buf (Elt F) ((c : Thread nD τ).loc main_v6_0) := (dat3 (atTc (U5 m)) c).arrAt 4 cfg3.N
def o61 (c : Dev nD) : Buf (Elt F) ((c : Thread nD τ).loc main_v6_1) := (dat3 (atTc (U5 m)) c).arrAt 5 cfg3.N
abbrev U6 (c : Dev nD) : Valuation τ sig (Elt F) := Function.update (Function.update (U5 m c) main_v6_0 (o60 m c)) main_v6_1 (o61 m c)

/-- What the regions leave, as the unknowns the conditional frame is stated over: stage `J`'s valuation read at `r`. -/
def outs : Gen.Outs (F := F) := fun J r c =>
  match J with
  | 2 => U2 m c r
  | 3 => U3 m c r
  | 4 => U4 m c r
  | 6 => U6 m c r
  | _ => m ((c : Thread nD τ).loc r)

theorem V2_eq (c : Dev nD) : Gen.V2 m (outs m) c = U2 m c := by
  show Function.update (Gen.V1 m c) main_v2 (U2 m c main_v2) = U2 m c
  rw [show U2 m c main_v2 = o2 m c from Function.update_self ..]
theorem V3_eq (c : Dev nD) : Gen.V3 m (outs m) c = U3 m c := by
  show Function.update (Gen.V2 m (outs m) c) main_v3 (U3 m c main_v3) = U3 m c
  rw [V2_eq, show U3 m c main_v3 = o3 m c from Function.update_self ..]
theorem V4_eq (c : Dev nD) : Gen.V4 m (outs m) c = U4 m c := by
  show Function.update (Gen.V3 m (outs m) c) main_v4 (U4 m c main_v4) = U4 m c
  rw [V3_eq, show U4 m c main_v4 = o4 m c from Function.update_self ..]
theorem V5_eq (c : Dev nD) : Gen.V5 m (outs m) c = U5 m c := by
  show StableHlo.after hostOps3 (Gen.V4 m (outs m) c) = U5 m c
  rw [V4_eq]
theorem V6_eq (c : Dev nD) : Gen.V6 m (outs m) c = U6 m c := by
  show Function.update (Function.update (Gen.V5 m (outs m) c) main_v6_0 (U6 m c main_v6_0)) main_v6_1 (U6 m c main_v6_1) = U6 m c
  rw [V5_eq, show U6 m c main_v6_1 = o61 m c from Function.update_self ..,
    show U6 m c main_v6_0 = o60 m c from (Function.update_of_ne (StableHlo.devRef_ne_of_ne (by decide) : (Proc.devRef .tc main_v6_0 : DevRef τ sig) ≠ Proc.devRef .tc main_v6_1) _ _).trans (Function.update_self ..)]

/-! ## The proof data family and what rides beside the buffers -/

/-- Every region's proof data, each at the contents its region is entered with (a literal match). -/
def pdats : (p : Fin 4) → (c : Dev nD) → Dat τ (Elt F) Unit ℕ (UR sig nD τ) ℕ (cfgs p) c
  | ⟨0, _⟩ => fun c => dat0 (atTc (U1 m)) c
  | ⟨1, _⟩ => fun c => dat1 (atTc (U2 m)) c
  | ⟨2, _⟩ => fun c => dat2 (atTc (U3 m)) c
  | ⟨3, _⟩ => fun c => dat3 (atTc (U5 m)) c

/-- No core owes another anything: no level is assigned. -/
abbrev Lz : GSem nD τ sig → Finset Unit := fun _ => ∅
abbrev lvz : GSem nD τ sig → Unit → ℕ := fun _ _ => 0
/-- Beside the buffers, through every item: the generator register at some state, and the core owing nothing. -/
abbrev Rst (c : Dev nD) : sProp 𝕄 := iprop((∃ r, prngReg c r) ∗ ∃ W, owes (c : Thread nD τ) (0 : CellTallies nD τ sig Unit) W)

/-! ## Each region's arrays after it, and the buffers it leaves alone -/

theorem left0 (c : Dev nD) : ∀ w : Fin cfg0.W, (pdats m 0 c).arrAt w cfg0.N = atTc (U2 m) c (Pipeline.arrRef spec0 w) := fun
  | 0 => ((dat0 (atTc (U1 m)) c).arrAt_in 0 rfl _).trans ((A_eq0 (atTc (U1 m)) c 0).trans (Function.update_of_ne (StableHlo.devRef_ne_of_ne (by decide) : (Proc.devRef .tc main_arg0 : DevRef τ sig) ≠ Proc.devRef .tc main_v2) _ _).symm)
  | 1 => ((dat0 (atTc (U1 m)) c).arrAt_in 1 rfl _).trans ((A_eq0 (atTc (U1 m)) c 1).trans (Function.update_of_ne (StableHlo.devRef_ne_of_ne (by decide) : (Proc.devRef .tc main_arg2 : DevRef τ sig) ≠ Proc.devRef .tc main_v2) _ _).symm)
  | 2 => ((dat0 (atTc (U1 m)) c).arrAt_in 2 rfl _).trans ((A_eq0 (atTc (U1 m)) c 2).trans (Function.update_of_ne (StableHlo.devRef_ne_of_ne (by decide) : (Proc.devRef .tc main_v0 : DevRef τ sig) ≠ Proc.devRef .tc main_v2) _ _).symm)
  | 3 => (show (pdats m 0 c).arrAt 3 cfg0.N = o2 m c from rfl).trans (show U2 m c main_v2 = o2 m c from Function.update_self ..).symm
  | ⟨_ + 4, h⟩ => absurd h (Nat.not_lt.2 (Nat.le_add_left _ _))
theorem rest0 (c : Dev nD) : ∀ b, b ∉ Finset.univ.image (Pipeline.arrRef spec0) → atTc (U2 m) c b = atTc (U1 m) c b :=
  fun b hb => Function.update_of_ne (StableHlo.devRef_ne_of_ne fun e => hb (Finset.mem_image.mpr ⟨3, Finset.mem_univ _, e.symm⟩)) _ _

theorem left1 (c : Dev nD) : ∀ w : Fin cfg1.W, (pdats m 1 c).arrAt w cfg1.N = atTc (U3 m) c (Pipeline.arrRef spec1 w) := fun
  | 0 => ((dat1 (atTc (U2 m)) c).arrAt_in 0 rfl _).trans ((A_eq1 (atTc (U2 m)) c 0).trans (Function.update_of_ne (StableHlo.devRef_ne_of_ne (by decide) : (Proc.devRef .tc main_arg1 : DevRef τ sig) ≠ Proc.devRef .tc main_v3) _ _).symm)
  | 1 => ((dat1 (atTc (U2 m)) c).arrAt_in 1 rfl _).trans ((A_eq1 (atTc (U2 m)) c 1).trans (Function.update_of_ne (StableHlo.devRef_ne_of_ne (by decide) : (Proc.devRef .tc main_arg4 : DevRef τ sig) ≠ Proc.devRef .tc main_v3) _ _).symm)
  | 2 => ((dat1 (atTc (U2 m)) c).arrAt_in 2 rfl _).trans ((A_eq1 (atTc (U2 m)) c 2).trans (Function.update_of_ne (StableHlo.devRef_ne_of_ne (by decide) : (Proc.devRef .tc main_v1 : DevRef τ sig) ≠ Proc.devRef .tc main_v3) _ _).symm)
  | 3 => (show (pdats m 1 c).arrAt 3 cfg1.N = o3 m c from rfl).trans (show U3 m c main_v3 = o3 m c from Function.update_self ..).symm
  | ⟨_ + 4, h⟩ => absurd h (Nat.not_lt.2 (Nat.le_add_left _ _))
theorem rest1 (c : Dev nD) : ∀ b, b ∉ Finset.univ.image (Pipeline.arrRef spec1) → atTc (U3 m) c b = atTc (U2 m) c b :=
  fun b hb => Function.update_of_ne (StableHlo.devRef_ne_of_ne fun e => hb (Finset.mem_image.mpr ⟨3, Finset.mem_univ _, e.symm⟩)) _ _

theorem left2 (c : Dev nD) : ∀ w : Fin cfg2.W, (pdats m 2 c).arrAt w cfg2.N = atTc (U4 m) c (Pipeline.arrRef spec2 w) := fun
  | 0 => ((dat2 (atTc (U3 m)) c).arrAt_in 0 rfl _).trans ((A_eq2 (atTc (U3 m)) c 0).trans (Function.update_of_ne (StableHlo.devRef_ne_of_ne (by decide) : (Proc.devRef .tc main_v2 : DevRef τ sig) ≠ Proc.devRef .tc main_v4) _ _).symm)
  | 1 => ((dat2 (atTc (U3 m)) c).arrAt_in 1 rfl _).trans ((A_eq2 (atTc (U3 m)) c 1).trans (Function.update_of_ne (StableHlo.devRef_ne_of_ne (by decide) : (Proc.devRef .tc main_v3 : DevRef τ sig) ≠ Proc.devRef .tc main_v4) _ _).symm)
  | 2 => (show (pdats m 2 c).arrAt 2 cfg2.N = o4 m c from rfl).trans (show U4 m c main_v4 = o4 m c from Function.update_self ..).symm
  | ⟨_ + 3, h⟩ => absurd h (Nat.not_lt.2 (Nat.le_add_left _ _))
theorem rest2 (c : Dev nD) : ∀ b, b ∉ Finset.univ.image (Pipeline.arrRef spec2) → atTc (U4 m) c b = atTc (U3 m) c b :=
  fun b hb => Function.update_of_ne (StableHlo.devRef_ne_of_ne fun e => hb (Finset.mem_image.mpr ⟨2, Finset.mem_univ _, e.symm⟩)) _ _

/-! ## The regions as segments -/

set_option backward.isDefEq.respectTransparency.types false in
/-- Region 0 as a segment: entered with every unscoped buffer at the contents before it, left with them at the
    contents after it; its arrays are split out of the unscoped buffers at entry and put back at exit, the generator
    register goes into the region's invariant and comes back, nothing is owed, the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ Lz lvz 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit, the generator
    register goes into the region's invariant and comes back, nothing is owed, the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (U2 m)) c).loose
  hwaits := Pipeline.hwaits_of_owed_zero _ _ _ _ Lz lvz 1 fun _ _ => rfl
  pre c := iprop(StableHlo.held (c : Thread nD τ) (Pipeline.ucRefs τ sig) (U2 m c) ∗ Rst c)
  post c := iprop(StableHlo.held (c : Thread nD τ) (Pipeline.ucRefs τ sig) (U3 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (U2 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (U2 m) c) (atTc (U3 m) c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its arrays are split out of the unscoped buffers at entry and put back at exit, the generator
    register goes into the region's invariant and comes back, nothing is owed, the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (U3 m)) c).loose
  hwaits := Pipeline.hwaits_of_owed_zero _ _ _ _ Lz lvz 2 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (U3 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (U3 m)) c)
    unfold Pipeline.ΦA
    iintro ⟨Hp, -, Hr⟩
    isplitl [Hr]; · iexact Hr
    iexact Hp
  hout c := by
    rw [Pipeline.ownSems0_none]
    refine BIBase.Entails.trans (hout2 (atTc (U3 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (U3 m) c) (atTc (U4 m) c) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem left3 (c : Dev nD) : ∀ w : Fin cfg3.W, (pdats m 3 c).arrAt w cfg3.N = atTc (U6 m) c (Pipeline.arrRef spec3 w) := fun
  | 0 => ((dat3 (atTc (U5 m)) c).arrAt_in 0 rfl _).trans ((A_eq3 (atTc (U5 m)) c 0).trans ((Function.update_of_ne (StableHlo.devRef_ne_of_ne (by decide) : (Proc.devRef .tc main_v2 : DevRef τ sig) ≠ Proc.devRef .tc main_v6_1) _ _).trans (Function.update_of_ne (StableHlo.devRef_ne_of_ne (by decide) : (Proc.devRef .tc main_v2 : DevRef τ sig) ≠ Proc.devRef .tc main_v6_0) _ _)).symm)
  | 1 => ((dat3 (atTc (U5 m)) c).arrAt_in 1 rfl _).trans ((A_eq3 (atTc (U5 m)) c 1).trans ((Function.update_of_ne (StableHlo.devRef_ne_of_ne (by decide) : (Proc.devRef .tc main_v3 : DevRef τ sig) ≠ Proc.devRef .tc main_v6_1) _ _).trans (Function.update_of_ne (StableHlo.devRef_ne_of_ne (by decide) : (Proc.devRef .tc main_v3 : DevRef τ sig) ≠ Proc.devRef .tc main_v6_0) _ _)).symm)
  | 2 => ((dat3 (atTc (U5 m)) c).arrAt_in 2 rfl _).trans ((A_eq3 (atTc (U5 m)) c 2).trans ((Function.update_of_ne (StableHlo.devRef_ne_of_ne (by decide) : (Proc.devRef .tc main_v5 : DevRef τ sig) ≠ Proc.devRef .tc main_v6_1) _ _).trans (Function.update_of_ne (StableHlo.devRef_ne_of_ne (by decide) : (Proc.devRef .tc main_v5 : DevRef τ sig) ≠ Proc.devRef .tc main_v6_0) _ _)).symm)
  | 3 => ((dat3 (atTc (U5 m)) c).arrAt_in 3 rfl _).trans ((A_eq3 (atTc (U5 m)) c 3).trans ((Function.update_of_ne (StableHlo.devRef_ne_of_ne (by decide) : (Proc.devRef .tc main_v4 : DevRef τ sig) ≠ Proc.devRef .tc main_v6_1) _ _).trans (Function.update_of_ne (StableHlo.devRef_ne_of_ne (by decide) : (Proc.devRef .tc main_v4 : DevRef τ sig) ≠ Proc.devRef .tc main_v6_0) _ _)).symm)
  | 4 => (show (pdats m 3 c).arrAt 4 cfg3.N = o60 m c from rfl).trans (show U6 m c main_v6_0 = o60 m c from (Function.update_of_ne (StableHlo.devRef_ne_of_ne (by decide) : (Proc.devRef .tc main_v6_0 : DevRef τ sig) ≠ Proc.devRef .tc main_v6_1) _ _).trans (Function.update_self ..)).symm
  | 5 => (show (pdats m 3 c).arrAt 5 cfg3.N = o61 m c from rfl).trans (show U6 m c main_v6_1 = o61 m c from Function.update_self ..).symm
  | ⟨_ + 6, h⟩ => absurd h (Nat.not_lt.2 (Nat.le_add_left _ _))
theorem rest3 (c : Dev nD) : ∀ b, b ∉ Finset.univ.image (Pipeline.arrRef spec3) → atTc (U6 m) c b = atTc (U5 m) c b :=
  fun b hb => (Function.update_of_ne (StableHlo.devRef_ne_of_ne fun e => hb (Finset.mem_image.mpr ⟨5, Finset.mem_univ _, e.symm⟩)) _ _).trans
    (Function.update_of_ne (StableHlo.devRef_ne_of_ne fun e => hb (Finset.mem_image.mpr ⟨4, Finset.mem_univ _, e.symm⟩)) _ _)

set_option backward.isDefEq.respectTransparency.types false in
/-- Region 3 as a segment: entered with every unscoped buffer at the contents before it, left with them at the
    contents after it; its arrays are split out of the unscoped buffers at entry and put back at exit, the generator
    register goes into the region's invariant and comes back, nothing is owed, the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atTc (U5 m)) c).loose
  hwaits := Pipeline.hwaits_of_owed_zero _ _ _ _ Lz lvz 3 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (U5 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]
    unfold Pipeline.ΦA
    iintro ⟨Hp, -, Hr⟩
    isplitl [Hr]; · iexact Hr
    iexact Hp
  hout c := by
    rw [Pipeline.ownSems0_none]
    rw [show (pdats m 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (U5 m) c) (atTc (U6 m) c) ((pdats m 3 c).arrAt · cfg3.N) (left3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The launch memory as a valuation. -/
abbrev U0 (c : Dev nD) : Valuation τ sig (Elt F) := Gen.V0 m c

/-- A host stretch as a segment over the unscoped buffers from the contents `W`, the generator register and the
    core's empty debt riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- The program's six items in order. -/
abbrev segs : List (Pipeline.Seg (pcfgs (F := F)) Gen.adm (pdats m) () defs₀ Variants.none Lz lvz) :=
  [ .host (hostSeg hostOps0 hostOps0_sub hostOps0_fresh (U0 m)),
    .region (reg0 m), .region (reg1 m), .region (reg2 m),
    .host (hostSeg hostOps3 hostOps3_sub hostOps3_fresh (U4 m)),
    .region (reg3 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates without a fault,
    and in every final state each unscoped buffer of each core holds the last stage's valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = U6 m c b) :=
  Pipeline.θ_run_regions_kit (pcfgs (F := F)) Gen.adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rst c))
    (Tₙ := fun c => iprop(StableHlo.held (c : Thread nD τ) (Pipeline.ucRefs τ sig) (U6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (U6 m c) ∗ Rst c) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-! ## What the run says of the arguments and of the results -/

theorem U6_main_arg0 (c : Dev nD) : U6 m c main_arg0 = m ((c : Thread nD τ).loc main_arg0) := by
  rw [← V6_eq]; exact Gen.V6_main_arg0 m (outs m) c
theorem U6_main_arg1 (c : Dev nD) : U6 m c main_arg1 = m ((c : Thread nD τ).loc main_arg1) := by
  rw [← V6_eq]; exact Gen.V6_main_arg1 m (outs m) c
theorem U6_main_arg2 (c : Dev nD) : U6 m c main_arg2 = m ((c : Thread nD τ).loc main_arg2) := by
  rw [← V6_eq]; exact Gen.V6_main_arg2 m (outs m) c
theorem U6_main_arg3 (c : Dev nD) : U6 m c main_arg3 = m ((c : Thread nD τ).loc main_arg3) := by
  rw [← V6_eq]; exact Gen.V6_main_arg3 m (outs m) c
theorem U6_main_arg4 (c : Dev nD) : U6 m c main_arg4 = m ((c : Thread nD τ).loc main_arg4) := by
  rw [← V6_eq]; exact Gen.V6_main_arg4 m (outs m) c
theorem U6_main_arg5 (c : Dev nD) : U6 m c main_arg5 = m ((c : Thread nD τ).loc main_arg5) := by
  rw [← V6_eq]; exact Gen.V6_main_arg5 m (outs m) c
theorem U6_res0 (c : Dev nD) : U6 m c main_v6_0 = o60 m c :=
  (Function.update_of_ne (StableHlo.devRef_ne_of_ne (by decide) : (Proc.devRef .tc main_v6_0 : DevRef τ sig) ≠ Proc.devRef .tc main_v6_1) _ _).trans (Function.update_self ..)
theorem U6_res1 (c : Dev nD) : U6 m c main_v6_1 = o61 m c := Function.update_self ..

/-- THE FRAME: every weakly fair execution terminates, nothing faults, the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (U6_main_arg0 m c),
    (h c _ (mem_uc main_arg1 (by decide))).trans (U6_main_arg1 m c),
    (h c _ (mem_uc main_arg2 (by decide))).trans (U6_main_arg2 m c),
    (h c _ (mem_uc main_arg3 (by decide))).trans (U6_main_arg3 m c),
    (h c _ (mem_uc main_arg4 (by decide))).trans (U6_main_arg4 m c),
    (h c _ (mem_uc main_arg5 (by decide))).trans (U6_main_arg5 m c)⟩) (run_all m ρ)

/-- THE RESULTS: the same run, read at the two result arrays too: they end at what the fused pass's write-backs leave. -/
theorem run_results (ρ : Dev nD → PrngReg) : θ_run defs (onTc (τ := τ) (main (F := F))) ⟨m, fun _ => 0, ρ⟩ (fun r => ∀ c : Dev nD,
      r.2.mem ((c.tc : Thread nD τ).loc main_v6_0) = o60 m c
      ∧ r.2.mem ((c.tc : Thread nD τ).loc main_v6_1) = o61 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v6_0 (by decide))).trans (U6_res0 m c), (h c _ (mem_uc main_v6_1 (by decide))).trans (U6_res1 m c),
    (h c _ (mem_uc main_arg0 (by decide))).trans (U6_main_arg0 m c),
    (h c _ (mem_uc main_arg1 (by decide))).trans (U6_main_arg1 m c),
    (h c _ (mem_uc main_arg2 (by decide))).trans (U6_main_arg2 m c),
    (h c _ (mem_uc main_arg3 (by decide))).trans (U6_main_arg3 m c),
    (h c _ (mem_uc main_arg4 (by decide))).trans (U6_main_arg4 m c),
    (h c _ (mem_uc main_arg5 (by decide))).trans (U6_main_arg5 m c)⟩) (run_all m ρ)

end Cert.KernelIdeal.Hand

end
-- ==== Proof.AttnSpec.lean ====
/-
  The attention-with-column-softmax result, as plain functions of index-by-index arrays of
  extended reals.

  Two projections  S = X · Wsᵀ + bs  and  K = E · Wkᵀ + bk  (every row of W is one output feature),
  the score matrix  scores i j = ∑ h, S i h * K j h,  a softmax taken DOWN each column j (over the
  row index i), shifted by a per-column value (the column maximum in the textbook form), and the
  product of the resulting matrix with E.

  Nothing here mentions a program: the arrays are functions Fin _ → Fin _ → EReal and the elementary
  functions are the ideal (extended-real) ones.
-/
import Idealize.ShloMosaic.PureOps.Ideal
import Idealize.ShloMosaic.Lib.ValueIdx

noncomputable section

namespace AttnSpec

open Idealize.ShloMosaic
open scoped BigOperators

/-- A rank-2 array read as a function of its two coordinates. -/
def mat {a b : ℕ} (x : (⟨2, ![a, b]⟩ : Shape).Idx → EReal) (i : Fin a) (k : Fin b) : EReal :=
  x (ValueIdx.ix2 i k)

/-- A rank-1 array read as a function of its coordinate. -/
def vec {a : ℕ} (x : (⟨1, ![a]⟩ : Shape).Idx → EReal) (i : Fin a) : EReal :=
  x (ValueIdx.ix1 i)

/-- An affine projection: entry (i, h) is the dot product of row i of X with row h of W, plus b h. -/
def proj {N K H : ℕ} (X : Fin N → Fin K → EReal) (W : Fin H → Fin K → EReal) (b : Fin H → EReal)
    (i : Fin N) (h : Fin H) : EReal :=
  (∑ k, X i k * W h k) + b h

/-- The score matrix: entry (i, j) is the dot product of row i of S with row j of Kk. -/
def scores {N M H : ℕ} (S : Fin N → Fin H → EReal) (Kk : Fin M → Fin H → EReal)
    (i : Fin N) (j : Fin M) : EReal :=
  ∑ h, S i h * Kk j h

/-- The maximum of column j, folded from -∞ over the rows (and once more against -∞). -/
def colMax {N M : ℕ} (sc : Fin N → Fin M → EReal) (j : Fin M) : EReal :=
  max ⊥ ((Finset.univ : Finset (Fin N)).fold max ⊥ (fun i => sc i j))

/-- The softmax down column j with the column shift Mx j: exp (sc i j - Mx j) over the sum, down the
    column, of the same exponentials. -/
def colSoftmax {N M : ℕ} (sc : Fin N → Fin M → EReal) (Mx : Fin M → EReal)
    (i : Fin N) (j : Fin M) : EReal :=
  Ideal.div (Ideal.exp (sc i j - Mx j)) (∑ i', Ideal.exp (sc i' j - Mx j))

/-- A matrix product: entry (i, d) is ∑ j, A i j * E j d. -/
def fused {N M D : ℕ} (A : Fin N → Fin M → EReal) (E : Fin M → Fin D → EReal)
    (i : Fin N) (d : Fin D) : EReal :=
  ∑ j, A i j * E j d

/-! ### The whole result at the literal sizes -/

/-- The scores of the two projected inputs. -/
def attnScores (X : Fin 8192 → Fin 1024 → EReal) (E : Fin 8192 → Fin 2048 → EReal)
    (Ws : Fin 1024 → Fin 1024 → EReal) (bs : Fin 1024 → EReal)
    (Wk : Fin 1024 → Fin 2048 → EReal) (bk : Fin 1024 → EReal) : Fin 8192 → Fin 8192 → EReal :=
  scores (proj X Ws bs) (proj E Wk bk)

/-- The attention matrix: the column softmax of the scores, shifted by the column maxima. -/
def attn (X : Fin 8192 → Fin 1024 → EReal) (E : Fin 8192 → Fin 2048 → EReal)
    (Ws : Fin 1024 → Fin 1024 → EReal) (bs : Fin 1024 → EReal)
    (Wk : Fin 1024 → Fin 2048 → EReal) (bk : Fin 1024 → EReal) : Fin 8192 → Fin 8192 → EReal :=
  colSoftmax (attnScores X E Ws bs Wk bk) (colMax (attnScores X E Ws bs Wk bk))

/-- The fused output: the attention matrix times E. -/
def attnOut (X : Fin 8192 → Fin 1024 → EReal) (E : Fin 8192 → Fin 2048 → EReal)
    (Ws : Fin 1024 → Fin 1024 → EReal) (bs : Fin 1024 → EReal)
    (Wk : Fin 1024 → Fin 2048 → EReal) (bk : Fin 1024 → EReal) : Fin 8192 → Fin 2048 → EReal :=
  fused (attn X E Ws bs Wk bk) E

/-! ### The column maximum of real scores is real -/

/-- The column maximum is the plain fold of max from -∞ down the column. -/
theorem colMax_eq_fold {N M : ℕ} (sc : Fin N → Fin M → EReal) (j : Fin M) :
    colMax sc j = (Finset.univ : Finset (Fin N)).fold max ⊥ (fun i => sc i j) :=
  max_bot_left _

/-- Every entry of a column is at most the column maximum. -/
theorem le_colMax {N M : ℕ} (sc : Fin N → Fin M → EReal) (i : Fin N) (j : Fin M) :
    sc i j ≤ colMax sc j := by
  rw [colMax_eq_fold]
  exact (Finset.le_fold_max _).2 (Or.inr ⟨i, Finset.mem_univ i, le_rfl⟩)

/-- The maximum over a nonempty column of real numbers, seeded with -∞, is a real number. -/
theorem colMax_real {N M : ℕ} (hN : 0 < N) (sc : Fin N → Fin M → EReal) (j : Fin M)
    (h : ∀ i, ∃ r : ℝ, sc i j = (r : EReal)) : ∃ r : ℝ, colMax sc j = (r : EReal) := by
  have hne_top : colMax sc j ≠ ⊤ := by
    rw [colMax_eq_fold]
    refine ne_of_lt ((Finset.fold_max_lt _).2 ⟨bot_lt_top, fun i _ => ?_⟩)
    obtain ⟨r, hr⟩ := h i
    rw [hr]
    exact EReal.coe_lt_top r
  have hne_bot : colMax sc j ≠ ⊥ := by
    obtain ⟨r, hr⟩ := h ⟨0, hN⟩
    have hle := le_colMax sc ⟨0, hN⟩ j
    rw [hr] at hle
    exact ne_of_gt (lt_of_lt_of_le (EReal.bot_lt_coe r) hle)
  exact ⟨(colMax sc j).toReal, (EReal.coe_toReal hne_top hne_bot).symm⟩

end AttnSpec

end
-- ==== Proof.LibTransDot.lean ====
/-
  GENERAL LEMMA: a product of a matrix with the transpose of another, read at an entry, on the extended reals.

  For dimension numbers that contract both operands' second axes (an M×K matrix times the transpose of an N×K
  matrix, no batch axis), entry (r, c) of the product is the sum over k : Fin K of left (r, k) · right (c, k); a
  `tpu.matmul` into the zero accumulator is that sum.
-/
import Idealize.ShloMosaic.PureOps.Ideal.Laws
import Idealize.ShloMosaic.Lib.ValueIdx

noncomputable section

namespace Idealize.ShloMosaic.TransDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

end Idealize.ShloMosaic.TransDot

end
-- ==== Proof.KI.ProjValue.lean ====
/- What the two projection regions leave in their output arrays, on the extended reals, entry by entry.

   On the extended reals a change of float format is the identity, a matrix product into the zero accumulator is
   the plain sum of products, and broadcasting a one-row matrix down the rows forgets the row. So the payload of
   either kernel, read at entry (r, h) of a row block, is  ∑ k, x (r, k) · w (h, k) + b (0, h):  row r of the block
   against row h of the weights, plus the bias at h. A row block of the array is rows  t · rows-per-block + r  of it,
   the weights and the bias are fetched whole, and the output's blocks tile its array; hence the whole output array
   is the projection of the whole input array, entry by entry. -/
import proofs.«125521_j15702400434434_2_alg».proof.Proof.KI.Proj
import proofs.«125521_j15702400434434_2_alg».proof.Proof.AttnSpec
import proofs.«125521_j15702400434434_2_alg».proof.Proof.LibTransDot
import Idealize.ShloMosaic.PureOps.Ideal
import Idealize.ShloMosaic.Lib.Pipeline.Value
import Idealize.ShloMosaic.Lib.ValueLayout
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## A dense layer at an entry -/

/-- Rounding to bf16, multiplying an M×K matrix by the transpose of an N×K matrix into the zero accumulator, adding a
    one-row matrix broadcast down the M rows, and rounding again: at entry (r, h), on the extended reals, the dot
    product of row r of the first with row h of the second, plus the row's entry h. -/
theorem dense_entry {M K N : ℕ} (D : DotDims ⟨2, ![M, K]⟩ ⟨2, ![N, K]⟩ ⟨2, ![M, N]⟩) (hD : D = DotDims.transposedRhs M K N)
    (hbits : FTy.bits .bf16 < FTy.bits .f32) (hcast : (⟨2, ![1, N]⟩ : Shape).ShapeCasts ⟨2, ![1, N]⟩)
    (hrows : (⟨2, ![1, N]⟩ : Shape).Broadcasts ⟨2, ![M, N]⟩)
    (x : FVec Ideal ⟨2, ![M, K]⟩ .f32) (w : FVec Ideal ⟨2, ![N, K]⟩ .f32) (b : FVec Ideal ⟨2, ![1, N]⟩ .f32) (r : Fin M) (h : Fin N) :
    (truncf .bf16 (addf (matmul D none (truncf .bf16 x hbits) (truncf .bf16 w hbits) (constant (F := Ideal) ⟨2, ![M, N]⟩ .f32 0x00000000#32))
        (broadcastTo ⟨2, ![M, N]⟩ (shapeCast ⟨2, ![1, N]⟩ b hcast) hrows)) hbits : FVec Ideal ⟨2, ![M, N]⟩ .bf16) (ix2 r h)
      = AttnSpec.proj (AttnSpec.mat x) (AttnSpec.mat w) (fun h => b (ix2 (0 : Fin 1) h)) r h := by
  unfold AttnSpec.proj AttnSpec.mat
  refine congrArg₂ (fun s e : EReal => s + e) ?_ ?_
  · exact TransDot.matmul_zero_apply D hD none (truncf .bf16 x hbits) (truncf .bf16 w hbits) (ix2 r h)
  · exact (broadcastTo_1b_ab_apply (shapeCast ⟨2, ![1, N]⟩ b hcast) hrows r h).trans
      (congrFun (shapeCast_self b hcast) (ix2 (0 : Fin 1) h))

/-- Region 0's payload at an entry of the row block. -/
theorem proj0_pay_entry (x : Vec Ideal S1024x1024 .f32) (w : Vec Ideal S1024x1024 .f32) (b : Vec Ideal S1x1024 .f32)
    (r : Fin 1024) (h : Fin 1024) :
    k0_pay1 (F := Ideal) x w b (ix2 r h) = AttnSpec.proj (AttnSpec.mat x) (AttnSpec.mat w) (fun h => b (ix2 (0 : Fin 1) h)) r h := by
  unfold k0_pay1
  exact dense_entry dot_S1024x1024_S1024x1024_S1024x1024_1_1_0_0_n_n rfl bitsLt_bf16_f32 shapeCasts_S1x1024_S1x1024
    broadcasts_S1x1024_S1024x1024 x w b r h

/-- Region 1's payload at an entry of the row block. -/
theorem proj1_pay_entry (x : Vec Ideal S512x2048 .f32) (w : Vec Ideal S1024x2048 .f32) (b : Vec Ideal S1x1024 .f32)
    (r : Fin 512) (h : Fin 1024) :
    k1_pay1 (F := Ideal) x w b (ix2 r h) = AttnSpec.proj (AttnSpec.mat x) (AttnSpec.mat w) (fun h => b (ix2 (0 : Fin 1) h)) r h := by
  unfold k1_pay1
  exact dense_entry dot_S512x2048_S1024x2048_S512x1024_1_1_0_0_n_n rfl bitsLt_bf16_f32 shapeCasts_S1x1024_S1x1024
    broadcasts_S1x1024_S512x1024 x w b r h

/-! ## The whole array's projection -/

/-- The projection of a whole array, entry by entry: rows of `X` against rows of `W`, plus the one-row bias. -/
def projArr {N K H : ℕ} (X : (⟨2, ![N, K]⟩ : Shape).Idx → EReal) (W : (⟨2, ![H, K]⟩ : Shape).Idx → EReal)
    (b : (⟨2, ![1, H]⟩ : Shape).Idx → EReal) : (⟨2, ![N, H]⟩ : Shape).Idx → EReal :=
  fun j => AttnSpec.proj (AttnSpec.mat X) (AttnSpec.mat W) (fun h => b (ix2 (0 : Fin 1) h)) (j 0) (j 1)

/-- The offset (0, 0) is the zero offset. -/
theorem off00 : (![0, 0] : Fin 2 → Nat) = fun _ => 0 := funext fun a => by fin_cases a <;> rfl

section AtEntry
variable (V : (c : Dev nD) → (b : Ref sig .tc) → Buf (Elt Ideal) ((c : Thread nD τ).loc b))

/-! # Region 0 -/

/-- Where region 0's blocks sit, decided over its 8 points: the row block and the output block at block (t, 0) of
    their arrays, the weights and the bias at block (0, 0) of theirs. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (r, k) of the row block at point `t` is entry (1024 t + r, k) of the array. -/
theorem rows0_apply (c : Dev nD) (t : Fin cfg0.N) (y : S1024x1024.Idx) (i : S8192x1024.Idx)
    (h0 : (i 0).val = t.val * 1024 + (y 0).val) (h1 : (i 1).val = (y 1).val) :
    (iblk0 V c 0 t : Vec Ideal S1024x1024 .f32) y = (V c main_arg0 : S8192x1024.Idx → EReal) i := by
  obtain ⟨e0, e1, -⟩ := where0 t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- The weights' block at any point is the whole weight matrix. -/
theorem weights0_apply (c : Dev nD) (t : Fin cfg0.N) (y : S1024x1024.Idx) (i : S1024x1024.Idx)
    (h0 : (i 0).val = (y 0).val) (h1 : (i 1).val = (y 1).val) :
    (iblk0 V c 1 t : Vec Ideal S1024x1024 .f32) y = (V c main_arg2 : S1024x1024.Idx → EReal) i := by
  obtain ⟨-, -, e0, e1, -⟩ := where0 t
  unfold iblk0
  rw [View.read_apply]
  show V c main_arg2 _ = V c main_arg2 _
  congr 1
  funext a
  apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The bias block at any point is the whole bias row. -/
theorem bias0_apply (c : Dev nD) (t : Fin cfg0.N) (y : S1x1024.Idx) (i : S1x1024.Idx)
    (h0 : (i 0).val = (y 0).val) (h1 : (i 1).val = (y 1).val) :
    (iblk0 V c 2 t : Vec Ideal S1x1024 .f32) y = (V c main_v0 : S1x1024.Idx → EReal) i := by
  obtain ⟨-, -, -, -, e0, e1, -⟩ := where0 t
  unfold iblk0
  rw [View.read_apply]
  show V c main_v0 _ = V c main_v0 _
  congr 1
  funext a
  apply Fin.ext
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- What point `t` of region 0 writes back to the output array is block `t` of the projection of the whole arrays:
    the payload at entry (r, h) of the block reads row r of the row block, which is row 1024 t + r of the array, and
    the whole weights and bias; entry (r, h) of the output block is entry (1024 t + r, h) of the output array. -/
theorem written0_eq (c : Dev nD) (t : Fin cfg0.N) :
    (dat0 V c).flushed 3 t
      = ((cfg0.win 3).blk t).view.read (Elt Ideal) (projArr (V c main_arg0) (V c main_arg2) (V c main_v0)) := by
  obtain ⟨-, -, -, -, -, -, e0, e1⟩ := where0 t
  show (cfg0.win 3).cut (grid0.coords t) ((dat0 V c).after 3 t) = _
  rw [after0_3]
  unfold out0_3
  rw [View.canon_unit_zero off00]
  simp only [View.ld_unit_zero (S := S1024x1024) off00, View.ld_unit_zero (S := S1x1024) off00]
  funext j
  obtain ⟨r, h, rfl⟩ : ∃ (r : Fin 1024) (h : Fin 1024), j = ix2 r h := ⟨j 0, j 1, eq_ix2 j⟩
  refine (proj0_pay_entry (iblk0 V c 0 t) (iblk0 V c 1 t) (iblk0 V c 2 t) r h).trans ?_
  rw [View.read_apply]
  show AttnSpec.proj (AttnSpec.mat (iblk0 V c 0 t)) (AttnSpec.mat (iblk0 V c 1 t)) (fun h => iblk0 V c 2 t (ix2 (0 : Fin 1) h)) r h
      = projArr (V c main_arg0) (V c main_arg2) (V c main_v0) (((cfg0.win 3).blk t).view.emb (ix2 r h))
  unfold projArr AttnSpec.proj AttnSpec.mat
  refine congrArg₂ (fun s e : EReal => s + e)
    (Finset.sum_congr rfl fun k _ => congrArg₂ (fun p q : EReal => p * q) ?_ ?_) ?_
  · refine rows0_apply V c t (ix2 r k) _ ?_ rfl
    show win0_3.index t (0 : Fin 2) * 1024 + 1 * r.val = t.val * 1024 + r.val
    omega
  · refine weights0_apply V c t (ix2 h k) _ ?_ rfl
    show win0_3.index t (1 : Fin 2) * 1024 + 1 * h.val = h.val
    omega
  · refine bias0_apply V c t (ix2 (0 : Fin 1) h) _ rfl ?_
    show win0_3.index t (1 : Fin 2) * 1024 + 1 * h.val = h.val
    omega

/-- An index of the output array is in point `t`'s block iff, on each axis, it lies in the block's range. -/
theorem in_block0 (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- Every entry of the output array is written: row `i` by point `i / 1024`, which writes back like every point. -/
theorem covered0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  have ht : (i 0).val / 1024 < cfg0.N := lt_of_lt_of_eq (by omega) hN.symm
  obtain ⟨-, -, -, -, -, -, e0, e1⟩ := where0 ⟨(i 0).val / 1024, ht⟩
  refine ⟨⟨(i 0).val / 1024, ht⟩, flush0_3 _, ?_⟩
  rw [in_block0]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e1]; omega

/-- Region 0's output array after its last point: the projection of the arrays the region found. -/
theorem result0 (c : Dev nD) :
    (dat0 V c).arrAt 3 cfg0.N = projArr (V c main_arg0) (V c main_arg2) (V c main_v0) :=
  (dat0 V c).arrAt_eq_of_cover 3 (projArr (V c main_arg0) (V c main_arg2) (V c main_v0))
    (fun t _ => written0_eq V c t) covered0

/-- The same, entry by entry: row `i` of `main_arg0` against row `h` of `main_arg2`, plus entry `h` of the bias row. -/
theorem result0_entry (c : Dev nD) (i : Fin 8192) (h : Fin 1024) :
    ((dat0 V c).arrAt 3 cfg0.N : S8192x1024.Idx → EReal) (ix2 i h)
      = AttnSpec.proj (fun i k => (V c main_arg0 : S8192x1024.Idx → EReal) (ix2 i k))
          (fun h k => (V c main_arg2 : S1024x1024.Idx → EReal) (ix2 h k))
          (fun h => (V c main_v0 : S1x1024.Idx → EReal) (ix2 (0 : Fin 1) h)) i h :=
  congrFun (result0 V c) (ix2 i h)

/-! # Region 1 -/

/-- Where region 1's blocks sit, decided over its 16 points: the row block and the output block at block (t, 0) of
    their arrays, the weights and the bias at block (0, 0) of theirs. -/
theorem where1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (r, k) of the row block at point `t` is entry (512 t + r, k) of the array. -/
theorem rows1_apply (c : Dev nD) (t : Fin cfg1.N) (y : S512x2048.Idx) (i : S8192x2048.Idx)
    (h0 : (i 0).val = t.val * 512 + (y 0).val) (h1 : (i 1).val = (y 1).val) :
    (iblk1 V c 0 t : Vec Ideal S512x2048 .f32) y = (V c main_arg1 : S8192x2048.Idx → EReal) i := by
  obtain ⟨e0, e1, -⟩ := where1 t
  unfold iblk1
  rw [View.read_apply]
  show V c main_arg1 _ = V c main_arg1 _
  congr 1
  funext a
  apply Fin.ext
  match a with
  | ⟨0, _⟩ => show win1_0.index t (0 : Fin 2) * 512 + 1 * (y 0).val = (i 0).val; omega
  | ⟨1, _⟩ => show win1_0.index t (1 : Fin 2) * 2048 + 1 * (y 1).val = (i 1).val; omega

/-- The weights' block at any point is the whole weight matrix. -/
theorem weights1_apply (c : Dev nD) (t : Fin cfg1.N) (y : S1024x2048.Idx) (i : S1024x2048.Idx)
    (h0 : (i 0).val = (y 0).val) (h1 : (i 1).val = (y 1).val) :
    (iblk1 V c 1 t : Vec Ideal S1024x2048 .f32) y = (V c main_arg4 : S1024x2048.Idx → EReal) i := by
  obtain ⟨-, -, e0, e1, -⟩ := where1 t
  unfold iblk1
  rw [View.read_apply]
  show V c main_arg4 _ = V c main_arg4 _
  congr 1
  funext a
  apply Fin.ext
  match a with
  | ⟨0, _⟩ => show win1_1.index t (0 : Fin 2) * 1024 + 1 * (y 0).val = (i 0).val; omega
  | ⟨1, _⟩ => show win1_1.index t (1 : Fin 2) * 2048 + 1 * (y 1).val = (i 1).val; omega

/-- The bias block at any point is the whole bias row. -/
theorem bias1_apply (c : Dev nD) (t : Fin cfg1.N) (y : S1x1024.Idx) (i : S1x1024.Idx)
    (h0 : (i 0).val = (y 0).val) (h1 : (i 1).val = (y 1).val) :
    (iblk1 V c 2 t : Vec Ideal S1x1024 .f32) y = (V c main_v1 : S1x1024.Idx → EReal) i := by
  obtain ⟨-, -, -, -, e0, e1, -⟩ := where1 t
  unfold iblk1
  rw [View.read_apply]
  show V c main_v1 _ = V c main_v1 _
  congr 1
  funext a
  apply Fin.ext
  match a with
  | ⟨0, _⟩ => show win1_2.index t (0 : Fin 2) * 1 + 1 * (y 0).val = (i 0).val; omega
  | ⟨1, _⟩ => show win1_2.index t (1 : Fin 2) * 1024 + 1 * (y 1).val = (i 1).val; omega

/-- What point `t` of region 1 writes back to the output array is block `t` of the projection of the whole arrays:
    the payload at entry (r, h) of the block reads row r of the row block, which is row 512 t + r of the array, and
    the whole weights and bias; entry (r, h) of the output block is entry (512 t + r, h) of the output array. -/
theorem written1_eq (c : Dev nD) (t : Fin cfg1.N) :
    (dat1 V c).flushed 3 t
      = ((cfg1.win 3).blk t).view.read (Elt Ideal) (projArr (V c main_arg1) (V c main_arg4) (V c main_v1)) := by
  obtain ⟨-, -, -, -, -, -, e0, e1⟩ := where1 t
  show (cfg1.win 3).cut (grid1.coords t) ((dat1 V c).after 3 t) = _
  rw [after1_3]
  unfold out1_3
  rw [View.canon_unit_zero off00]
  simp only [View.ld_unit_zero (S := S512x2048) off00, View.ld_unit_zero (S := S1024x2048) off00, View.ld_unit_zero (S := S1x1024) off00]
  funext j
  obtain ⟨r, h, rfl⟩ : ∃ (r : Fin 512) (h : Fin 1024), j = ix2 r h := ⟨j 0, j 1, eq_ix2 j⟩
  refine (proj1_pay_entry (iblk1 V c 0 t) (iblk1 V c 1 t) (iblk1 V c 2 t) r h).trans ?_
  rw [View.read_apply]
  show AttnSpec.proj (AttnSpec.mat (iblk1 V c 0 t)) (AttnSpec.mat (iblk1 V c 1 t)) (fun h => iblk1 V c 2 t (ix2 (0 : Fin 1) h)) r h
      = projArr (V c main_arg1) (V c main_arg4) (V c main_v1) (((cfg1.win 3).blk t).view.emb (ix2 r h))
  unfold projArr AttnSpec.proj AttnSpec.mat
  refine congrArg₂ (fun s e : EReal => s + e)
    (Finset.sum_congr rfl fun k _ => congrArg₂ (fun p q : EReal => p * q) ?_ ?_) ?_
  · refine rows1_apply V c t (ix2 r k) _ ?_ rfl
    show win1_3.index t (0 : Fin 2) * 512 + 1 * r.val = t.val * 512 + r.val
    omega
  · refine weights1_apply V c t (ix2 h k) _ ?_ rfl
    show win1_3.index t (1 : Fin 2) * 1024 + 1 * h.val = h.val
    omega
  · refine bias1_apply V c t (ix2 (0 : Fin 1) h) _ rfl ?_
    show win1_3.index t (1 : Fin 2) * 1024 + 1 * h.val = h.val
    omega

/-- An index of the output array is in point `t`'s block iff, on each axis, it lies in the block's range. -/
theorem in_block1 (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v3).slice (win1_3.rect t)).set ↔ _
  rw [View.set_slice_whole, Rect.mem_set_unit]
  exact Iff.rfl

/-- Every entry of the output array is written: row `i` by point `i / 512`, which writes back like every point. -/
theorem covered1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 16 := N_1
  have ht : (i 0).val / 512 < cfg1.N := lt_of_lt_of_eq (by omega) hN.symm
  obtain ⟨-, -, -, -, -, -, e0, e1⟩ := where1 ⟨(i 0).val / 512, ht⟩
  refine ⟨⟨(i 0).val / 512, ht⟩, flush1_3 _, ?_⟩
  rw [in_block1]
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_3.index ⟨(i 0).val / 512, ht⟩ (1 : Fin 2) * 1024 ≤ (i 1).val
      ∧ (i 1).val < win1_3.index ⟨(i 0).val / 512, ht⟩ (1 : Fin 2) * 1024 + 1024
    rw [e1]; omega

/-- Region 1's output array after its last point: the projection of the arrays the region found. -/
theorem result1 (c : Dev nD) :
    (dat1 V c).arrAt 3 cfg1.N = projArr (V c main_arg1) (V c main_arg4) (V c main_v1) :=
  (dat1 V c).arrAt_eq_of_cover 3 (projArr (V c main_arg1) (V c main_arg4) (V c main_v1))
    (fun t _ => written1_eq V c t) covered1

/-- The same, entry by entry: row `i` of `main_arg1` against row `h` of `main_arg4`, plus entry `h` of the bias row. -/
theorem result1_entry (c : Dev nD) (i : Fin 8192) (h : Fin 1024) :
    ((dat1 V c).arrAt 3 cfg1.N : S8192x1024.Idx → EReal) (ix2 i h)
      = AttnSpec.proj (fun i k => (V c main_arg1 : S8192x2048.Idx → EReal) (ix2 i k))
          (fun h k => (V c main_arg4 : S1024x2048.Idx → EReal) (ix2 h k))
          (fun h => (V c main_v1 : S1x1024.Idx → EReal) (ix2 (0 : Fin 1) h)) i h :=
  congrFun (result1 V c) (ix2 i h)

end AtEntry

end Cert.KernelIdeal.Hand

end
-- ==== Proof.KI.StageValues.lean ====
/- The buffers' contents between the program's items, read back to the launch memory, on the extended reals.

   The first host stretch only reshapes the two bias vectors to one-row matrices, so a bias row read at (0, h) is the
   launched vector at h and every argument array is still as launched; each region replaces only its own output
   array; the second host stretch only changes the format of the value matrix, which on the extended reals is the
   identity. Reading the two projection regions' results through these facts gives each projection as a function of
   the launched arrays alone:  S = X · Wsᵀ + bs  and  K = E · Wkᵀ + bk,  entry by entry. -/
import proofs.«125521_j15702400434434_2_alg».proof.Proof.KI.Frame
import proofs.«125521_j15702400434434_2_alg».proof.Proof.KI.ProjValue
import proofs.«125521_j15702400434434_2_alg».proof.Proof.AttnSpec
import Idealize.ShloMosaic.Lib.ValueLayout
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-! ## What each item leaves alone -/

/-- The first host stretch writes the two bias rows only. -/
theorem U1_keeps (c : Dev nD) (r : Ref sig .tc) (h : r ∉ hostOps0_W) : U1 m c r = m ((c : Thread nD τ).loc r) :=
  (Gen.V1_of m c r h).trans rfl

/-- The first projection writes its output array only. -/
theorem U2_keeps (c : Dev nD) (r : Ref sig .tc) (h : r ≠ main_v2) : U2 m c r = U1 m c r :=
  Function.update_of_ne (StableHlo.devRef_ne_of_ne h : (Proc.devRef .tc r : DevRef τ sig) ≠ Proc.devRef .tc main_v2) _ _

/-- The second projection writes its output array only. -/
theorem U3_keeps (c : Dev nD) (r : Ref sig .tc) (h : r ≠ main_v3) : U3 m c r = U2 m c r :=
  Function.update_of_ne (StableHlo.devRef_ne_of_ne h : (Proc.devRef .tc r : DevRef τ sig) ≠ Proc.devRef .tc main_v3) _ _

/-- The log-sum-exp pass writes its output array only. -/
theorem U4_keeps (c : Dev nD) (r : Ref sig .tc) (h : r ≠ main_v4) : U4 m c r = U3 m c r :=
  Function.update_of_ne (StableHlo.devRef_ne_of_ne h : (Proc.devRef .tc r : DevRef τ sig) ≠ Proc.devRef .tc main_v4) _ _

/-- The second host stretch writes the reformatted value matrix only. -/
theorem U5_keeps (c : Dev nD) (r : Ref sig .tc) (h : r ∉ hostOps3_W) : U5 m c r = U4 m c r :=
  StableHlo.after_of_writes_sub hostOps3 _ hostOps3_writes h

/-! ## The argument arrays, stage by stage -/

theorem U1_main_arg0 (c : Dev nD) : U1 m c main_arg0 = m ((c : Thread nD τ).loc main_arg0) := U1_keeps m c main_arg0 (by decide)
theorem U1_main_arg2 (c : Dev nD) : U1 m c main_arg2 = m ((c : Thread nD τ).loc main_arg2) := U1_keeps m c main_arg2 (by decide)
theorem U2_main_arg1 (c : Dev nD) : U2 m c main_arg1 = m ((c : Thread nD τ).loc main_arg1) :=
  (U2_keeps m c main_arg1 (by decide)).trans (U1_keeps m c main_arg1 (by decide))
theorem U2_main_arg4 (c : Dev nD) : U2 m c main_arg4 = m ((c : Thread nD τ).loc main_arg4) :=
  (U2_keeps m c main_arg4 (by decide)).trans (U1_keeps m c main_arg4 (by decide))

/-! ## The bias rows -/

/-- The first bias row is the launched vector `main_arg3` cast to one row. -/
theorem U1_main_v0 (c : Dev nD) :
    (U1 m c main_v0 : S1x1024.Idx → EReal)
      = shapeCast S1x1024 (m ((c : Thread nD τ).loc main_arg3) : S1024.Idx → EReal) shapeCasts_S1024_S1x1024 := by
  show StableHlo.after hostOps0 (Gen.V0 m c) (Proc.devRef .tc main_v0) = _
  after_results
  rfl

/-- The second bias row is the launched vector `main_arg5` cast to one row. -/
theorem U1_main_v1 (c : Dev nD) :
    (U1 m c main_v1 : S1x1024.Idx → EReal)
      = shapeCast S1x1024 (m ((c : Thread nD τ).loc main_arg5) : S1024.Idx → EReal) shapeCasts_S1024_S1x1024 := by
  show StableHlo.after hostOps0 (Gen.V0 m c) (Proc.devRef .tc main_v1) = _
  after_results
  rfl

/-- Entry (0, h) of the first bias row is entry h of `main_arg3`. -/
theorem U1_main_v0_entry (c : Dev nD) (h : Fin 1024) :
    (U1 m c main_v0 : S1x1024.Idx → EReal) (ix2 (0 : Fin 1) h)
      = (m ((c : Thread nD τ).loc main_arg3) : S1024.Idx → EReal) (ix1 h) := by
  rw [U1_main_v0]
  exact shapeCast_a_1a_apply _ shapeCasts_S1024_S1x1024 (0 : Fin 1) h

/-- Entry (0, h) of the second bias row, as the second projection finds it, is entry h of `main_arg5`. -/
theorem U2_main_v1_entry (c : Dev nD) (h : Fin 1024) :
    (U2 m c main_v1 : S1x1024.Idx → EReal) (ix2 (0 : Fin 1) h)
      = (m ((c : Thread nD τ).loc main_arg5) : S1024.Idx → EReal) (ix1 h) := by
  rw [U2_keeps m c main_v1 (by decide), U1_main_v1]
  exact shapeCast_a_1a_apply _ shapeCasts_S1024_S1x1024 (0 : Fin 1) h

/-! ## The two projections as functions of the launched arrays -/

/-- The first projection's output array:  S = X · Wsᵀ + bs  at (i, h), over the launched `main_arg0`, `main_arg2`,
    `main_arg3`. -/
theorem o2_entry (c : Dev nD) (i : Fin 8192) (h : Fin 1024) :
    (o2 m c : S8192x1024.Idx → EReal) (ix2 i h)
      = AttnSpec.proj (AttnSpec.mat (a := 8192) (b := 1024) (m ((c : Thread nD τ).loc main_arg0)))
          (AttnSpec.mat (a := 1024) (b := 1024) (m ((c : Thread nD τ).loc main_arg2)))
          (AttnSpec.vec (a := 1024) (m ((c : Thread nD τ).loc main_arg3))) i h := by
  unfold o2
  refine (result0_entry (atTc (U1 m)) c i h).trans ?_
  unfold AttnSpec.proj AttnSpec.mat AttnSpec.vec
  refine congrArg₂ (fun s e : EReal => s + e)
    (Finset.sum_congr rfl fun k _ => congrArg₂ (fun p q : EReal => p * q) ?_ ?_) ?_
  · exact congrFun (U1_main_arg0 m c) (ix2 i k)
  · exact congrFun (U1_main_arg2 m c) (ix2 h k)
  · exact U1_main_v0_entry m c h

/-- The second projection's output array:  K = E · Wkᵀ + bk  at (j, h), over the launched `main_arg1`, `main_arg4`,
    `main_arg5`. -/
theorem o3_entry (c : Dev nD) (j : Fin 8192) (h : Fin 1024) :
    (o3 m c : S8192x1024.Idx → EReal) (ix2 j h)
      = AttnSpec.proj (AttnSpec.mat (a := 8192) (b := 2048) (m ((c : Thread nD τ).loc main_arg1)))
          (AttnSpec.mat (a := 1024) (b := 2048) (m ((c : Thread nD τ).loc main_arg4)))
          (AttnSpec.vec (a := 1024) (m ((c : Thread nD τ).loc main_arg5))) j h := by
  unfold o3
  refine (result1_entry (atTc (U2 m)) c j h).trans ?_
  unfold AttnSpec.proj AttnSpec.mat AttnSpec.vec
  refine congrArg₂ (fun s e : EReal => s + e)
    (Finset.sum_congr rfl fun k _ => congrArg₂ (fun p q : EReal => p * q) ?_ ?_) ?_
  · exact congrFun (U2_main_arg1 m c) (ix2 j k)
  · exact congrFun (U2_main_arg4 m c) (ix2 h k)
  · exact U2_main_v1_entry m c h

/-! ## The projections' arrays as the later items find them -/

/-- As the log-sum-exp pass finds them. -/
theorem U3_main_v2 (c : Dev nD) : U3 m c main_v2 = o2 m c :=
  (U3_keeps m c main_v2 (by decide)).trans (Function.update_self ..)
theorem U3_main_v3 (c : Dev nD) : U3 m c main_v3 = o3 m c := Function.update_self ..

/-- As the fused pass finds them, with the log-sum-exp pass's output. -/
theorem U5_main_v2 (c : Dev nD) : U5 m c main_v2 = o2 m c :=
  (U5_keeps m c main_v2 (by decide)).trans <| (U4_keeps m c main_v2 (by decide)).trans (U3_main_v2 m c)
theorem U5_main_v3 (c : Dev nD) : U5 m c main_v3 = o3 m c :=
  (U5_keeps m c main_v3 (by decide)).trans <| (U4_keeps m c main_v3 (by decide)).trans (U3_main_v3 m c)
theorem U5_main_v4 (c : Dev nD) : U5 m c main_v4 = o4 m c :=
  (U5_keeps m c main_v4 (by decide)).trans (Function.update_self ..)

/-- The value matrix `main_arg1` is still as launched when the second host stretch reads it. -/
theorem U4_main_arg1 (c : Dev nD) : U4 m c main_arg1 = m ((c : Thread nD τ).loc main_arg1) :=
  (U4_keeps m c main_arg1 (by decide)).trans <| (U3_keeps m c main_arg1 (by decide)).trans (U2_main_arg1 m c)

/-- The reformatted value matrix is, on the extended reals, the launched one: rounding to bf16 is the identity. -/
theorem U5_main_v5 (c : Dev nD) :
    (U5 m c main_v5 : S8192x2048.Idx → EReal) = (m ((c : Thread nD τ).loc main_arg1) : S8192x2048.Idx → EReal) := by
  have e : (U5 m c main_v5 : S8192x2048.Idx → EReal)
      = truncf (F := Ideal) .bf16 (U4 m c main_arg1 : S8192x2048.Idx → EReal) bitsLt_bf16_f32 := by
    show StableHlo.after hostOps3 (U4 m c) (Proc.devRef .tc main_v5) = _
    after_results
  rw [e, U4_main_arg1]
  rfl

/-- The same at an index. -/
theorem U5_main_v5_entry (c : Dev nD) (j : S8192x2048.Idx) :
    (U5 m c main_v5 : S8192x2048.Idx → EReal) j = (m ((c : Thread nD τ).loc main_arg1) : S8192x2048.Idx → EReal) j :=
  congrFun (U5_main_v5 m c) j

end Cert.KernelIdeal.Hand

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KI.FusedValue.lean ====
/-
  What the fused attention pass leaves in its two result arrays, on the extended reals, entry by entry — for any
  contents `V` of the TensorCore's buffers when the pass is entered.

  Write S [8192,1024] for the score operand, Kk [8192,1024] for the key operand, L [1,8192] for the log-sum-exp row and
  W [8192,2048] for the value operand, as the pass finds them. On the extended reals a change of float format keeps its
  operand and a matrix product into the zero accumulator is the plain sum of products. So:

  * the attention result is the probability matrix  P i j = exp (∑ h, S i h · Kk j h − L j)  (`attn_array`, `attn_entry`):
    the body's first payload at entry (r, q) of a block is that expression of row r of the score block, row q of the key
    block and entry q of the row block (`prob_entry`); at grid point t these are rows 1024 (t / 16) + r, 512 (t % 16) + q
    and entry 512 (t % 16) + q of the arrays; every point writes its block back, and the blocks tile the array;
  * the fused result is  ∑ j, P i j · W j d  over all 8192 key rows (`fused_array`, `fused_entry`): one accumulation step
    adds, at entry (r, d), the sum over the 512 key rows of the point's column block (`step_entry`, `step3_entry`); the
    buffer is written back after the 16th point of a row block, when it holds the fold of 16 steps from the zero block,
    ((0 + b₀) + b₁) + … + b₁₅; the zero word is 0, and the sixteen partial sums over 512 rows are the sum over all 8192
    (`sum_blocks`: a re-indexing of a finite sum, which needs only that + is commutative and associative — true of the
    extended reals without any finiteness).
-/
import proofs.«125521_j15702400434434_2_alg».proof.Proof.KI.Fused
import proofs.«125521_j15702400434434_2_alg».proof.Proof.AttnSpec
import proofs.«125521_j15702400434434_2_alg».proof.Proof.LibTransDot
import proofs.«125521_j15702400434434_2_alg».proof.Proof.LibPlainDot
import Idealize.ShloMosaic.PureOps.Ideal
import Idealize.ShloMosaic.Lib.Pipeline.Value
import Idealize.ShloMosaic.Lib.ValueLayout
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The two payloads at an entry -/

/-- The probabilities' block at entry (r, q), on the extended reals: the exponential of the dot product of row r of the
    score block with row q of the key block, less the log-sum-exp row's entry q. The casts keep their operands, the
    product into the zero accumulator is the plain sum, and the row is laid over every row of the block. -/
theorem prob_entry (s : Vec Ideal S1024x1024 .bf16) (k : Vec Ideal S512x1024 .bf16) (l : Vec Ideal S1x512 .f32)
    (r : Fin 1024) (q : Fin 512) :
    k3_pay2 (F := Ideal) s k l (ix2 r q)
      = Ideal.exp ((∑ h : Fin 1024, s (ix2 r h) * k (ix2 q h)) - l (ix2 (0 : Fin 1) q)) := by
  unfold k3_pay2
  show Ideal.exp (_ - _) = _
  refine congrArg Ideal.exp (congrArg₂ (fun a b : EReal => a - b) ?_ ?_)
  · refine (TransDot.matmul_zero_apply dot_S1024x1024_S512x1024_S1024x512_1_1_0_0_n_n rfl none _ _ (ix2 r q)).trans ?_
    rw [shapeCast_self s, shapeCast_self k]
  · exact (broadcastTo_1b_ab_apply (shapeCast S1x512 l shapeCasts_S1x512_S1x512) broadcasts_S1x512_S1024x512 r q).trans
      (congrFun (shapeCast_self l shapeCasts_S1x512_S1x512) (ix2 (0 : Fin 1) q))

/-- One accumulation step at entry (r, d), on the extended reals: what the buffer held there, plus the dot product of
    row r of the probabilities' block with column d of the value block (rounding the probabilities to bf16 keeps them). -/
theorem step_entry (s : Vec Ideal S1024x1024 .bf16) (k : Vec Ideal S512x1024 .bf16) (l : Vec Ideal S1x512 .f32)
    (w : Vec Ideal S512x2048 .bf16) (acc : Vec Ideal S1024x2048 .f32) (r : Fin 1024) (d : Fin 2048) :
    k3_pay3 (F := Ideal) s k l w acc (ix2 r d)
      = acc (ix2 r d) + ∑ q : Fin 512, k3_pay2 (F := Ideal) s k l (ix2 r q) * w (ix2 q d) := by
  unfold k3_pay3
  show _ + _ = _
  refine congrArg₂ (fun a b : EReal => a + b) ?_ ?_
  · exact congrFun (shapeCast_self acc shapeCasts_S1024x2048_S1024x2048) (ix2 r d)
  · refine (PlainDot.matmul_zero_apply dot_S1024x512_S512x2048_S1024x2048_1_0_0_1_n_n rfl none _ _ (ix2 r d)).trans ?_
    rw [shapeCast_self w]
    rfl

/-! ## The two results as functions of whole arrays -/

/-- The probability matrix of a score array `S`, a key array `Kk` and a log-sum-exp row `L`: entry (i, j) is the
    exponential of the dot product of row i of `S` with row j of `Kk`, less entry j of the row. -/
def probArr (S Kk : S8192x1024.Idx → EReal) (L : S1x8192.Idx → EReal) (i j : Fin 8192) : EReal :=
  Ideal.exp (AttnSpec.scores (AttnSpec.mat S) (AttnSpec.mat Kk) i j - L (ix2 (0 : Fin 1) j))

/-- The probabilities' block is a block of the probability matrix: if row r of the score block is row i of the score
    array, row q of the key block is row j of the key array, and entry q of the row block is entry j of the row, then
    entry (r, q) of the block is entry (i, j) of the matrix. -/
theorem prob_block (S Kk : S8192x1024.Idx → EReal) (L : S1x8192.Idx → EReal)
    (s : Vec Ideal S1024x1024 .bf16) (k : Vec Ideal S512x1024 .bf16) (l : Vec Ideal S1x512 .f32)
    (i j : Fin 8192) (r : Fin 1024) (q : Fin 512)
    (hs : ∀ h : Fin 1024, s (ix2 r h) = S (ix2 i h)) (hk : ∀ h : Fin 1024, k (ix2 q h) = Kk (ix2 j h))
    (hl : l (ix2 (0 : Fin 1) q) = L (ix2 (0 : Fin 1) j)) :
    k3_pay2 (F := Ideal) s k l (ix2 r q) = probArr S Kk L i j := by
  refine (prob_entry s k l r q).trans ?_
  unfold probArr AttnSpec.scores AttnSpec.mat
  rw [hl]
  exact congrArg (fun x : EReal => Ideal.exp (x - L (ix2 (0 : Fin 1) j)))
    (Finset.sum_congr rfl fun h _ => by rw [hs h, hk h])

section AtEntry
variable (V : (c : Dev nD) → (b : Ref sig .tc) → Buf (Elt Ideal) ((c : Thread nD τ).loc b))

/-! ## Where the blocks of a grid point sit in their arrays -/

/-- Decided over the 128 points: at point `t` the score block and the fused block are row block `t / 16` of their
    arrays, the key block and the value block row block `t % 16` of theirs, the log-sum-exp block column block
    `t % 16` of the row, and the attention block is block (`t / 16`, `t % 16`). -/
theorem where3 : ∀ t : Fin cfg3.N,
    win3_0.index t (0 : Fin 2) = t.val / 16 ∧ win3_0.index t (1 : Fin 2) = 0
    ∧ win3_1.index t (0 : Fin 2) = t.val % 16 ∧ win3_1.index t (1 : Fin 2) = 0
    ∧ win3_2.index t (0 : Fin 2) = t.val % 16 ∧ win3_2.index t (1 : Fin 2) = 0
    ∧ win3_3.index t (0 : Fin 2) = 0 ∧ win3_3.index t (1 : Fin 2) = t.val % 16
    ∧ win3_4.index t (0 : Fin 2) = t.val / 16 ∧ win3_4.index t (1 : Fin 2) = t.val % 16
    ∧ win3_5.index t (0 : Fin 2) = t.val / 16 ∧ win3_5.index t (1 : Fin 2) = 0 :=
  (by decide +kernel : ∀ t : Fin grid3.N, _)

/-- Entry (r, h) of the score block at point `t` is entry (1024 (t / 16) + r, h) of the score array. -/
theorem scoreBlk_apply (c : Dev nD) (t : Fin cfg3.N) (y : S1024x1024.Idx) (i : S8192x1024.Idx)
    (h0 : (i 0).val = t.val / 16 * 1024 + (y 0).val) (h1 : (i 1).val = (y 1).val) :
    (iblk3 (F := Ideal) V c 0 t : Vec Ideal S1024x1024 .bf16) y = (V c main_v2 : S8192x1024.Idx → EReal) i := by
  obtain ⟨e0, e1, -⟩ := where3 t
  unfold iblk3
  rw [View.read_apply]
  show V c main_v2 _ = V c main_v2 _
  congr 1
  funext a
  apply Fin.ext
  match a with
  | ⟨0, _⟩ => show win3_0.index t (0 : Fin 2) * 1024 + 1 * (y 0).val = (i 0).val; omega
  | ⟨1, _⟩ => show win3_0.index t (1 : Fin 2) * 1024 + 1 * (y 1).val = (i 1).val; omega

/-- Entry (q, h) of the key block at point `t` is entry (512 (t % 16) + q, h) of the key array. -/
theorem keyBlk_apply (c : Dev nD) (t : Fin cfg3.N) (y : S512x1024.Idx) (i : S8192x1024.Idx)
    (h0 : (i 0).val = t.val % 16 * 512 + (y 0).val) (h1 : (i 1).val = (y 1).val) :
    (iblk3 (F := Ideal) V c 1 t : Vec Ideal S512x1024 .bf16) y = (V c main_v3 : S8192x1024.Idx → EReal) i := by
  obtain ⟨-, -, e0, e1, -⟩ := where3 t
  unfold iblk3
  rw [View.read_apply]
  show V c main_v3 _ = V c main_v3 _
  congr 1
  funext a
  apply Fin.ext
  match a with
  | ⟨0, _⟩ => show win3_1.index t (0 : Fin 2) * 512 + 1 * (y 0).val = (i 0).val; omega
  | ⟨1, _⟩ => show win3_1.index t (1 : Fin 2) * 1024 + 1 * (y 1).val = (i 1).val; omega

/-- Entry (q, d) of the value block at point `t` is entry (512 (t % 16) + q, d) of the value array. -/
theorem valueBlk_apply (c : Dev nD) (t : Fin cfg3.N) (y : S512x2048.Idx) (i : S8192x2048.Idx)
    (h0 : (i 0).val = t.val % 16 * 512 + (y 0).val) (h1 : (i 1).val = (y 1).val) :
    (iblk3 (F := Ideal) V c 2 t : Vec Ideal S512x2048 .bf16) y = (V c main_v5 : S8192x2048.Idx → EReal) i := by
  obtain ⟨-, -, -, -, e0, e1, -⟩ := where3 t
  unfold iblk3
  rw [View.read_apply]
  show V c main_v5 _ = V c main_v5 _
  congr 1
  funext a
  apply Fin.ext
  match a with
  | ⟨0, _⟩ => show win3_2.index t (0 : Fin 2) * 512 + 1 * (y 0).val = (i 0).val; omega
  | ⟨1, _⟩ => show win3_2.index t (1 : Fin 2) * 2048 + 1 * (y 1).val = (i 1).val; omega

/-- Entry (0, q) of the log-sum-exp block at point `t` is entry (0, 512 (t % 16) + q) of the row. -/
theorem lseBlk_apply (c : Dev nD) (t : Fin cfg3.N) (y : S1x512.Idx) (i : S1x8192.Idx)
    (h0 : (i 0).val = (y 0).val) (h1 : (i 1).val = t.val % 16 * 512 + (y 1).val) :
    (iblk3 (F := Ideal) V c 3 t : Vec Ideal S1x512 .f32) y = (V c main_v4 : S1x8192.Idx → EReal) i := by
  obtain ⟨-, -, -, -, -, -, e0, e1, -⟩ := where3 t
  unfold iblk3
  rw [View.read_apply]
  show V c main_v4 _ = V c main_v4 _
  congr 1
  funext a
  apply Fin.ext
  match a with
  | ⟨0, _⟩ => show win3_3.index t (0 : Fin 2) * 1 + 1 * (y 0).val = (i 0).val; omega
  | ⟨1, _⟩ => show win3_3.index t (1 : Fin 2) * 512 + 1 * (y 1).val = (i 1).val; omega

/-- So the probabilities' block at point `t` is block (`t / 16`, `t % 16`) of the probability matrix of the arrays. -/
theorem probBlk_apply (c : Dev nD) (t : Fin cfg3.N) (r : Fin 1024) (q : Fin 512) (i j : Fin 8192)
    (hi : i.val = t.val / 16 * 1024 + r.val) (hj : j.val = t.val % 16 * 512 + q.val) :
    k3_pay2 (F := Ideal) (iblk3 V c 0 t) (iblk3 V c 1 t) (iblk3 V c 3 t) (ix2 r q)
      = probArr (V c main_v2) (V c main_v3) (V c main_v4) i j :=
  prob_block (V c main_v2) (V c main_v3) (V c main_v4) (iblk3 V c 0 t) (iblk3 V c 1 t) (iblk3 V c 3 t) i j r q
    (fun h => scoreBlk_apply V c t (ix2 r h) (ix2 i h) hi rfl)
    (fun h => keyBlk_apply V c t (ix2 q h) (ix2 j h) hj rfl)
    (lseBlk_apply V c t (ix2 (0 : Fin 1) q) (ix2 (0 : Fin 1) j) rfl hj)

/-! ## The attention result -/

/-- What point `t` writes back of the attention result is block `t` of the probability matrix of the arrays. -/
theorem flushed4_eq (c : Dev nD) (t : Fin cfg3.N) :
    (dat3 (F := Ideal) V c).flushed 4 t
      = ((cfg3.win 4).blk t).view.read (Elt Ideal)
          (fun x : S8192x8192.Idx => probArr (V c main_v2) (V c main_v3) (V c main_v4) (x 0) (x 1)) := by
  show (cfg3.win 4).cut (grid3.coords t) ((dat3 V c).after 4 t) = _
  rw [after3_4]
  obtain ⟨-, -, -, -, -, -, -, -, e0, e1, -⟩ := where3 t
  have hN : t.val < 128 := lt_of_lt_of_eq t.isLt N_3
  funext y
  obtain ⟨r, q, rfl⟩ : ∃ (r : Fin 1024) (q : Fin 512), y = ix2 r q := ⟨y 0, y 1, eq_ix2 y⟩
  obtain ⟨i, hi⟩ : ∃ i : Fin 8192, i.val = t.val / 16 * 1024 + r.val := ⟨⟨_, by omega⟩, rfl⟩
  obtain ⟨j, hj⟩ : ∃ j : Fin 8192, j.val = t.val % 16 * 512 + q.val := ⟨⟨_, by omega⟩, rfl⟩
  have hemb : ((cfg3.win 4).blk t).view.emb (ix2 r q) = ix2 i j := by
    funext a; apply Fin.ext
    match a with
    | ⟨0, _⟩ => show win3_4.index t (0 : Fin 2) * 1024 + 1 * r.val = i.val; omega
    | ⟨1, _⟩ => show win3_4.index t (1 : Fin 2) * 512 + 1 * q.val = j.val; omega
  show k3_pay2 (F := Ideal) (iblk3 V c 0 t) (iblk3 V c 1 t) (iblk3 V c 3 t) (ix2 r q)
    = probArr (V c main_v2) (V c main_v3) (V c main_v4) ((((cfg3.win 4).blk t).view.emb (ix2 r q)) 0) ((((cfg3.win 4).blk t).view.emb (ix2 r q)) 1)
  rw [hemb]
  exact probBlk_apply V c t r q i j hi hj

/-- An index of the attention array is in point `t`'s block iff each coordinate is in the block's range on its axis. -/
theorem mem_blk4 (t : Fin cfg3.N) (x : S8192x8192.Idx) :
    x ∈ ((cfg3.win 4).blk t).view.set ↔ ∀ a : Fin 2, win3_4.index t a * S1024x512.size a ≤ (x a).val ∧ (x a).val < win3_4.index t a * S1024x512.size a + S1024x512.size a := by
  show x ∈ ((View.whole main_v6_0).slice (win3_4.rect t)).set ↔ _
  rw [View.set_slice_whole, Rect.mem_set_unit]
  exact Iff.rfl

/-- Every entry of the attention array is in the block some point writes back: entry (a, b) in that of point
    16 (a / 1024) + b / 512. -/
theorem cover4 (x : S8192x8192.Idx) : ∃ t : Fin cfg3.N, (cfg3.win 4).flush t = true ∧ x ∈ ((cfg3.win 4).blk t).view.set := by
  have hx0 : (x 0).val < 8192 := (x 0).isLt
  have hx1 : (x 1).val < 8192 := (x 1).isLt
  obtain ⟨t, ht⟩ : ∃ t : Fin cfg3.N, t.val = (x 0).val / 1024 * 16 + (x 1).val / 512 :=
    ⟨⟨_, lt_of_lt_of_eq (by omega : (x 0).val / 1024 * 16 + (x 1).val / 512 < 128) N_3.symm⟩, rfl⟩
  obtain ⟨-, -, -, -, -, -, -, -, e0, e1, -⟩ := where3 t
  refine ⟨t, flush3_4 t, ?_⟩
  rw [mem_blk4]
  intro a
  match a with
  | ⟨0, _⟩ => show win3_4.index t (0 : Fin 2) * 1024 ≤ (x 0).val ∧ (x 0).val < win3_4.index t (0 : Fin 2) * 1024 + 1024; omega
  | ⟨1, _⟩ => show win3_4.index t (1 : Fin 2) * 512 ≤ (x 1).val ∧ (x 1).val < win3_4.index t (1 : Fin 2) * 512 + 512; omega

/-- THE ATTENTION RESULT after the pass: the probability matrix of the score array, the key array and the
    log-sum-exp row as the pass finds them. -/
theorem attn_array (c : Dev nD) :
    (dat3 (F := Ideal) V c).arrAt 4 cfg3.N
      = fun x : S8192x8192.Idx => probArr (V c main_v2) (V c main_v3) (V c main_v4) (x 0) (x 1) :=
  (dat3 (F := Ideal) V c).arrAt_eq_of_cover 4 _ (fun t _ => flushed4_eq V c t) cover4

/-- Entry (i, j) of it. -/
theorem attn_entry (c : Dev nD) (i j : Fin 8192) :
    ((dat3 (F := Ideal) V c).arrAt 4 cfg3.N : S8192x8192.Idx → EReal) (ix2 i j)
      = Ideal.exp (AttnSpec.scores (AttnSpec.mat (V c main_v2 : S8192x1024.Idx → EReal)) (AttnSpec.mat (V c main_v3 : S8192x1024.Idx → EReal)) i j
          - (V c main_v4 : S1x8192.Idx → EReal) (ix2 (0 : Fin 1) j)) := by
  rw [attn_array V c]
  rfl

/-! ## The fused result -/

/-- The fused matrix of the arrays: entry (i, d) is the sum over all 8192 key rows j of the probability (i, j) times
    entry (j, d) of the value array. -/
def fusedArr (S Kk : S8192x1024.Idx → EReal) (L : S1x8192.Idx → EReal) (W : S8192x2048.Idx → EReal)
    (i : Fin 8192) (d : Fin 2048) : EReal :=
  AttnSpec.fused (probArr S Kk L) (AttnSpec.mat W) i d

/-- Key row `q` of column block `n % 16`, as a row of the key array (for any number `n`: a grid point's column block is
    its number modulo 16). -/
def colIdx (n : ℕ) (q : Fin 512) : Fin 8192 := ⟨n % 16 * 512 + q.val, by have := q.isLt; omega⟩

/-- Row `r` of row block `R`, as a row of the score array. -/
def rowIdx (R : Fin 8) (r : Fin 1024) : Fin 8192 := ⟨R.val * 1024 + r.val, by have := R.isLt; have := r.isLt; omega⟩

/-- What grid point `n` adds to entry (i, d) of the fused matrix: the part of the sum over its column block's 512 key
    rows. -/
def addend (S Kk : S8192x1024.Idx → EReal) (L : S1x8192.Idx → EReal) (W : S8192x2048.Idx → EReal)
    (i : Fin 8192) (d : Fin 2048) (n : ℕ) : EReal :=
  ∑ q : Fin 512, probArr S Kk L i (colIdx n q) * W (ix2 (colIdx n q) d)

/-- A sum over the 8192 key rows is the sum over the 16 column blocks, from any multiple `b` of 16 on, of the sums over
    a block's 512 rows: the rows are re-indexed by (block, row in block), and on the extended reals as anywhere a finite
    sum does not depend on how it is grouped. -/
theorem sum_blocks (f : Fin 8192 → EReal) (b : ℕ) (hb : b % 16 = 0) :
    ∑ s ∈ Finset.range 16, ∑ q : Fin 512, f (colIdx (b + s) q) = ∑ j : Fin 8192, f j := by
  refine Eq.symm ((Equiv.sum_comp (finProdFinEquiv (m := 16) (n := 512)) f).symm.trans ?_)
  rw [Fintype.sum_prod_type, Finset.sum_range]
  refine Finset.sum_congr rfl fun s _ => Finset.sum_congr rfl fun q _ => congrArg f (Fin.ext ?_)
  show q.val + 512 * s.val = (b + s.val) % 16 * 512 + q.val
  have := s.isLt
  omega

/-- The zero block reads zero at every entry. -/
theorem zeroBlk_apply (y : S1024x2048.Idx) : (k3_pay1 (F := Ideal) : Vec Ideal S1024x2048 .f32) y = 0 :=
  Ideal.ofBits_zero_f32

/-- One accumulation step at point `n`, at entry (r, d) of the fused block, row i of the arrays: what the buffer held,
    plus the point's addend. -/
theorem step3_entry (c : Dev nD) (n : Fin cfg3.N) (acc : Vec Ideal S1024x2048 .f32) (r : Fin 1024) (d : Fin 2048)
    (i : Fin 8192) (hi : i.val = n.val / 16 * 1024 + r.val) :
    step3 (F := Ideal) V c n acc (ix2 r d)
      = acc (ix2 r d) + addend (V c main_v2) (V c main_v3) (V c main_v4) (V c main_v5) i d n.val := by
  unfold step3
  refine (step_entry (iblk3 V c 0 n) (iblk3 V c 1 n) (iblk3 V c 3 n) (iblk3 V c 2 n) acc r d).trans ?_
  unfold addend
  refine congrArg (fun x : EReal => acc (ix2 r d) + x) (Finset.sum_congr rfl fun q _ => ?_)
  exact congrArg₂ (fun a b : EReal => a * b) (probBlk_apply V c n r q i (colIdx n.val q) hi rfl)
    (valueBlk_apply V c n (ix2 q d) (ix2 (colIdx n.val q) d) rfl rfl)

/-- AT A POINT THAT WRITES THE FUSED BLOCK BACK — the last of the 16 points of its row block — entry (r, d) of the
    running sum is entry (i, d) of the fused matrix, i the block's row r as a row of the arrays: the running sum is the
    fold, from the zero block, of one step per point of the row block; each step adds its point's addend; and the 16
    addends together are the sum over all key rows. -/
theorem accAt3_last_entry (c : Dev nD) (t : Fin cfg3.N) (h15 : t.val % 16 = 15) (r : Fin 1024) (d : Fin 2048)
    (i : Fin 8192) (hi : i.val = t.val / 16 * 1024 + r.val) :
    accAt3 (F := Ideal) V c t.val t.isLt (ix2 r d)
      = fusedArr (V c main_v2) (V c main_v3) (V c main_v4) (V c main_v5) i d := by
  have hN : cfg3.N = 128 := N_3
  have htN : t.val < 128 := lt_of_lt_of_eq t.isLt hN
  obtain ⟨R, hR⟩ : ∃ R : Fin 8, R.val = t.val / 16 := ⟨⟨t.val / 16, by omega⟩, rfl⟩
  have h' : 16 * (t.val / 16) + t.val % 16 < cfg3.N := lt_of_lt_of_eq (by omega : 16 * (t.val / 16) + t.val % 16 < 128) hN.symm
  have ha : ∀ (h : 16 * (t.val / 16) < cfg3.N) (y : S1024x2048.Idx),
      step3 (F := Ideal) V c ⟨16 * (t.val / 16), h⟩ (k3_pay1 (F := Ideal)) y
        = (k3_pay1 (F := Ideal) : Vec Ideal S1024x2048 .f32) y
          + addend (V c main_v2) (V c main_v3) (V c main_v4) (V c main_v5) (rowIdx R (y 0)) (y 1) (16 * (t.val / 16)) := by
    intro h y
    obtain ⟨r', d', rfl⟩ : ∃ (r' : Fin 1024) (d' : Fin 2048), y = ix2 r' d' := ⟨y 0, y 1, eq_ix2 y⟩
    exact step3_entry V c ⟨16 * (t.val / 16), h⟩ (k3_pay1 (F := Ideal)) r' d' (rowIdx R r')
      (by show R.val * 1024 + r'.val = 16 * (t.val / 16) / 16 * 1024 + r'.val; omega)
  have hg : ∀ (n : ℕ) (h : n < cfg3.N) (acc : S1024x2048.Idx → EReal) (y : S1024x2048.Idx),
      16 * (t.val / 16) < n → n ≤ 16 * (t.val / 16) + 15 →
      step3 (F := Ideal) V c ⟨n, h⟩ acc y
        = acc y + addend (V c main_v2) (V c main_v3) (V c main_v4) (V c main_v5) (rowIdx R (y 0)) (y 1) n := by
    intro n h acc y hlo hhi
    obtain ⟨r', d', rfl⟩ : ∃ (r' : Fin 1024) (d' : Fin 2048), y = ix2 r' d' := ⟨y 0, y 1, eq_ix2 y⟩
    exact step3_entry V c ⟨n, h⟩ acc r' d' (rowIdx R r')
      (by show R.val * 1024 + r'.val = n / 16 * 1024 + r'.val; omega)
  have hrow : rowIdx R r = i := Fin.ext (by show R.val * 1024 + r.val = i.val; omega)
  have e16 : t.val % 16 + 1 = 16 := by omega
  rw [accAt3_eq_fold V c t.val t.isLt h']
  refine (Pipeline.accAt_add_apply (fun n h => step3 (F := Ideal) V c ⟨n, h⟩ (k3_pay1 (F := Ideal)))
    (fun n h acc => step3 (F := Ideal) V c ⟨n, h⟩ acc) (k3_pay1 (F := Ideal) : Vec Ideal S1024x2048 .f32)
    (fun n (y : S1024x2048.Idx) => addend (V c main_v2) (V c main_v3) (V c main_v4) (V c main_v5) (rowIdx R (y 0)) (y 1) n)
    (16 * (t.val / 16)) 15 ha hg (t.val % 16) (by omega) h' (ix2 r d)).trans ?_
  rw [zeroBlk_apply, zero_add, e16]
  show ∑ s ∈ Finset.range 16, addend (V c main_v2) (V c main_v3) (V c main_v4) (V c main_v5) (rowIdx R r) d (16 * (t.val / 16) + s) = _
  rw [hrow]
  unfold addend fusedArr AttnSpec.fused AttnSpec.mat
  exact sum_blocks (fun j => probArr (V c main_v2) (V c main_v3) (V c main_v4) i j * (V c main_v5 : S8192x2048.Idx → EReal) (ix2 j d))
    (16 * (t.val / 16)) (by omega)

/-- What a point writes back of the fused result — only the last point of a row block does — is that row block of the
    fused matrix of the arrays. -/
theorem flushed5_eq (c : Dev nD) (t : Fin cfg3.N) (hfl : (cfg3.win 5).flush t = true) :
    (dat3 (F := Ideal) V c).flushed 5 t
      = ((cfg3.win 5).blk t).view.read (Elt Ideal)
          (fun x : S8192x2048.Idx => fusedArr (V c main_v2) (V c main_v3) (V c main_v4) (V c main_v5) (x 0) (x 1)) := by
  have h15 : t.val % 16 = 15 := (flush3_5 t).mp hfl
  show (cfg3.win 5).cut (grid3.coords t) ((dat3 V c).after 5 t) = _
  rw [after3_5]
  obtain ⟨-, -, -, -, -, -, -, -, -, -, e0, e1⟩ := where3 t
  have hN : t.val < 128 := lt_of_lt_of_eq t.isLt N_3
  funext y
  obtain ⟨r, d, rfl⟩ : ∃ (r : Fin 1024) (d : Fin 2048), y = ix2 r d := ⟨y 0, y 1, eq_ix2 y⟩
  obtain ⟨i, hi⟩ : ∃ i : Fin 8192, i.val = t.val / 16 * 1024 + r.val := ⟨⟨_, by omega⟩, rfl⟩
  have hemb : ((cfg3.win 5).blk t).view.emb (ix2 r d) = ix2 i d := by
    funext a; apply Fin.ext
    match a with
    | ⟨0, _⟩ => show win3_5.index t (0 : Fin 2) * 1024 + 1 * r.val = i.val; omega
    | ⟨1, _⟩ => show win3_5.index t (1 : Fin 2) * 2048 + 1 * d.val = d.val; omega
  show accAt3 (F := Ideal) V c t.val t.isLt (ix2 r d)
    = fusedArr (V c main_v2) (V c main_v3) (V c main_v4) (V c main_v5) ((((cfg3.win 5).blk t).view.emb (ix2 r d)) 0) ((((cfg3.win 5).blk t).view.emb (ix2 r d)) 1)
  rw [hemb]
  exact accAt3_last_entry V c t h15 r d i hi

/-- An index of the fused array is in point `t`'s block iff each coordinate is in the block's range on its axis. -/
theorem mem_blk5 (t : Fin cfg3.N) (x : S8192x2048.Idx) :
    x ∈ ((cfg3.win 5).blk t).view.set ↔ ∀ a : Fin 2, win3_5.index t a * S1024x2048.size a ≤ (x a).val ∧ (x a).val < win3_5.index t a * S1024x2048.size a + S1024x2048.size a := by
  show x ∈ ((View.whole main_v6_1).slice (win3_5.rect t)).set ↔ _
  rw [View.set_slice_whole, Rect.mem_set_unit]
  exact Iff.rfl

/-- Every entry of the fused array is in a block that is written back: entry (a, b) in that of the last point of row
    block a / 1024, point 16 (a / 1024) + 15. -/
theorem cover5 (x : S8192x2048.Idx) : ∃ t : Fin cfg3.N, (cfg3.win 5).flush t = true ∧ x ∈ ((cfg3.win 5).blk t).view.set := by
  have hx0 : (x 0).val < 8192 := (x 0).isLt
  have hx1 : (x 1).val < 2048 := (x 1).isLt
  obtain ⟨t, ht⟩ : ∃ t : Fin cfg3.N, t.val = (x 0).val / 1024 * 16 + 15 :=
    ⟨⟨_, lt_of_lt_of_eq (by omega : (x 0).val / 1024 * 16 + 15 < 128) N_3.symm⟩, rfl⟩
  obtain ⟨-, -, -, -, -, -, -, -, -, -, e0, e1⟩ := where3 t
  refine ⟨t, (flush3_5 t).mpr (by omega), ?_⟩
  rw [mem_blk5]
  intro a
  match a with
  | ⟨0, _⟩ => show win3_5.index t (0 : Fin 2) * 1024 ≤ (x 0).val ∧ (x 0).val < win3_5.index t (0 : Fin 2) * 1024 + 1024; omega
  | ⟨1, _⟩ => show win3_5.index t (1 : Fin 2) * 2048 ≤ (x 1).val ∧ (x 1).val < win3_5.index t (1 : Fin 2) * 2048 + 2048; omega

/-- THE FUSED RESULT after the pass: the fused matrix of the score array, the key array, the log-sum-exp row and the
    value array as the pass finds them. -/
theorem fused_array (c : Dev nD) :
    (dat3 (F := Ideal) V c).arrAt 5 cfg3.N
      = fun x : S8192x2048.Idx => fusedArr (V c main_v2) (V c main_v3) (V c main_v4) (V c main_v5) (x 0) (x 1) :=
  (dat3 (F := Ideal) V c).arrAt_eq_of_cover 5 _ (fun t hfl => flushed5_eq V c t hfl) cover5

/-- Entry (i, d) of it: the sum over all 8192 key rows j of the attention result's entry (i, j) times entry (j, d) of
    the value array. -/
theorem fused_entry (c : Dev nD) (i : Fin 8192) (d : Fin 2048) :
    ((dat3 (F := Ideal) V c).arrAt 5 cfg3.N : S8192x2048.Idx → EReal) (ix2 i d)
      = ∑ j : Fin 8192,
          Ideal.exp (AttnSpec.scores (AttnSpec.mat (V c main_v2 : S8192x1024.Idx → EReal)) (AttnSpec.mat (V c main_v3 : S8192x1024.Idx → EReal)) i j
              - (V c main_v4 : S1x8192.Idx → EReal) (ix2 (0 : Fin 1) j))
            * (V c main_v5 : S8192x2048.Idx → EReal) (ix2 j d) := by
  rw [fused_array V c]
  rfl

end AtEntry

end Cert.KernelIdeal.Hand

end
-- ==== Proof.LibERealFinite.lean ====
/-
  Extended reals that are reals.

  Part A: the predicate "x is a real" on the extended reals, with the value of each exact operation
  on reals and the closure of the predicate under it (sum, difference, product, negation, maximum,
  minimum, finite sums, quotient by a nonzero real constant, reciprocal square root of a positive
  real), and the sign facts that go with a variance (a square is nonnegative, a sum of nonnegatives is
  nonnegative, the reciprocal square root of a real at least one lies in (0, 1]).

  Part B: the batch-norm rearrangement. For reals, ((h - μ) * r) * g + β = h * (g * r) + (β - μ * (g * r)):
  distributivity, which holds on the reals and fails at the infinities.
-/
import Mathlib.Data.EReal.Inv
import Mathlib.Analysis.Real.Sqrt
import Idealize.ShloMosaic.PureOps.Ideal

namespace ERealForms

open Idealize.ShloMosaic
open scoped BigOperators

/-! ## A. Finiteness -/

/-- `IsReal x`: the extended real `x` is the coercion of a real number. -/
def IsReal (x : EReal) : Prop := ∃ r : ℝ, x = (r : EReal)

/-- An extended real is a real exactly when it is neither `⊤` nor `⊥`. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The coercion of a real number is a real. -/
theorem isReal_coe (r : ℝ) : IsReal (r : EReal) := ⟨r, rfl⟩

/-- Zero is a real. -/
theorem isReal_zero : IsReal (0 : EReal) := ⟨0, rfl⟩

/-- One is a real. -/
theorem isReal_one : IsReal (1 : EReal) := ⟨1, rfl⟩

/-- A real is not `⊤`. -/
theorem IsReal.ne_top {x : EReal} (h : IsReal x) : x ≠ ⊤ := (isReal_iff_ne.1 h).1

/-- A real is not `⊥`. -/
theorem IsReal.ne_bot {x : EReal} (h : IsReal x) : x ≠ ⊥ := (isReal_iff_ne.1 h).2

/-- A real is the coercion of its real part. -/
theorem IsReal.coe_toReal {x : EReal} (h : IsReal x) : ((x.toReal : ℝ) : EReal) = x :=
  EReal.coe_toReal h.ne_top h.ne_bot

/-! ### The value of each operation on two reals -/

/-- The sum of two reals is the coercion of the real sum. -/
theorem coe_add_coe (a b : ℝ) : (a : EReal) + (b : EReal) = ((a + b : ℝ) : EReal) :=
  (EReal.coe_add a b).symm

/-- The difference of two reals is the coercion of the real difference. -/
theorem coe_sub_coe (a b : ℝ) : (a : EReal) - (b : EReal) = ((a - b : ℝ) : EReal) :=
  (EReal.coe_sub a b).symm

/-- The product of two reals is the coercion of the real product. -/
theorem coe_mul_coe (a b : ℝ) : (a : EReal) * (b : EReal) = ((a * b : ℝ) : EReal) :=
  (EReal.coe_mul a b).symm

/-- The negation of a real is the coercion of the real negation. -/
theorem neg_coe (a : ℝ) : -(a : EReal) = ((-a : ℝ) : EReal) :=
  (EReal.coe_neg a).symm

/-- The maximum of two reals is the coercion of the real maximum. -/
theorem max_coe_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two reals is the coercion of the real minimum. -/
theorem min_coe_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- The maximum of a real and zero is the coercion of the real maximum with zero. -/
theorem max_coe_zero (a : ℝ) : max (a : EReal) 0 = ((max a 0 : ℝ) : EReal) :=
  max_coe_coe a 0

/-- An extended real is a real exactly when its absolute value `max x (-x)` is below `⊤`. -/
theorem isReal_iff_abs_lt_top {x : EReal} : IsReal x ↔ max x (-x) < ⊤ := by
  constructor
  · rintro ⟨a, rfl⟩
    rw [neg_coe, max_coe_coe]
    exact EReal.coe_lt_top _
  · intro h
    rw [isReal_iff_ne]
    constructor
    · rintro rfl
      have hmax : max (⊤ : EReal) (-⊤) = ⊤ := max_eq_left le_top
      rw [hmax] at h
      exact lt_irrefl _ h
    · rintro rfl
      have hmax : max (⊥ : EReal) (-⊥) = ⊤ := by
        rw [EReal.neg_bot]
        exact max_eq_right bot_le
      rw [hmax] at h
      exact lt_irrefl _ h

/-! ### Closure of the predicate -/

/-- The sum of two reals is a real. -/
theorem IsReal.add {x y : EReal} (hx : IsReal x) (hy : IsReal y) : IsReal (x + y) := by
  obtain ⟨a, rfl⟩ := hx
  obtain ⟨b, rfl⟩ := hy
  exact ⟨a + b, coe_add_coe a b⟩

/-- The difference of two reals is a real. -/
theorem IsReal.sub {x y : EReal} (hx : IsReal x) (hy : IsReal y) : IsReal (x - y) := by
  obtain ⟨a, rfl⟩ := hx
  obtain ⟨b, rfl⟩ := hy
  exact ⟨a - b, coe_sub_coe a b⟩

/-- The product of two reals is a real. -/
theorem IsReal.mul {x y : EReal} (hx : IsReal x) (hy : IsReal y) : IsReal (x * y) := by
  obtain ⟨a, rfl⟩ := hx
  obtain ⟨b, rfl⟩ := hy
  exact ⟨a * b, coe_mul_coe a b⟩

/-- The negation of a real is a real. -/
theorem IsReal.neg {x : EReal} (hx : IsReal x) : IsReal (-x) := by
  obtain ⟨a, rfl⟩ := hx
  exact ⟨-a, neg_coe a⟩

/-- The maximum of two reals is a real. -/
theorem IsReal.max {x y : EReal} (hx : IsReal x) (hy : IsReal y) : IsReal (max x y) := by
  obtain ⟨a, rfl⟩ := hx
  obtain ⟨b, rfl⟩ := hy
  exact ⟨Max.max a b, max_coe_coe a b⟩

/-- The minimum of two reals is a real. -/
theorem IsReal.min {x y : EReal} (hx : IsReal x) (hy : IsReal y) : IsReal (min x y) := by
  obtain ⟨a, rfl⟩ := hx
  obtain ⟨b, rfl⟩ := hy
  exact ⟨Min.min a b, min_coe_coe a b⟩

/-- The maximum of a real and zero is a real. -/
theorem IsReal.max_zero {x : EReal} (hx : IsReal x) : IsReal (Max.max x 0) := hx.max isReal_zero

/-- The maximum of anything and zero is nonnegative. -/
theorem max_zero_nonneg (x : EReal) : 0 ≤ Max.max x 0 := le_max_right x 0

/-! ### Finite sums -/

/-- A finite sum of coercions of reals is the coercion of the real sum. -/
theorem coe_finset_sum {ι : Type*} (s : Finset ι) (f : ι → ℝ) :
    ∑ i ∈ s, ((f i : ℝ) : EReal) = ((∑ i ∈ s, f i : ℝ) : EReal) := by
  classical
  refine Finset.induction_on s ?_ ?_
  · simp
  · intro a t ha ih
    rw [Finset.sum_insert ha, Finset.sum_insert ha, ih, EReal.coe_add]

/-- A finite sum of reals is the coercion of the sum of their real parts. -/
theorem finset_sum_eq_coe {ι : Type*} (s : Finset ι) (f : ι → EReal) (h : ∀ i ∈ s, IsReal (f i)) :
    ∑ i ∈ s, f i = ((∑ i ∈ s, (f i).toReal : ℝ) : EReal) := by
  rw [← coe_finset_sum]
  exact Finset.sum_congr rfl (fun i hi => ((h i hi).coe_toReal).symm)

/-- A finite sum of reals is a real. -/
theorem isReal_finset_sum {ι : Type*} (s : Finset ι) (f : ι → EReal) (h : ∀ i ∈ s, IsReal (f i)) :
    IsReal (∑ i ∈ s, f i) :=
  ⟨_, finset_sum_eq_coe s f h⟩

/-- A finite sum of nonnegative extended reals is nonnegative. -/
theorem finset_sum_nonneg {ι : Type*} (s : Finset ι) (f : ι → EReal) (h : ∀ i ∈ s, 0 ≤ f i) :
    0 ≤ ∑ i ∈ s, f i :=
  Finset.sum_nonneg h

/-- A finite sum of products of reals is a real. -/
theorem isReal_sum_mul {ι : Type*} (s : Finset ι) (f g : ι → EReal) (hf : ∀ i ∈ s, IsReal (f i))
    (hg : ∀ i ∈ s, IsReal (g i)) : IsReal (∑ i ∈ s, f i * g i) :=
  isReal_finset_sum s _ (fun i hi => (hf i hi).mul (hg i hi))

/-- A nonnegative real plus one is a real that is at least one. -/
theorem IsReal.add_one_ge {x : EReal} (hx : IsReal x) (h0 : 0 ≤ x) : IsReal (x + 1) ∧ 1 ≤ x + 1 := by
  obtain ⟨a, rfl⟩ := hx
  rw [← EReal.coe_one, coe_add_coe]
  exact ⟨isReal_coe _, EReal.coe_le_coe_iff.2 (le_add_of_nonneg_left (EReal.coe_nonneg.1 h0))⟩

/-- The square of a real is nonnegative. -/
theorem IsReal.mul_self_nonneg {x : EReal} (hx : IsReal x) : 0 ≤ x * x := by
  obtain ⟨a, rfl⟩ := hx
  rw [coe_mul_coe]
  exact EReal.coe_nonneg.2 (_root_.mul_self_nonneg a)

/-- A finite sum of squares of reals is a nonnegative real. -/
theorem isReal_sum_mul_self {ι : Type*} (s : Finset ι) (f : ι → EReal) (h : ∀ i ∈ s, IsReal (f i)) :
    IsReal (∑ i ∈ s, f i * f i) ∧ 0 ≤ ∑ i ∈ s, f i * f i :=
  ⟨isReal_finset_sum s _ (fun i hi => (h i hi).mul (h i hi)),
   finset_sum_nonneg s _ (fun i hi => (h i hi).mul_self_nonneg)⟩

/-! ### Quotient by a nonzero real constant -/

/-- The quotient of a real by a nonzero real is the coercion of the real quotient. -/
theorem div_coe_coe (a : ℝ) {c : ℝ} (hc : c ≠ 0) :
    Ideal.div (a : EReal) (c : EReal) = ((a / c : ℝ) : EReal) := by
  rw [Ideal.div_coe hc, coe_mul_coe, mul_one_div]

/-- The quotient of a real by a nonzero real constant is a real. -/
theorem IsReal.div_coe {x : EReal} (hx : IsReal x) {c : ℝ} (hc : c ≠ 0) :
    IsReal (Ideal.div x (c : EReal)) := by
  obtain ⟨a, rfl⟩ := hx
  exact ⟨a / c, div_coe_coe a hc⟩

/-- The quotient of a nonnegative real by a positive real constant is nonnegative. -/
theorem IsReal.div_coe_nonneg {x : EReal} (hx : IsReal x) (h0 : 0 ≤ x) {c : ℝ} (hc : 0 < c) :
    0 ≤ Ideal.div x (c : EReal) := by
  obtain ⟨a, rfl⟩ := hx
  rw [div_coe_coe a hc.ne']
  exact EReal.coe_nonneg.2 (div_nonneg (EReal.coe_nonneg.1 h0) hc.le)

/-- The quotient of a real by a nonzero real is a real. -/
theorem IsReal.div {x y : EReal} (hx : IsReal x) (hy : IsReal y) (hy0 : y ≠ 0) :
    IsReal (Ideal.div x y) := by
  obtain ⟨c, rfl⟩ := hy
  have hc : c ≠ 0 := by
    intro h
    exact hy0 (by rw [h, EReal.coe_zero])
  exact hx.div_coe hc

/-- The quotient of a real by a real that is at least one is a real. -/
theorem IsReal.div_of_one_le {x y : EReal} (hx : IsReal x) (hy : IsReal y) (h1 : 1 ≤ y) :
    IsReal (Ideal.div x y) :=
  hx.div hy (ne_of_gt (lt_of_lt_of_le zero_lt_one h1))

/-! ### Reciprocal square root -/

/-- At a positive real `a` the reciprocal square root is the coercion of `(√a)⁻¹`. -/
theorem rsqrt_coe_of_pos {a : ℝ} (ha : 0 < a) :
    Ideal.rsqrt (a : EReal) = (((Real.sqrt a)⁻¹ : ℝ) : EReal) := by
  rw [Ideal.rsqrt_coe, if_neg (not_lt.2 ha.le), if_neg ha.ne']

/-- The reciprocal square root of a positive real is a positive real. -/
theorem IsReal.rsqrt_of_pos {x : EReal} (hx : IsReal x) (hpos : 0 < x) :
    ∃ r : ℝ, 0 < r ∧ Ideal.rsqrt x = (r : EReal) := by
  obtain ⟨a, rfl⟩ := hx
  have ha : 0 < a := EReal.coe_pos.1 hpos
  exact ⟨(Real.sqrt a)⁻¹, inv_pos.2 (Real.sqrt_pos.2 ha), rsqrt_coe_of_pos ha⟩

/-- The reciprocal square root of a positive real is a real. -/
theorem IsReal.isReal_rsqrt {x : EReal} (hx : IsReal x) (hpos : 0 < x) : IsReal (Ideal.rsqrt x) := by
  obtain ⟨r, _, hr⟩ := hx.rsqrt_of_pos hpos
  exact ⟨r, hr⟩

/-- The reciprocal square root of a positive real is positive. -/
theorem IsReal.rsqrt_pos {x : EReal} (hx : IsReal x) (hpos : 0 < x) : 0 < Ideal.rsqrt x := by
  obtain ⟨r, hr0, hr⟩ := hx.rsqrt_of_pos hpos
  rw [hr]
  exact EReal.coe_pos.2 hr0

/-- The reciprocal square root of a real that is at least one is a real in `(0, 1]`. -/
theorem IsReal.rsqrt_of_one_le {x : EReal} (hx : IsReal x) (h1 : 1 ≤ x) :
    ∃ r : ℝ, 0 < r ∧ r ≤ 1 ∧ Ideal.rsqrt x = (r : EReal) := by
  obtain ⟨a, rfl⟩ := hx
  have ha1 : (1 : ℝ) ≤ a := by
    rw [← EReal.coe_one] at h1
    exact EReal.coe_le_coe_iff.1 h1
  have ha : 0 < a := lt_of_lt_of_le one_pos ha1
  exact ⟨(Real.sqrt a)⁻¹, inv_pos.2 (Real.sqrt_pos.2 ha),
    inv_le_one_of_one_le₀ (Real.one_le_sqrt.2 ha1), rsqrt_coe_of_pos ha⟩

/-- A nonnegative real plus a positive real constant is a positive real. -/
theorem IsReal.add_coe_pos {v : EReal} (hv : IsReal v) (h0 : 0 ≤ v) {e : ℝ} (he : 0 < e) :
    IsReal (v + (e : EReal)) ∧ 0 < v + (e : EReal) := by
  obtain ⟨a, rfl⟩ := hv
  refine ⟨⟨a + e, coe_add_coe a e⟩, ?_⟩
  rw [coe_add_coe]
  exact EReal.coe_pos.2 (add_pos_of_nonneg_of_pos (EReal.coe_nonneg.1 h0) he)

/-- The reciprocal square root of a nonnegative real plus a positive real constant (a variance plus
    its `ε`) is a positive real. -/
theorem IsReal.rsqrt_add_coe {v : EReal} (hv : IsReal v) (h0 : 0 ≤ v) {e : ℝ} (he : 0 < e) :
    ∃ r : ℝ, 0 < r ∧ Ideal.rsqrt (v + (e : EReal)) = (r : EReal) :=
  (hv.add_coe_pos h0 he).1.rsqrt_of_pos (hv.add_coe_pos h0 he).2

/-! ## B. The batch-norm rearrangement -/

/-- Batch norm on reals: normalizing then scaling and shifting, `((h - μ) * r) * g + β`, is the affine map
    `h * (g * r) + (β - μ * (g * r))` with the folded scale `g * r` and shift `β - μ * (g * r)`. -/
theorem batchNorm_affine {h μ r g β : EReal} (hh : IsReal h) (hμ : IsReal μ) (hr : IsReal r)
    (hg : IsReal g) (hβ : IsReal β) :
    ((h - μ) * r) * g + β = h * (g * r) + (β - μ * (g * r)) := by
  obtain ⟨h', rfl⟩ := hh
  obtain ⟨μ', rfl⟩ := hμ
  obtain ⟨r', rfl⟩ := hr
  obtain ⟨g', rfl⟩ := hg
  obtain ⟨β', rfl⟩ := hβ
  simp only [coe_sub_coe, coe_mul_coe, coe_add_coe]
  congr 1
  ring

/-- The same with the scale and the shift named: if `s = g * r` and `t = β - μ * s` then
    `((h - μ) * r) * g + β = h * s + t`, for reals. -/
theorem batchNorm_affine_of_eq {h μ r g β s t : EReal} (hh : IsReal h) (hμ : IsReal μ) (hr : IsReal r)
    (hg : IsReal g) (hβ : IsReal β) (hs : s = g * r) (ht : t = β - μ * s) :
    ((h - μ) * r) * g + β = h * s + t := by
  rw [ht, hs]
  exact batchNorm_affine hh hμ hr hg hβ

/-- Batch norm followed by the rectifier, on reals: `max (((h - μ) * r) * g + β) 0` is
    `max (h * (g * r) + (β - μ * (g * r))) 0`. -/
theorem batchNorm_affine_relu {h μ r g β : EReal} (hh : IsReal h) (hμ : IsReal μ) (hr : IsReal r)
    (hg : IsReal g) (hβ : IsReal β) :
    max (((h - μ) * r) * g + β) 0 = max (h * (g * r) + (β - μ * (g * r))) 0 := by
  rw [batchNorm_affine hh hμ hr hg hβ]

/-- Batch norm of reals is a real. -/
theorem isReal_batchNorm {h μ r g β : EReal} (hh : IsReal h) (hμ : IsReal μ) (hr : IsReal r)
    (hg : IsReal g) (hβ : IsReal β) : IsReal (((h - μ) * r) * g + β) :=
  (((hh.sub hμ).mul hr).mul hg).add hβ

/-- Batch norm of reals followed by the rectifier is a nonnegative real. -/
theorem isReal_batchNorm_relu {h μ r g β : EReal} (hh : IsReal h) (hμ : IsReal μ) (hr : IsReal r)
    (hg : IsReal g) (hβ : IsReal β) :
    IsReal (max (((h - μ) * r) * g + β) 0) ∧ 0 ≤ max (((h - μ) * r) * g + β) 0 :=
  ⟨(isReal_batchNorm hh hμ hr hg hβ).max_zero, max_zero_nonneg _⟩

/-- The array form: for a matrix `h` and per-column `μ r g β`, all entries reals, batch norm agrees with the
    folded affine map at every entry. -/
theorem batchNorm_affine_apply {ι κ : Type*} {h : ι → κ → EReal} {μ r g β : κ → EReal}
    (hh : ∀ i j, IsReal (h i j)) (hμ : ∀ j, IsReal (μ j)) (hr : ∀ j, IsReal (r j))
    (hg : ∀ j, IsReal (g j)) (hβ : ∀ j, IsReal (β j)) (i : ι) (j : κ) :
    ((h i j - μ j) * r j) * g j + β j = h i j * (g j * r j) + (β j - μ j * (g j * r j)) :=
  batchNorm_affine (hh i j) (hμ j) (hr j) (hg j) (hβ j)

/-- The array form with the rectifier: entrywise, `max (batch norm) 0` agrees with
    `max (folded affine map) 0`. -/
theorem batchNorm_affine_relu_apply {ι κ : Type*} {h : ι → κ → EReal} {μ r g β : κ → EReal}
    (hh : ∀ i j, IsReal (h i j)) (hμ : ∀ j, IsReal (μ j)) (hr : ∀ j, IsReal (r j))
    (hg : ∀ j, IsReal (g j)) (hβ : ∀ j, IsReal (β j)) (i : ι) (j : κ) :
    max (((h i j - μ j) * r j) * g j + β j) 0
      = max (h i j * (g j * r j) + (β j - μ j * (g j * r j))) 0 :=
  batchNorm_affine_relu (hh i j) (hμ j) (hr j) (hg j) (hβ j)

/-- The array form as an equality of functions. -/
theorem batchNorm_affine_relu_fun {ι κ : Type*} {h : ι → κ → EReal} {μ r g β : κ → EReal}
    (hh : ∀ i j, IsReal (h i j)) (hμ : ∀ j, IsReal (μ j)) (hr : ∀ j, IsReal (r j))
    (hg : ∀ j, IsReal (g j)) (hβ : ∀ j, IsReal (β j)) :
    (fun i j => max (((h i j - μ j) * r j) * g j + β j) 0)
      = fun i j => max (h i j * (g j * r j) + (β j - μ j * (g j * r j))) 0 := by
  funext i j
  exact batchNorm_affine_relu_apply hh hμ hr hg hβ i j

end ERealForms
-- ==== Proof.Finite.lean ====
/-
  Finite inputs.  The precondition says, of each of the six argument arrays, that every entry's
  absolute value is below +∞ (a conjunction of six "all" reductions of elementwise comparisons).
  On the extended reals |x| < +∞ holds exactly when x is a real number, so every entry of every
  argument array is a real; sums and products of reals are real, so every entry of the two
  projections and of the score matrix is a real, and the maximum of a (nonempty) column of real
  scores is a real.
-/
import proofs.«125521_j15702400434434_2_alg».proof.Proof.Gen.Pre_finite_inputs
import proofs.«125521_j15702400434434_2_alg».proof.Proof.AttnSpec
import proofs.«125521_j15702400434434_2_alg».proof.Proof.LibERealFinite
import Idealize.ShloMosaic.Lib.ReduceAll
import Idealize.ShloMosaic.Lib.Pipeline.Value
import Idealize.ShloMosaic.Lib.ValueIdx

noncomputable section

namespace Cert.Finite

open Idealize.ShloMosaic Idealize.ShloMosaic.ValueIdx ERealForms
open Cert.Pre_finite_inputs Cert.Pre_finite_inputs.Gen
open AttnSpec (mat vec)

/-- The scalar shape has one index. -/
instance : Subsingleton S_.Idx := ⟨fun a b => funext fun d => d.elim0⟩

/-- An ordered "less than" comparison that answers 1 is the strict order. -/
theorem cmp_olt_eq_one {a b : EReal} (h : Ideal.cmp .olt a b = 1#1) : a < b := by
  dsimp only [Ideal.cmp] at h
  by_contra hn
  rw [decide_eq_false hn] at h
  exact absurd h (by decide)

/-- The +∞ word denotes the top extended real. -/
theorem ofBits_pos_inf : Ideal.ofBits .f32 0x7F800000#32 = (⊤ : EReal) := by
  simp [Ideal.ofBits, Ideal.ieee]

/-- One conjunct of the precondition, for an array of any shape: if "all (|x| < +∞)" is 1 then every
    entry of x is a real. -/
theorem isReal_of_all {S : Shape} {axes : List (Fin S.rank)}
    (hb : S_.BroadcastsInDim S (![] : Fin 0 → Fin S.rank)) (hr : S.ReducesTo axes S_)
    (hu : 0 < S_.numel) (x : FVec Ideal S .f32)
    (e : Host.reduce IntOp.andi
          (cmpf .olt (Host.absf x)
            (broadcastInDim S ![] hb (constant (F := Ideal) S_ .f32 0x7F800000#32)))
          (constantI S_ 1 1#1) hr hu ix0 = 1#1)
    (i : S.Idx) : IsReal (x i) := by
  have h1 : cmpf .olt (Host.absf x)
      (broadcastInDim S ![] hb (constant (F := Ideal) S_ .f32 0x7F800000#32)) i = 1#1 :=
    Host.reduce_andi_all _ _ hr hu ix0 e i
  have hbc : broadcastInDim S ![] hb (constant (F := Ideal) S_ .f32 0x7F800000#32) i = (⊤ : EReal) := by
    rw [broadcastInDim_apply _ hb _ i (fun a => a.elim0) (fun a => a.elim0)]
    exact ofBits_pos_inf
  rw [cmpf_apply, hbc] at h1
  have h2 : Ideal.cmp .olt (max (x i) (-(x i))) (⊤ : EReal) = 1#1 := h1
  exact isReal_iff_abs_lt_top.2 (cmp_olt_eq_one h2)

/-- A conjunction of two one-bit words that is 1 has both words 1 (at the scalar index). -/
theorem andi_vec_eq_one {a b : IVec S_ 1} (h : andi a b ix0 = 1#1) : a ix0 = 1#1 ∧ b ix0 = 1#1 :=
  IntOp.andi_eq_one.1 h

/-- The precondition at the ideal instance: every entry of each of the six argument arrays is a real. -/
theorem inputs_real (x0 : FVec Ideal S8192x1024 .f32) (x1 : FVec Ideal S8192x2048 .f32)
    (x2 : FVec Ideal S1024x1024 .f32) (x3 : FVec Ideal S1024 .f32) (x4 : FVec Ideal S1024x2048 .f32)
    (x5 : FVec Ideal S1024 .f32)
    (h : Cert.Pre_finite_inputs.fn (F := Ideal) x0 x1 x2 x3 x4 x5 = (fun _ => 1#1)) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have h0 := congrFun h ix0
  dsimp only [Cert.Pre_finite_inputs.fn, Cert.Pre_finite_inputs.fn_part1] at h0
  obtain ⟨h', e5⟩ := andi_vec_eq_one h0
  obtain ⟨h', e4⟩ := andi_vec_eq_one h'
  obtain ⟨h', e3⟩ := andi_vec_eq_one h'
  obtain ⟨h', e2⟩ := andi_vec_eq_one h'
  obtain ⟨e0, e1⟩ := andi_vec_eq_one h'
  exact ⟨isReal_of_all _ _ _ x0 e0, isReal_of_all _ _ _ x1 e1, isReal_of_all _ _ _ x2 e2,
    isReal_of_all _ _ _ x3 e3, isReal_of_all _ _ _ x4 e4, isReal_of_all _ _ _ x5 e5⟩

/-! ### Sums and products of reals -/

/-- A projection of real arrays is real, entry by entry. -/
theorem proj_isReal {N K H : ℕ} {X : Fin N → Fin K → EReal} {W : Fin H → Fin K → EReal}
    {b : Fin H → EReal} (hX : ∀ i k, IsReal (X i k)) (hW : ∀ h k, IsReal (W h k))
    (hb : ∀ h, IsReal (b h)) (i : Fin N) (h : Fin H) : IsReal (AttnSpec.proj X W b i h) :=
  (isReal_sum_mul _ _ _ (fun k _ => hX i k) (fun k _ => hW h k)).add (hb h)

/-- The scores of real arrays are real, entry by entry. -/
theorem scores_isReal {N M H : ℕ} {S : Fin N → Fin H → EReal} {Kk : Fin M → Fin H → EReal}
    (hS : ∀ i h, IsReal (S i h)) (hK : ∀ j h, IsReal (Kk j h)) (i : Fin N) (j : Fin M) :
    IsReal (AttnSpec.scores S Kk i j) :=
  isReal_sum_mul _ _ _ (fun h _ => hS i h) (fun h _ => hK j h)

/-- The column maximum of a nonempty real matrix is real. -/
theorem colMax_isReal {N M : ℕ} (hN : 0 < N) {sc : Fin N → Fin M → EReal}
    (h : ∀ i j, IsReal (sc i j)) (j : Fin M) : IsReal (AttnSpec.colMax sc j) :=
  AttnSpec.colMax_real hN sc j (fun i => h i j)

/-! ### What the precondition gives the attention specification -/

/-- Under the precondition, read on the six arrays as functions of their coordinates: every entry of
    every argument array, of both projections, of the score matrix and of its column maxima is a real. -/
theorem spec_real (x0 : FVec Ideal S8192x1024 .f32) (x1 : FVec Ideal S8192x2048 .f32)
    (x2 : FVec Ideal S1024x1024 .f32) (x3 : FVec Ideal S1024 .f32) (x4 : FVec Ideal S1024x2048 .f32)
    (x5 : FVec Ideal S1024 .f32)
    (h : Cert.Pre_finite_inputs.fn (F := Ideal) x0 x1 x2 x3 x4 x5 = (fun _ => 1#1)) :
    (∀ i k, IsReal (mat (a := 8192) (b := 1024) x0 i k))
      ∧ (∀ j k, IsReal (mat (a := 8192) (b := 2048) x1 j k))
      ∧ (∀ h' k, IsReal (mat (a := 1024) (b := 1024) x2 h' k))
      ∧ (∀ h', IsReal (vec (a := 1024) x3 h'))
      ∧ (∀ h' k, IsReal (mat (a := 1024) (b := 2048) x4 h' k))
      ∧ (∀ h', IsReal (vec (a := 1024) x5 h'))
      ∧ (∀ i h', IsReal (AttnSpec.proj (mat (a := 8192) (b := 1024) x0)
            (mat (a := 1024) (b := 1024) x2) (vec (a := 1024) x3) i h'))
      ∧ (∀ j h', IsReal (AttnSpec.proj (mat (a := 8192) (b := 2048) x1)
            (mat (a := 1024) (b := 2048) x4) (vec (a := 1024) x5) j h'))
      ∧ (∀ i j, IsReal (AttnSpec.attnScores (mat (a := 8192) (b := 1024) x0)
            (mat (a := 8192) (b := 2048) x1) (mat (a := 1024) (b := 1024) x2) (vec (a := 1024) x3)
            (mat (a := 1024) (b := 2048) x4) (vec (a := 1024) x5) i j))
      ∧ (∀ j, IsReal (AttnSpec.colMax (AttnSpec.attnScores (mat (a := 8192) (b := 1024) x0)
            (mat (a := 8192) (b := 2048) x1) (mat (a := 1024) (b := 1024) x2) (vec (a := 1024) x3)
            (mat (a := 1024) (b := 2048) x4) (vec (a := 1024) x5)) j)) := by
  obtain ⟨r0, r1, r2, r3, r4, r5⟩ := inputs_real x0 x1 x2 x3 x4 x5 h
  have hX : ∀ i k, IsReal (mat (a := 8192) (b := 1024) x0 i k) := fun i k => r0 (ix2 i k)
  have hE : ∀ j k, IsReal (mat (a := 8192) (b := 2048) x1 j k) := fun j k => r1 (ix2 j k)
  have hWs : ∀ h' k, IsReal (mat (a := 1024) (b := 1024) x2 h' k) := fun h' k => r2 (ix2 h' k)
  have hbs : ∀ h', IsReal (vec (a := 1024) x3 h') := fun h' => r3 (ix1 h')
  have hWk : ∀ h' k, IsReal (mat (a := 1024) (b := 2048) x4 h' k) := fun h' k => r4 (ix2 h' k)
  have hbk : ∀ h', IsReal (vec (a := 1024) x5 h') := fun h' => r5 (ix1 h')
  have hS := proj_isReal hX hWs hbs
  have hK := proj_isReal hE hWk hbk
  have hsc : ∀ i j, IsReal (AttnSpec.attnScores (mat (a := 8192) (b := 1024) x0)
      (mat (a := 8192) (b := 2048) x1) (mat (a := 1024) (b := 1024) x2) (vec (a := 1024) x3)
      (mat (a := 1024) (b := 2048) x4) (vec (a := 1024) x5) i j) := scores_isReal hS hK
  exact ⟨hX, hE, hWs, hbs, hWk, hbk, hS, hK, hsc, colMax_isReal (by decide) hsc⟩

end Cert.Finite

end
-- ==== Proof.LibOnlineColSoftmax.lean ====
/-
  Online (tiled) log-sum-exp and the column softmax, on the extended reals.

  A softmax over a finite index set can be computed in two passes.  The first pass walks the
  index set tile by tile and keeps a running pair (m, l): a shift m (any real) and the sum l of
  the exponentials seen so far, each taken relative to the current shift.  When the shift moves
  from m to m', the old sum is rescaled by exp (m - m') and the new tile's exponentials
  exp (s - m') are added.  After the last tile, lse := m + log l is the logarithm of the full sum
  of exponentials, and the second pass outputs exp (s - lse).

  The textbook softmax is exp (s - M) / (sum of exp (s' - M)) for a shift M (usually the maximum).

  Over exact (extended) reals with real scores the two agree, and the agreement never uses that
  the shifts are maxima: it holds for ANY real sequence of running shifts and ANY real M.  Both
  sides are the real number exp s / (sum of exp s').  This file proves that, with the elementary
  functions being the extended-real ones of the ideal float instance.
-/
import Idealize.ShloMosaic.PureOps.Ideal
import Mathlib.Algebra.BigOperators.Fin
import Mathlib.Data.Fintype.BigOperators

namespace OnlineColSoftmax

open Idealize.ShloMosaic

/-! ### Finite real sums inside the extended reals -/

/-- The coercion of a finite real sum is the extended-real sum of the coercions (over a finset). -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a finite real sum is the extended-real sum of the coercions (over a finite type). -/
theorem coe_sum {ι : Type*} [Fintype ι] (f : ι → ℝ) :
    ((∑ i, f i : ℝ) : EReal) = ∑ i, (f i : EReal) :=
  coe_finset_sum Finset.univ f

/-- The ideal exponential of a difference of two reals is the real exponential of the difference. -/
theorem exp_coe_sub (a c : ℝ) :
    Ideal.exp ((a : EReal) - (c : EReal)) = ((Real.exp (a - c) : ℝ) : EReal) := by
  rw [← EReal.coe_sub, Ideal.exp_coe]

/-- A finite extended-real sum of ideal exponentials of shifted reals is the coercion of the real
    sum of exponentials. -/
theorem sum_exp_coe_sub {ι : Type*} [Fintype ι] (a : ι → ℝ) (c : ℝ) :
    ∑ i, Ideal.exp ((a i : EReal) - (c : EReal)) = ((∑ i, Real.exp (a i - c) : ℝ) : EReal) := by
  rw [coe_sum]
  exact Finset.sum_congr rfl (fun i _ => exp_coe_sub (a i) c)

/-- A finite sum of real exponentials over a nonempty index type is positive. -/
theorem sum_exp_pos {ι : Type*} [Fintype ι] [Nonempty ι] (a : ι → ℝ) :
    0 < ∑ i, Real.exp (a i) :=
  Finset.sum_pos (fun i _ => Real.exp_pos (a i)) Finset.univ_nonempty

/-! ### The real identities -/

/-- A common shift cancels in a softmax quotient. -/
theorem real_softmax_shift {ι : Type*} [Fintype ι] (a : ι → ℝ) (c : ℝ) (i : ι) :
    Real.exp (a i - c) / ∑ j, Real.exp (a j - c) = Real.exp (a i) / ∑ j, Real.exp (a j) := by
  simp only [Real.exp_sub]
  rw [← Finset.sum_div]
  exact div_div_div_cancel_right₀ (Real.exp_pos c).ne' _ _

/-- Subtracting a shifted log-sum-exp is dividing by the sum of exponentials. -/
theorem real_exp_sub_lse {ι : Type*} [Fintype ι] [Nonempty ι] (a : ι → ℝ) (c : ℝ) (i : ι) :
    Real.exp (a i - (c + Real.log (∑ j, Real.exp (a j - c))))
      = Real.exp (a i) / ∑ j, Real.exp (a j) := by
  have hpos : 0 < ∑ j, Real.exp (a j - c) := sum_exp_pos (fun j => a j - c)
  have h : a i - (c + Real.log (∑ j, Real.exp (a j - c)))
      = (a i - c) - Real.log (∑ j, Real.exp (a j - c)) := by ring
  rw [h, Real.exp_sub, Real.exp_log hpos]
  exact real_softmax_shift a c i

/-! ### The two sides as extended reals, over one index type -/

/-- The reference side: the ideal quotient of the shifted exponential by the sum of the shifted
    exponentials is the real softmax value, whatever the real shift is. -/
theorem div_exp_sum_eq {ι : Type*} [Fintype ι] [Nonempty ι] (a : ι → ℝ) (M : ℝ) (i : ι) :
    Ideal.div (Ideal.exp ((a i : EReal) - (M : EReal))) (∑ j, Ideal.exp ((a j : EReal) - (M : EReal)))
      = ((Real.exp (a i) / ∑ j, Real.exp (a j) : ℝ) : EReal) := by
  have hpos : 0 < ∑ j, Real.exp (a j - M) := sum_exp_pos (fun j => a j - M)
  rw [sum_exp_coe_sub, exp_coe_sub, Ideal.div_coe hpos.ne', ← EReal.coe_mul, mul_one_div,
    real_softmax_shift]

/-- The reference side does not depend on the shift. -/
theorem div_exp_sum_shift_indep {ι : Type*} [Fintype ι] [Nonempty ι] (a : ι → ℝ) (M M' : ℝ) (i : ι) :
    Ideal.div (Ideal.exp ((a i : EReal) - (M : EReal))) (∑ j, Ideal.exp ((a j : EReal) - (M : EReal)))
      = Ideal.div (Ideal.exp ((a i : EReal) - (M' : EReal)))
          (∑ j, Ideal.exp ((a j : EReal) - (M' : EReal))) := by
  rw [div_exp_sum_eq, div_exp_sum_eq]

/-- The log-sum-exp side: with the real sum of shifted exponentials as the accumulated sum, the
    ideal exponential of the score minus (shift + log of the sum) is the real softmax value. -/
theorem exp_sub_lse_eq {ι : Type*} [Fintype ι] [Nonempty ι] (a : ι → ℝ) (c : ℝ) (i : ι) :
    Ideal.exp ((a i : EReal)
        - ((c : EReal) + Ideal.log (((∑ j, Real.exp (a j - c) : ℝ)) : EReal)))
      = ((Real.exp (a i) / ∑ j, Real.exp (a j) : ℝ) : EReal) := by
  have hpos : 0 < ∑ j, Real.exp (a j - c) := sum_exp_pos (fun j => a j - c)
  rw [Ideal.log_coe, if_neg (not_le.mpr hpos), ← EReal.coe_add, ← EReal.coe_sub, Ideal.exp_coe,
    real_exp_sub_lse]

/-! ### The online accumulation -/

/-- The online accumulation, tiles indexed by the natural numbers.  Start from l 0 = 0; at tile n
    rescale the accumulated sum from shift m n to shift m (n+1) and add the tile's exponentials at
    the new shift.  Then after n tiles the accumulated sum is the real sum, over the first n tiles,
    of the exponentials at the current shift m n.  The shifts are arbitrary reals. -/
theorem online_l_nat {R : Type*} [Fintype R] (N : ℕ) (s : ℕ → R → ℝ) (m : ℕ → ℝ) (l : ℕ → EReal)
    (h0 : l 0 = 0)
    (hstep : ∀ n, n < N → l (n + 1)
        = Ideal.exp ((m n : EReal) - (m (n + 1) : EReal)) * l n
          + ∑ r, Ideal.exp ((s n r : EReal) - (m (n + 1) : EReal))) :
    ∀ n, n ≤ N →
      l n = ((∑ t ∈ Finset.range n, ∑ r, Real.exp (s t r - m n) : ℝ) : EReal) := by
  intro n
  induction n with
  | zero => intro _; simp [h0]
  | succ n ih =>
    intro hn
    have hn' : n < N := hn
    rw [hstep n hn', ih (le_of_lt hn'), exp_coe_sub, sum_exp_coe_sub, ← EReal.coe_mul,
      ← EReal.coe_add]
    congr 1
    rw [Finset.sum_range_succ, Finset.mul_sum]
    congr 1
    refine Finset.sum_congr rfl (fun t _ => ?_)
    rw [Finset.mul_sum]
    refine Finset.sum_congr rfl (fun r _ => ?_)
    rw [← Real.exp_add]
    congr 1
    ring

/-- The online accumulation, tiles indexed by Fin N: after n ≤ N tiles the accumulated sum is the
    real sum over the first n tiles of the exponentials at the current shift. -/
theorem online_l {R : Type*} [Fintype R] (N : ℕ) (s : Fin N → R → ℝ) (m : ℕ → ℝ) (l : ℕ → EReal)
    (h0 : l 0 = 0)
    (hstep : ∀ n (hn : n < N), l (n + 1)
        = Ideal.exp ((m n : EReal) - (m (n + 1) : EReal)) * l n
          + ∑ r, Ideal.exp ((s ⟨n, hn⟩ r : EReal) - (m (n + 1) : EReal))) :
    ∀ n (hn : n ≤ N),
      l n = ((∑ t : Fin n, ∑ r, Real.exp (s (Fin.castLE hn t) r - m n) : ℝ) : EReal) := by
  intro n hn
  have key := online_l_nat N (fun t r => if h : t < N then s ⟨t, h⟩ r else 0) m l h0
    (fun k hk => by rw [hstep k hk]; simp only [dif_pos hk]) n hn
  rw [key, Finset.sum_range]
  congr 1
  refine Finset.sum_congr rfl (fun t _ => ?_)
  have ht : (t : ℕ) < N := lt_of_lt_of_le t.isLt hn
  simp only [dif_pos ht]
  rfl

/-- The online accumulation after all N tiles: the accumulated sum is the real double sum, over all
    tiles and all rows of a tile, of the exponentials at the final shift. -/
theorem online_l_final {R : Type*} [Fintype R] (N : ℕ) (s : Fin N → R → ℝ) (m : ℕ → ℝ)
    (l : ℕ → EReal) (h0 : l 0 = 0)
    (hstep : ∀ n (hn : n < N), l (n + 1)
        = Ideal.exp ((m n : EReal) - (m (n + 1) : EReal)) * l n
          + ∑ r, Ideal.exp ((s ⟨n, hn⟩ r : EReal) - (m (n + 1) : EReal))) :
    l N = ((∑ t : Fin N, ∑ r, Real.exp (s t r - m N) : ℝ) : EReal) := by
  rw [online_l N s m l h0 hstep N le_rfl]
  simp

/-- The same, as one sum over the pairs (tile, row). -/
theorem online_l_final_prod {R : Type*} [Fintype R] (N : ℕ) (s : Fin N → R → ℝ) (m : ℕ → ℝ)
    (l : ℕ → EReal) (h0 : l 0 = 0)
    (hstep : ∀ n (hn : n < N), l (n + 1)
        = Ideal.exp ((m n : EReal) - (m (n + 1) : EReal)) * l n
          + ∑ r, Ideal.exp ((s ⟨n, hn⟩ r : EReal) - (m (n + 1) : EReal))) :
    l N = ((∑ p : Fin N × R, Real.exp (s p.1 p.2 - m N) : ℝ) : EReal) := by
  rw [online_l_final N s m l h0 hstep]
  exact congrArg (fun x : ℝ => (x : EReal))
    (Fintype.sum_prod_type' (fun t r => Real.exp (s t r - m N))).symm

/-! ### Online log-sum-exp softmax = reference softmax -/

/-- The softmax computed through the online log-sum-exp equals the reference softmax with any real
    shift M.  The running shifts m are arbitrary reals (nothing uses that they are maxima), and so
    is M.  (A tile t and a row r are given, so there is at least one tile and one row.) -/
theorem softmax_of_lse {R : Type*} [Fintype R] (N : ℕ) (s : Fin N → R → ℝ) (m : ℕ → ℝ)
    (l : ℕ → EReal) (h0 : l 0 = 0)
    (hstep : ∀ n (hn : n < N), l (n + 1)
        = Ideal.exp ((m n : EReal) - (m (n + 1) : EReal)) * l n
          + ∑ r, Ideal.exp ((s ⟨n, hn⟩ r : EReal) - (m (n + 1) : EReal)))
    (M : ℝ) (t : Fin N) (r : R) :
    Ideal.exp ((s t r : EReal) - ((m N : EReal) + Ideal.log (l N)))
      = Ideal.div (Ideal.exp ((s t r : EReal) - (M : EReal)))
          (∑ t', ∑ r', Ideal.exp ((s t' r' : EReal) - (M : EReal))) := by
  haveI : Nonempty (Fin N × R) := ⟨(t, r)⟩
  have hl := online_l_final_prod N s m l h0 hstep
  have hL := exp_sub_lse_eq (fun p : Fin N × R => s p.1 p.2) (m N) (t, r)
  have hR := div_exp_sum_eq (fun p : Fin N × R => s p.1 p.2) M (t, r)
  have hsum : (∑ p : Fin N × R, Ideal.exp ((s p.1 p.2 : EReal) - (M : EReal)))
      = ∑ t', ∑ r', Ideal.exp ((s t' r' : EReal) - (M : EReal)) :=
    Fintype.sum_prod_type' (fun t' r' => Ideal.exp ((s t' r' : EReal) - (M : EReal)))
  rw [hsum] at hR
  rw [hl]
  exact hL.trans hR.symm

/-- The flattened form: the reference sum runs over a single index type ι that is in bijection
    with the pairs (tile, row). -/
theorem softmax_of_lse_flat {ι R : Type*} [Fintype ι] [Fintype R] (N : ℕ) (e : ι ≃ Fin N × R)
    (s : Fin N → R → ℝ) (m : ℕ → ℝ) (l : ℕ → EReal) (h0 : l 0 = 0)
    (hstep : ∀ n (hn : n < N), l (n + 1)
        = Ideal.exp ((m n : EReal) - (m (n + 1) : EReal)) * l n
          + ∑ r, Ideal.exp ((s ⟨n, hn⟩ r : EReal) - (m (n + 1) : EReal)))
    (M : ℝ) (t : Fin N) (r : R) :
    Ideal.exp ((s t r : EReal) - ((m N : EReal) + Ideal.log (l N)))
      = Ideal.div (Ideal.exp ((s t r : EReal) - (M : EReal)))
          (∑ i, Ideal.exp ((s (e i).1 (e i).2 : EReal) - (M : EReal))) := by
  have hsum : (∑ p : Fin N × R, Ideal.exp ((s p.1 p.2 : EReal) - (M : EReal)))
      = ∑ t', ∑ r', Ideal.exp ((s t' r' : EReal) - (M : EReal)) :=
    Fintype.sum_prod_type' (fun t' r' => Ideal.exp ((s t' r' : EReal) - (M : EReal)))
  rw [softmax_of_lse N s m l h0 hstep M t r,
    Equiv.sum_comp e (fun p : Fin N × R => Ideal.exp ((s p.1 p.2 : EReal) - (M : EReal))), hsum]

end OnlineColSoftmax
-- ==== Proof.BridgeValues.lean ====
/-
  The kernel's two result arrays as the attention specification of the launched arrays.

  The fused pass leaves, at (i, j), exp (score i j - L j), where L is the row the log-sum-exp pass
  left and the scores are those of the two projection passes' outputs; and at (i, d) the sum over j of
  that exponential times entry (j, d) of the value matrix.  The projections' outputs are the
  specification's projections of the launched arrays, so the scores are the specification's scores.
  Under the precondition every score is a real and so is every column maximum.  The log-sum-exp row
  holds, in column j, m + log (sum over i of exp (score i j - m)) for some real m; then
  exp (score i j - L j) is the real number exp (score i j) / (sum over i' of exp (score i' j)), and so is
  the column softmax shifted by the (real) column maximum: the two agree whatever the shifts are.
-/
import proofs.«125521_j15702400434434_2_alg».proof.Proof.KI.StageValues
import proofs.«125521_j15702400434434_2_alg».proof.Proof.KI.FusedValue
import proofs.«125521_j15702400434434_2_alg».proof.Proof.AttnSpec
import proofs.«125521_j15702400434434_2_alg».proof.Proof.Finite
import proofs.«125521_j15702400434434_2_alg».proof.Proof.LibOnlineColSoftmax

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open scoped BigOperators

/-! ### The law, over abstract score matrices -/

/-- With real scores, a real column shift Mx, and a row L holding in column j the value
    m + log (sum over i of exp (score i j - m)) for some real m:  exp (score - L) is the column softmax
    shifted by Mx. -/
theorem exp_sub_lse_eq_colSoftmax {N M : ℕ} (scE : Fin N → Fin M → EReal) (sc : Fin N → Fin M → ℝ)
    (hsc : ∀ i j, scE i j = (sc i j : EReal))
    (Mx : Fin M → EReal) (hMx : ∀ j, ∃ r : ℝ, Mx j = (r : EReal))
    (L : Fin M → EReal)
    (hL : ∀ j, ∃ mj : ℝ, L j = (mj : EReal) + Ideal.log (((∑ i, Real.exp (sc i j - mj) : ℝ)) : EReal))
    (i : Fin N) (j : Fin M) :
    Ideal.exp (scE i j - L j) = AttnSpec.colSoftmax scE Mx i j := by
  haveI : Nonempty (Fin N) := ⟨i⟩
  obtain ⟨r, hr⟩ := hMx j
  obtain ⟨mj, hmj⟩ := hL j
  unfold AttnSpec.colSoftmax
  rw [hmj, hr]
  simp only [hsc]
  exact (OnlineColSoftmax.exp_sub_lse_eq (fun i => sc i j) mj i).trans
    (OnlineColSoftmax.div_exp_sum_eq (fun i => sc i j) r i).symm

/-! ### The kernel's arrays -/

section Kernel

variable (m : (ℓ : Loc nD τ sig) → Buf (Elt Ideal) ℓ) (c : Dev nD)

/-- The six launched arrays as functions of their coordinates. -/
abbrev kX : Fin 8192 → Fin 1024 → EReal := AttnSpec.mat (a := 8192) (b := 1024) (m ((c.tc : Thread nD τ).loc main_arg0))
abbrev kE : Fin 8192 → Fin 2048 → EReal := AttnSpec.mat (a := 8192) (b := 2048) (m ((c.tc : Thread nD τ).loc main_arg1))
abbrev kWs : Fin 1024 → Fin 1024 → EReal := AttnSpec.mat (a := 1024) (b := 1024) (m ((c.tc : Thread nD τ).loc main_arg2))
abbrev kbs : Fin 1024 → EReal := AttnSpec.vec (a := 1024) (m ((c.tc : Thread nD τ).loc main_arg3))
abbrev kWk : Fin 1024 → Fin 2048 → EReal := AttnSpec.mat (a := 1024) (b := 2048) (m ((c.tc : Thread nD τ).loc main_arg4))
abbrev kbk : Fin 1024 → EReal := AttnSpec.vec (a := 1024) (m ((c.tc : Thread nD τ).loc main_arg5))

/-- The first projection pass's output is the specification's projection of the launched arrays. -/
theorem mat_o2 : AttnSpec.mat (a := 8192) (b := 1024) (o2 m c) = AttnSpec.proj (kX m c) (kWs m c) (kbs m c) := by
  funext i h
  exact o2_entry m c i h

/-- The second projection pass's output likewise. -/
theorem mat_o3 : AttnSpec.mat (a := 8192) (b := 1024) (o3 m c) = AttnSpec.proj (kE m c) (kWk m c) (kbk m c) := by
  funext j h
  exact o3_entry m c j h

/-- The scores of the two passes' outputs are the specification's scores of the launched arrays. -/
theorem scores_o (i j : Fin 8192) :
    AttnSpec.scores (AttnSpec.mat (a := 8192) (b := 1024) (o2 m c)) (AttnSpec.mat (a := 8192) (b := 1024) (o3 m c)) i j
      = AttnSpec.attnScores (kX m c) (kE m c) (kWs m c) (kbs m c) (kWk m c) (kbk m c) i j := by
  unfold AttnSpec.attnScores
  rw [mat_o2, mat_o3]

/-- What the log-sum-exp pass is known to leave: for any real matrix equal to the scores the pass
    finds, column j of its output row is m + log (sum over i of exp (score i j - m)) for some real m. -/
def LseFact : Prop :=
  ∀ sc : Fin 8192 → Fin 8192 → ℝ,
    (∀ i j : Fin 8192, AttnSpec.scores (AttnSpec.mat (a := 8192) (b := 1024) (atTc (U3 m) c main_v2))
        (AttnSpec.mat (a := 8192) (b := 1024) (atTc (U3 m) c main_v3)) i j = (sc i j : EReal)) →
    ∀ j : Fin 8192, ∃ mj : ℝ, (o4 m c : S1x8192.Idx → EReal) (ix2 (0 : Fin 1) j)
      = (mj : EReal) + Ideal.log (((∑ i : Fin 8192, Real.exp (sc i j - mj) : ℝ)) : EReal)

variable (hpre : Cert.Pre_finite_inputs.fn (F := Ideal) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) = (fun _ => 1#1))
  (hlse : LseFact m c)

include hpre hlse

/-- The exponential the fused pass forms at (i, j) is the specification's attention entry. -/
theorem exp_term_eq (i j : Fin 8192) :
    Ideal.exp (AttnSpec.scores (AttnSpec.mat (a := 8192) (b := 1024) (o2 m c))
        (AttnSpec.mat (a := 8192) (b := 1024) (o3 m c)) i j
        - (o4 m c : S1x8192.Idx → EReal) (ix2 (0 : Fin 1) j))
      = AttnSpec.attn (kX m c) (kE m c) (kWs m c) (kbs m c) (kWk m c) (kbk m c) i j := by
  obtain ⟨-, -, -, -, -, -, -, -, hscR, hmaxR⟩ := Cert.Finite.spec_real _ _ _ _ _ _ hpre
  have hscR' : ∀ i j : Fin 8192, ∃ r : ℝ,
      AttnSpec.attnScores (kX m c) (kE m c) (kWs m c) (kbs m c) (kWk m c) (kbk m c) i j = (r : EReal) := hscR
  have hmaxR' : ∀ j : Fin 8192, ∃ r : ℝ,
      AttnSpec.colMax (AttnSpec.attnScores (kX m c) (kE m c) (kWs m c) (kbs m c) (kWk m c) (kbk m c)) j
        = (r : EReal) := hmaxR
  choose sc hsc using hscR'
  have e2 : (atTc (U3 m) c main_v2 : S8192x1024.Idx → EReal) = o2 m c := U3_main_v2 m c
  have e3 : (atTc (U3 m) c main_v3 : S8192x1024.Idx → EReal) = o3 m c := U3_main_v3 m c
  have hL := hlse sc (fun i j => by rw [e2, e3]; exact (scores_o m c i j).trans (hsc i j))
  have key := exp_sub_lse_eq_colSoftmax
    (AttnSpec.attnScores (kX m c) (kE m c) (kWs m c) (kbs m c) (kWk m c) (kbk m c)) sc hsc
    (AttnSpec.colMax (AttnSpec.attnScores (kX m c) (kE m c) (kWs m c) (kbs m c) (kWk m c) (kbk m c))) hmaxR'
    (fun j => (o4 m c : S1x8192.Idx → EReal) (ix2 (0 : Fin 1) j)) hL i j
  exact (congrArg (fun s : EReal => Ideal.exp (s - (o4 m c : S1x8192.Idx → EReal) (ix2 (0 : Fin 1) j)))
    (scores_o m c i j)).trans key

/-- The kernel's first result at (i, j) is the specification's attention entry of the launched arrays. -/
theorem o60_entry (i j : Fin 8192) :
    (o60 m c : S8192x8192.Idx → EReal) (ix2 i j)
      = AttnSpec.attn (kX m c) (kE m c) (kWs m c) (kbs m c) (kWk m c) (kbk m c) i j := by
  have hE := attn_entry (atTc (U5 m)) c i j
  have e2 : (atTc (U5 m) c main_v2 : S8192x1024.Idx → EReal) = o2 m c := U5_main_v2 m c
  have e3 : (atTc (U5 m) c main_v3 : S8192x1024.Idx → EReal) = o3 m c := U5_main_v3 m c
  have e4 : (atTc (U5 m) c main_v4 : S1x8192.Idx → EReal) = o4 m c := U5_main_v4 m c
  rw [e2, e3, e4] at hE
  exact hE.trans (exp_term_eq m c hpre hlse i j)

/-- The kernel's second result at (i, d) is the specification's fused output of the launched arrays. -/
theorem o61_entry (i : Fin 8192) (d : Fin 2048) :
    (o61 m c : S8192x2048.Idx → EReal) (ix2 i d)
      = AttnSpec.attnOut (kX m c) (kE m c) (kWs m c) (kbs m c) (kWk m c) (kbk m c) i d := by
  have hF := fused_entry (atTc (U5 m)) c i d
  have e2 : (atTc (U5 m) c main_v2 : S8192x1024.Idx → EReal) = o2 m c := U5_main_v2 m c
  have e3 : (atTc (U5 m) c main_v3 : S8192x1024.Idx → EReal) = o3 m c := U5_main_v3 m c
  have e4 : (atTc (U5 m) c main_v4 : S1x8192.Idx → EReal) = o4 m c := U5_main_v4 m c
  have e5 : (atTc (U5 m) c main_v5 : S8192x2048.Idx → EReal)
      = (m ((c.tc : Thread nD τ).loc main_arg1) : S8192x2048.Idx → EReal) := U5_main_v5 m c
  rw [e2, e3, e4, e5] at hF
  have hsum : (∑ j : Fin 8192,
        Ideal.exp (AttnSpec.scores (AttnSpec.mat (a := 8192) (b := 1024) (o2 m c))
            (AttnSpec.mat (a := 8192) (b := 1024) (o3 m c)) i j
            - (o4 m c : S1x8192.Idx → EReal) (ix2 (0 : Fin 1) j))
          * (m ((c.tc : Thread nD τ).loc main_arg1) : S8192x2048.Idx → EReal) (ix2 j d) : EReal)
      = AttnSpec.attnOut (kX m c) (kE m c) (kWs m c) (kbs m c) (kWk m c) (kbk m c) i d := by
    unfold AttnSpec.attnOut AttnSpec.fused
    refine Finset.sum_congr rfl fun j _ => ?_
    exact congrArg
      (fun p : EReal => p * (m ((c.tc : Thread nD τ).loc main_arg1) : S8192x2048.Idx → EReal) (ix2 j d))
      (exp_term_eq m c hpre hlse i j)
  exact hF.trans hsum

end Kernel

end Cert.Bridge

end
-- ==== Proof.RefSide.lean ====
/-
  The reference program's two results, read at an index.

  The reference computes S = X · Wsᵀ + bs and K = E · Wkᵀ + bk, the scores S · Kᵀ, a softmax down each
  column of the scores (subtract the column maximum, exponentiate, divide by the column sum) and the
  product of that matrix with E.  Each stage is read at one index (i, j): a transposed operand swaps
  its two coordinates, a broadcast bias forgets the row, a contraction is the sum over the contracted
  coordinate, the column maximum is the fold of max from -∞ over the rows, the column sum starts
  from 0.  Put together, entry (i, j) of the first result is AttnSpec.attn of the six argument
  arrays, and entry (i, d) of the second is AttnSpec.attnOut.
-/
import proofs.«125521_j15702400434434_2_alg».proof.Proof.Gen.ReferenceIdeal.Read
import proofs.«125521_j15702400434434_2_alg».proof.Proof.AttnSpec

noncomputable section

namespace Cert.ReferenceIdeal.RefValue

open Cert.ReferenceIdeal Cert.ReferenceIdeal.Gen Cert.ReferenceIdeal.Read Idealize.ShloMosaic
  Idealize.ShloMosaic.TcCoe Idealize.SL.Sem Idealize.ShloMosaic.StableHlo Idealize.ShloMosaic.ValueIdx
open AttnSpec (mat vec)

variable (x0 : (⟨S8192x1024, .f32⟩ : BufTy).Contents (Elt Ideal))
  (x1 : (⟨S8192x2048, .f32⟩ : BufTy).Contents (Elt Ideal))
  (x2 : (⟨S1024x1024, .f32⟩ : BufTy).Contents (Elt Ideal))
  (x3 : (⟨S1024, .f32⟩ : BufTy).Contents (Elt Ideal))
  (x4 : (⟨S1024x2048, .f32⟩ : BufTy).Contents (Elt Ideal))
  (x5 : (⟨S1024, .f32⟩ : BufTy).Contents (Elt Ideal))

/-! ### The two projections -/

/-- S = X · Wsᵀ + bs at (i, h). -/
theorem S_at (i : Fin 8192) (h : Fin 1024) :
    val_main_v4 (F := Ideal) x0 x2 x3 (ix2 i h)
      = AttnSpec.proj (mat (a := 8192) (b := 1024) x0) (mat (a := 1024) (b := 1024) x2)
          (vec (a := 1024) x3) i h := by
  rw [val_main_v4_apply, val_main_v1_apply, val_main_v3_apply, val_main_v2_apply]
  have e1 : ∀ k : Fin 1024, lidx_main_v1 (ix2 i h) k = ix2 i k := fun k =>
    funext fun a => Fin.ext (by match a with | ⟨0, _⟩ => rfl | ⟨1, _⟩ => rfl)
  have e2 : ∀ k : Fin 1024, idx_main_v0 (ridx_main_v1 (ix2 i h) k) = ix2 h k := fun k =>
    funext fun a => Fin.ext (by match a with | ⟨0, _⟩ => rfl | ⟨1, _⟩ => rfl)
  have e3 : idx_main_v2 (idx_main_v3 (ix2 i h)) = ix1 h :=
    funext fun a => Fin.ext (by match a with | ⟨0, _⟩ => rfl)
  simp only [val_main_v0_apply, e1, e2, e3]
  rfl

/-- K = E · Wkᵀ + bk at (j, h). -/
theorem K_at (j : Fin 8192) (h : Fin 1024) :
    val_main_v9 (F := Ideal) x1 x4 x5 (ix2 j h)
      = AttnSpec.proj (mat (a := 8192) (b := 2048) x1) (mat (a := 1024) (b := 2048) x4)
          (vec (a := 1024) x5) j h := by
  rw [val_main_v9_apply, val_main_v6_apply, val_main_v8_apply, val_main_v7_apply]
  have e1 : ∀ k : Fin 2048, lidx_main_v6 (ix2 j h) k = ix2 j k := fun k =>
    funext fun a => Fin.ext (by match a with | ⟨0, _⟩ => rfl | ⟨1, _⟩ => rfl)
  have e2 : ∀ k : Fin 2048, idx_main_v5 (ridx_main_v6 (ix2 j h) k) = ix2 h k := fun k =>
    funext fun a => Fin.ext (by match a with | ⟨0, _⟩ => rfl | ⟨1, _⟩ => rfl)
  have e3 : idx_main_v7 (idx_main_v8 (ix2 j h)) = ix1 h :=
    funext fun a => Fin.ext (by match a with | ⟨0, _⟩ => rfl)
  simp only [val_main_v5_apply, e1, e2, e3]
  rfl

/-! ### The scores -/

/-- The six argument arrays' scores, as AttnSpec states them. -/
abbrev sc : Fin 8192 → Fin 8192 → EReal :=
  AttnSpec.attnScores (mat (a := 8192) (b := 1024) x0) (mat (a := 8192) (b := 2048) x1)
    (mat (a := 1024) (b := 1024) x2) (vec (a := 1024) x3) (mat (a := 1024) (b := 2048) x4)
    (vec (a := 1024) x5)

/-- scores = S · Kᵀ at (i, j). -/
theorem scores_at (i j : Fin 8192) :
    val_main_v11 (F := Ideal) x0 x1 x2 x3 x4 x5 (ix2 i j) = sc x0 x1 x2 x3 x4 x5 i j := by
  rw [val_main_v11_apply]
  unfold sc AttnSpec.attnScores AttnSpec.scores
  refine Finset.sum_congr rfl fun h _ => ?_
  have el : lidx_main_v11 (ix2 i j) h = ix2 i h :=
    funext fun a => Fin.ext (by match a with | ⟨0, _⟩ => rfl | ⟨1, _⟩ => rfl)
  have er : idx_main_v10 (ridx_main_v11 (ix2 i j) h) = ix2 j h :=
    funext fun a => Fin.ext (by match a with | ⟨0, _⟩ => rfl | ⟨1, _⟩ => rfl)
  rw [val_main_v10_apply, el, er, S_at, K_at]

/-! ### The column maximum -/

/-- The -∞ word denotes the bottom extended real. -/
theorem ofBits_neg_inf : Ideal.ofBits .f32 0xFF800000#32 = (⊥ : EReal) := by
  simp [Ideal.ofBits, Ideal.ieee]

/-- A reduced column index j with the row k put back is (k, j). -/
theorem lift_col (h : S8192x8192.Reduces [0] S8192) (j : Fin 8192) (k : Fin (S8192x8192.size 0)) :
    h.lift (ix1 j) k = ix2 (⟨k.val, k.isLt⟩ : Fin 8192) j := by
  funext c
  apply Fin.ext
  fin_cases c <;> rfl

/-- The host's reduce with a maximum body over axis 0, from -∞, at column j: the fold of max from -∞
    down the column. -/
theorem reduceMax_col (x : (⟨S8192x8192, .f32⟩ : BufTy).Contents (Elt Ideal)) (j : Fin 8192) :
    Host.reduce (FloatOps.maximumf (F := Ideal) (φ := .f32)) x (val_main_cst (F := Ideal))
        reducesTo_S8192x8192_S8192_d0 h_S_ (ix1 j)
      = (Finset.univ : Finset (Fin 8192)).fold max (⊥ : EReal) (fun i => x (ix2 i j)) := by
  have h : S8192x8192.Reduces [0] S8192 := by decide
  rw [Host.reduce_eq_fold_single (FloatOps.maximumf (F := Ideal) (φ := .f32)) x _
    reducesTo_S8192x8192_S8192_d0 h h_S_]
  have hb : (val_main_cst (F := Ideal)) (Shape.Idx.first h_S_) = (⊥ : EReal) := ofBits_neg_inf
  have hf : (x ∘ h.lift (ix1 j)) = fun k : Fin 8192 => x (ix2 k j) :=
    funext fun k => congrArg x (lift_col h j k)
  rw [hb, hf]
  rfl

/-- The column maximum (the reduce from -∞, then once more the maximum against -∞) at j. -/
theorem colMax_at (j : Fin 8192) :
    val_main_v14 (F := Ideal) x0 x1 x2 x3 x4 x5 (ix1 j)
      = AttnSpec.colMax (sc x0 x1 x2 x3 x4 x5) j := by
  rw [val_main_v14_apply, val_main_v13_apply, val_main_cst_0_apply]
  unfold val_main_v12
  rw [reduceMax_col]
  simp only [scores_at]
  unfold AttnSpec.colMax
  rw [Ideal.ofBits_def, ofBits_neg_inf]
  rfl

/-! ### The column softmax -/

/-- exp (scores - column maximum) at (i, j). -/
theorem exp_at (i j : Fin 8192) :
    val_main_v18 (F := Ideal) x0 x1 x2 x3 x4 x5 (ix2 i j)
      = Ideal.exp (sc x0 x1 x2 x3 x4 x5 i j - AttnSpec.colMax (sc x0 x1 x2 x3 x4 x5) j) := by
  rw [val_main_v18_apply, val_main_v17_apply, val_main_v16_apply, val_main_v15_apply]
  have e : idx_main_v15 (idx_main_v16 (ix2 i j)) = ix1 j :=
    funext fun a => Fin.ext (by match a with | ⟨0, _⟩ => rfl)
  rw [e, colMax_at, scores_at]
  rfl

/-- The column sum of the exponentials at j (the reduce's initial value is the zero word). -/
theorem colSum_at (j : Fin 8192) :
    val_main_v19 (F := Ideal) x0 x1 x2 x3 x4 x5 (ix1 j)
      = ∑ i' : Fin 8192, Ideal.exp (sc x0 x1 x2 x3 x4 x5 i' j
          - AttnSpec.colMax (sc x0 x1 x2 x3 x4 x5) j) := by
  rw [val_main_v19_apply, val_main_cst_1_apply]
  have e : ∀ k : Fin 8192, idx_main_v19 (ix1 j) k = ix2 k j := fun k =>
    funext fun a => Fin.ext (by match a with | ⟨0, _⟩ => rfl | ⟨1, _⟩ => rfl)
  simp only [e, exp_at]
  rw [Ideal.ofBits_def, Ideal.ofBits_zero_f32, zero_add]

/-- The first result at (i, j): the column softmax of the scores. -/
theorem attn_at (i j : Fin 8192) :
    val_main_v22 (F := Ideal) x0 x1 x2 x3 x4 x5 (ix2 i j)
      = AttnSpec.attn (mat (a := 8192) (b := 1024) x0) (mat (a := 8192) (b := 2048) x1)
          (mat (a := 1024) (b := 1024) x2) (vec (a := 1024) x3) (mat (a := 1024) (b := 2048) x4)
          (vec (a := 1024) x5) i j := by
  rw [val_main_v22_apply, val_main_v21_apply, val_main_v20_apply]
  have e : idx_main_v20 (idx_main_v21 (ix2 i j)) = ix1 j :=
    funext fun a => Fin.ext (by match a with | ⟨0, _⟩ => rfl)
  rw [e, colSum_at, exp_at]
  rfl

/-- The second result at (i, d): the first result times E. -/
theorem out_at (i : Fin 8192) (d : Fin 2048) :
    val_main_v23 (F := Ideal) x0 x1 x2 x3 x4 x5 (ix2 i d)
      = AttnSpec.attnOut (mat (a := 8192) (b := 1024) x0) (mat (a := 8192) (b := 2048) x1)
          (mat (a := 1024) (b := 1024) x2) (vec (a := 1024) x3) (mat (a := 1024) (b := 2048) x4)
          (vec (a := 1024) x5) i d := by
  rw [val_main_v23_apply]
  unfold AttnSpec.attnOut AttnSpec.fused
  refine Finset.sum_congr rfl fun j _ => ?_
  have el : lidx_main_v23 (ix2 i d) j = ix2 i j :=
    funext fun a => Fin.ext (by match a with | ⟨0, _⟩ => rfl | ⟨1, _⟩ => rfl)
  have er : ridx_main_v23 (ix2 i d) j = ix2 j d :=
    funext fun a => Fin.ext (by match a with | ⟨0, _⟩ => rfl | ⟨1, _⟩ => rfl)
  rw [el, er, attn_at]
  rfl

/-! ### The column maximum is a real number when the column's scores are -/

/-- The reference's column shift at j (the reduce-max, read as AttnSpec.colMax) is a real number
    whenever every score in column j is a real number: a maximum over 8192 reals, seeded with -∞. -/
theorem colMax_real_of_scores_real (j : Fin 8192)
    (h : ∀ i, ∃ r : ℝ, sc x0 x1 x2 x3 x4 x5 i j = (r : EReal)) :
    ∃ M : ℝ, AttnSpec.colMax (sc x0 x1 x2 x3 x4 x5) j = (M : EReal) :=
  AttnSpec.colMax_real (by decide) (sc x0 x1 x2 x3 x4 x5) j h

/-! ### The run's two result terms -/

section Run

variable (m : (ℓ : Loc nD τ sig) → Buf (Elt Ideal) ℓ) (c : Dev nD)

/-- The six argument arrays as a memory holds them on a device. -/
abbrev arg0 : (⟨S8192x1024, .f32⟩ : BufTy).Contents (Elt Ideal) := m ((c.tc : Thread nD τ).loc main_arg0)
abbrev arg1 : (⟨S8192x2048, .f32⟩ : BufTy).Contents (Elt Ideal) := m ((c.tc : Thread nD τ).loc main_arg1)
abbrev arg2 : (⟨S1024x1024, .f32⟩ : BufTy).Contents (Elt Ideal) := m ((c.tc : Thread nD τ).loc main_arg2)
abbrev arg3 : (⟨S1024, .f32⟩ : BufTy).Contents (Elt Ideal) := m ((c.tc : Thread nD τ).loc main_arg3)
abbrev arg4 : (⟨S1024x2048, .f32⟩ : BufTy).Contents (Elt Ideal) := m ((c.tc : Thread nD τ).loc main_arg4)
abbrev arg5 : (⟨S1024, .f32⟩ : BufTy).Contents (Elt Ideal) := m ((c.tc : Thread nD τ).loc main_arg5)

/-- The first result of the reference run at (i, j) is AttnSpec.attn of the argument arrays. -/
theorem res_out0_at (i j : Fin 8192) :
    (Value.res_out0 (F := Ideal) m c : (⟨S8192x8192, .f32⟩ : BufTy).Contents (Elt Ideal)) (ix2 i j)
      = AttnSpec.attn (mat (a := 8192) (b := 1024) (arg0 m c)) (mat (a := 8192) (b := 2048) (arg1 m c))
          (mat (a := 1024) (b := 1024) (arg2 m c)) (vec (a := 1024) (arg3 m c))
          (mat (a := 1024) (b := 2048) (arg4 m c)) (vec (a := 1024) (arg5 m c)) i j := by
  show Value.res_main_v22 (F := Ideal) m c (ix2 i j) = _
  rw [val_main_v22_eq]
  exact attn_at _ _ _ _ _ _ i j

/-- The second result of the reference run at (i, d) is AttnSpec.attnOut of the argument arrays. -/
theorem res_out1_at (i : Fin 8192) (d : Fin 2048) :
    (Value.res_out1 (F := Ideal) m c : (⟨S8192x2048, .f32⟩ : BufTy).Contents (Elt Ideal)) (ix2 i d)
      = AttnSpec.attnOut (mat (a := 8192) (b := 1024) (arg0 m c)) (mat (a := 8192) (b := 2048) (arg1 m c))
          (mat (a := 1024) (b := 1024) (arg2 m c)) (vec (a := 1024) (arg3 m c))
          (mat (a := 1024) (b := 2048) (arg4 m c)) (vec (a := 1024) (arg5 m c)) i d := by
  show Value.res_main_v23 (F := Ideal) m c (ix2 i d) = _
  rw [val_main_v23_eq]
  exact out_at _ _ _ _ _ _ i d

/-- The first result as one function of the index. -/
theorem res_out0_eq :
    (Value.res_out0 (F := Ideal) m c : (⟨S8192x8192, .f32⟩ : BufTy).Contents (Elt Ideal))
      = fun idx => AttnSpec.attn (mat (a := 8192) (b := 1024) (arg0 m c))
          (mat (a := 8192) (b := 2048) (arg1 m c)) (mat (a := 1024) (b := 1024) (arg2 m c))
          (vec (a := 1024) (arg3 m c)) (mat (a := 1024) (b := 2048) (arg4 m c))
          (vec (a := 1024) (arg5 m c)) (idx 0) (idx 1) := by
  funext idx
  obtain ⟨i, j, rfl⟩ : ∃ (i j : Fin 8192), idx = ix2 i j := ⟨idx 0, idx 1, eq_ix2 idx⟩
  exact res_out0_at m c i j

/-- The second result as one function of the index. -/
theorem res_out1_eq :
    (Value.res_out1 (F := Ideal) m c : (⟨S8192x2048, .f32⟩ : BufTy).Contents (Elt Ideal))
      = fun idx => AttnSpec.attnOut (mat (a := 8192) (b := 1024) (arg0 m c))
          (mat (a := 8192) (b := 2048) (arg1 m c)) (mat (a := 1024) (b := 1024) (arg2 m c))
          (vec (a := 1024) (arg3 m c)) (mat (a := 1024) (b := 2048) (arg4 m c))
          (vec (a := 1024) (arg5 m c)) (idx 0) (idx 1) := by
  funext idx
  obtain ⟨i, d, rfl⟩ : ∃ (i : Fin 8192) (d : Fin 2048), idx = ix2 i d := ⟨idx 0, idx 1, eq_ix2 idx⟩
  exact res_out1_at m c i d

end Run

end Cert.ReferenceIdeal.RefValue

end
-- ==== Proof.KI.LseValue.lean ====
/-
  The online log-sum-exp pass, read as values. What each control case leaves in the two scratch rows and in the
  output row is the kernel's arithmetic of the point's two input blocks and of the rows the point before left:
  a first tile starts from the seed row (a finite number) and the zero row; every tile replaces the running maximum
  m by m' = max(m, column maxima of the tile's scores) and the running mass l by exp(m − m')·l + Σ_rows exp(score − m');
  a last tile writes m' + log l' into the output row.
-/
import proofs.«125521_j15702400434434_2_alg».proof.Proof.KI.Lse
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off00 : (![0, 0] : Fin 2 → Nat) = fun _ => 0 := funext fun a => by fin_cases a <;> rfl

/-- A scratch row read back whole is the row that was put there. -/
theorem read_unread_max (x : Vec F S1x2048 .f32) :
    View.read (Elt F) (View.whole cc2_scratch0) ((Memref.isWhole_whole cc2_scratch0).unread x) = x :=
  (Memref.isWhole_whole cc2_scratch0).read_unread x
theorem read_unread_mass (x : Vec F S1x2048 .f32) :
    View.read (Elt F) (View.whole cc2_scratch1) ((Memref.isWhole_whole cc2_scratch1).unread x) = x :=
  (Memref.isWhole_whole cc2_scratch1).read_unread x

/-! ## What each case leaves, over the payload names -/

theorem firstRows_max (c : Dev nD) (t : Fin cfg2.N) (h0 : t.val % 8 = 0) :
    (firstRows V c t h0).2.1 = k2_pay6 (iblk2 V c 0 t) (iblk2 V c 1 t) (k2_pay1 (F := F)) := by
  unfold firstRows; dsimp only
  rw [View.read_writes_eq_canon _ _ _ (coverFirst_max c _ _ _ _ _ _ _ _ _ _ _ _ _ _ _)]
  unfold runFirst; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

theorem firstRows_mass (c : Dev nD) (t : Fin cfg2.N) (h0 : t.val % 8 = 0) :
    (firstRows V c t h0).2.2 = k2_pay5 (iblk2 V c 0 t) (iblk2 V c 1 t) (k2_pay1 (F := F)) (k2_pay1 (F := F)) (k2_pay2 (F := F)) := by
  unfold firstRows; dsimp only
  rw [View.read_writes_eq_canon _ _ _ (coverFirst_mass c _ _ _ _ _ _ _ _ _ _ _ _ _ _ _)]
  unfold runFirst; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

theorem middleRows_max (c : Dev nD) (t : Fin cfg2.N) (h0 : ¬t.val % 8 = 0) (h1 : ¬t.val % 8 = 7) (xm xl : Vec F S1x2048 .f32) :
    (middleRows V c t h0 h1 xm xl).2.1 = k2_pay6 (iblk2 V c 0 t) (iblk2 V c 1 t) xm := by
  unfold middleRows; dsimp only
  rw [View.read_writes_eq_canon _ _ _ (coverMiddle_max c _ _ _ _ _ _ _ _ _ _ _ _ _ _ _ _ _)]
  unfold runMiddle; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

theorem middleRows_mass (c : Dev nD) (t : Fin cfg2.N) (h0 : ¬t.val % 8 = 0) (h1 : ¬t.val % 8 = 7) (xm xl : Vec F S1x2048 .f32) :
    (middleRows V c t h0 h1 xm xl).2.2 = k2_pay5 (iblk2 V c 0 t) (iblk2 V c 1 t) xm xm xl := by
  unfold middleRows; dsimp only
  rw [View.read_writes_eq_canon _ _ _ (coverMiddle_mass c _ _ _ _ _ _ _ _ _ _ _ _ _ _ _ _ _)]
  unfold runMiddle; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

theorem lastRows_max (c : Dev nD) (t : Fin cfg2.N) (h0 : ¬t.val % 8 = 0) (h1 : t.val % 8 = 7) (xm xl : Vec F S1x2048 .f32) :
    (lastRows V c t h0 h1 xm xl).2.1 = k2_pay6 (iblk2 V c 0 t) (iblk2 V c 1 t) xm := by
  unfold lastRows; dsimp only
  rw [View.read_writes_eq_canon _ _ _ (coverLast_max c _ _ _ _ _ _ _ _ _ _ _ _ _ _ _ _ _)]
  unfold runLast; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

theorem lastRows_mass (c : Dev nD) (t : Fin cfg2.N) (h0 : ¬t.val % 8 = 0) (h1 : t.val % 8 = 7) (xm xl : Vec F S1x2048 .f32) :
    (lastRows V c t h0 h1 xm xl).2.2 = k2_pay5 (iblk2 V c 0 t) (iblk2 V c 1 t) xm xm xl := by
  unfold lastRows; dsimp only
  rw [View.read_writes_eq_canon _ _ _ (coverLast_mass c _ _ _ _ _ _ _ _ _ _ _ _ _ _ _ _ _)]
  unfold runLast; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

theorem lastRows_out (c : Dev nD) (t : Fin cfg2.N) (h0 : ¬t.val % 8 = 0) (h1 : t.val % 8 = 7) (xm xl : Vec F S1x2048 .f32) :
    (lastRows V c t h0 h1 xm xl).1 = k2_pay7 (k2_pay6 (iblk2 V c 0 t) (iblk2 V c 1 t) xm) (k2_pay5 (iblk2 V c 0 t) (iblk2 V c 1 t) xm xm xl) := by
  unfold lastRows; dsimp only
  rw [View.read_writes_eq_canon _ _ _ (coverLast_out c _ _ _ _ _ _ _ _ _ _ _ _ _ _ _ _ _)]
  unfold runLast; dsimp only
  sl_unfold_words
  rw [View.canon_cons_unit_zero off00]
  simp only [View.readAt_eq_ld, Memref.IsWhole.read_unread, read_unread_max, read_unread_mass, View.ld_unit_zero (S := S1024x1024) off00, View.ld_unit_zero (S := S2048x1024) off00, View.ld_unit_zero (S := S1x2048) off00, View.readCov_unit_zero (S := S1x2048) _ off00]

end Cert.KernelIdeal.Hand

end
-- ==== Proof.KI.LseAt.lean ====
/-
  The online log-sum-exp pass at an entry, on the extended reals. For a score tile T (rows r, columns q) of the
  tile's two input blocks, T(r,q) = Σ_h S(r,h)·K(q,h); the new running maximum at column q is
  max(m(q), max_r T(r,q)); the new running mass is exp(m(q) − m'(q))·l(q) + Σ_r exp(T(r,q) − m'(q)); the output row is
  m'(q) + log l'(q); the seed rows are a finite number and zero. And where the blocks sit: at point t the score
  tile is rows 1024·(t mod 8) … of S, the key tile rows 2048·(t div 8) … of K, the output row block t div 8.
-/
import proofs.«125521_j15702400434434_2_alg».proof.Proof.KI.LseValue
import proofs.«125521_j15702400434434_2_alg».proof.Proof.LibTransDot
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The arithmetic at an entry -/

section Entry
variable (x0 : Vec Ideal S1024x1024 .bf16) (x1 : Vec Ideal S2048x1024 .bf16) (xm xl : Vec Ideal S1x2048 .f32)

/-- The score tile at an entry: the sum over the hidden axis. -/
theorem tile_apply (r : Fin 1024) (q : Fin 2048) :
    (k2_pay3 (F := Ideal) x0 x1 : S1024x2048.Idx → EReal) (ix2 r q) = ∑ h : Fin 1024, (x0 : S1024x1024.Idx → EReal) (ix2 r h) * (x1 : S2048x1024.Idx → EReal) (ix2 q h) := by
  unfold k2_pay3
  simp only [shapeCast_self]
  exact TransDot.matmul_zero_apply (M := 1024) (K := 1024) (N := 2048) dot_S1024x1024_S2048x1024_S1024x2048_1_1_0_0_n_n rfl none x0 x1 (ix2 r q)

/-- A reduced column index with the row put back. -/
theorem liftTile (h : S1024x2048.Reduces [0] S2048) (q : Fin 2048) (k : Fin (S1024x2048.size 0)) :
    h.lift (ix1 q) k = ix2 (⟨k.val, k.isLt⟩ : Fin 1024) q := by
  funext c
  apply Fin.ext
  fin_cases c <;> rfl

theorem negInf : Ideal.ofBits .f32 0xFF800000#32 = (⊥ : EReal) := by simp [Ideal.ofBits, Ideal.ieee]

/-- The new running maximum at a column: the old one against the tile's column maximum. -/
theorem newMax_apply (q : Fin 2048) :
    (k2_pay4 (F := Ideal) x0 x1 xm : S1x2048.Idx → EReal) (ix2 (0 : Fin 1) q)
      = max ((xm : S1x2048.Idx → EReal) (ix2 (0 : Fin 1) q)) ((Finset.univ : Finset (Fin 1024)).fold max (⊥ : EReal) (fun r => (k2_pay3 (F := Ideal) x0 x1 : S1024x2048.Idx → EReal) (ix2 r q))) := by
  unfold k2_pay4
  rw [maximumf_apply, shapeCast_a_1a_apply]
  refine congrArg (max _) ?_
  refine (Ideal.multiReduction_maximumf_single (k2_pay3 (F := Ideal) x0 x1) (0xFF800000#32) reduces_S1024x2048_S2048 (.inl rfl) rfl (ix1 q)).trans ?_
  rw [show (FloatOps.ofBits (F := Ideal) .f32 (0xFF800000#32)) = (⊥ : EReal) from negInf]
  exact congrArg (fun f => Finset.fold max (⊥ : EReal) f (Finset.univ : Finset (Fin 1024))) (funext fun k => congrArg (k2_pay3 (F := Ideal) x0 x1) (liftTile _ q k))

/-- The new running mass at a column. -/
theorem newMass_apply (q : Fin 2048) :
    (k2_pay5 (F := Ideal) x0 x1 xm xm xl : S1x2048.Idx → EReal) (ix2 (0 : Fin 1) q)
      = Ideal.exp ((xm : S1x2048.Idx → EReal) (ix2 (0 : Fin 1) q) - (k2_pay4 (F := Ideal) x0 x1 xm : S1x2048.Idx → EReal) (ix2 (0 : Fin 1) q)) * (xl : S1x2048.Idx → EReal) (ix2 (0 : Fin 1) q)
        + ∑ r : Fin 1024, Ideal.exp ((k2_pay3 (F := Ideal) x0 x1 : S1024x2048.Idx → EReal) (ix2 r q) - (k2_pay4 (F := Ideal) x0 x1 xm : S1x2048.Idx → EReal) (ix2 (0 : Fin 1) q)) := by
  unfold k2_pay5
  simp only [shapeCast_self]
  rw [addf_apply, mulf_apply, shapeCast_a_1a_apply]
  refine congrArg₂ (· + ·) rfl ?_
  refine (Ideal.multiReduction_add_single _ (0x00000000#32) reduces_S1024x2048_S2048 (.inl rfl) rfl (ix1 q)).trans ?_
  refine Finset.sum_congr rfl fun k _ => ?_
  rw [liftTile]
  show Ideal.exp ((k2_pay3 (F := Ideal) x0 x1 : S1024x2048.Idx → EReal) (ix2 (⟨k.val, k.isLt⟩ : Fin 1024) q)
      - broadcastTo S1024x2048 (k2_pay4 (F := Ideal) x0 x1 xm) broadcasts_S1x2048_S1024x2048 (ix2 (⟨k.val, k.isLt⟩ : Fin 1024) q)) = _
  rw [broadcastTo_1b_ab_apply]
  rfl

theorem out_apply (m l : Vec Ideal S1x2048 .f32) (q : Fin 2048) :
    (k2_pay7 (F := Ideal) m l : S1x2048.Idx → EReal) (ix2 (0 : Fin 1) q) = (m : S1x2048.Idx → EReal) (ix2 (0 : Fin 1) q) + Ideal.log ((l : S1x2048.Idx → EReal) (ix2 (0 : Fin 1) q)) := by
  unfold k2_pay7
  rfl

theorem seedMax_apply (q : Fin 2048) : (k2_pay1 (F := Ideal) : S1x2048.Idx → EReal) (ix2 (0 : Fin 1) q) = Ideal.ofBits .f32 0xFF333332#32 := by
  unfold k2_pay1
  simp only [shapeCast_self]
  rfl
theorem seedMass_apply (q : Fin 2048) : (k2_pay2 (F := Ideal) : S1x2048.Idx → EReal) (ix2 (0 : Fin 1) q) = 0 := by
  unfold k2_pay2
  simp only [shapeCast_self]
  exact Ideal.ofBits_zero_f32

end Entry

/-! ## Where the blocks sit -/

/-- Over the 32 points: the score tile at block (t mod 8, 0) of S, the key tile at block (t div 8, 0) of K, the output
    row at block (0, t div 8). -/
theorem where2 : ∀ t : Fin cfg2.N,
    win2_0.index t (0 : Fin 2) = t.val % 8 ∧ win2_0.index t (1 : Fin 2) = 0
    ∧ win2_1.index t (0 : Fin 2) = t.val / 8 ∧ win2_1.index t (1 : Fin 2) = 0
    ∧ win2_2.index t (0 : Fin 2) = 0 ∧ win2_2.index t (1 : Fin 2) = t.val / 8 :=
  (by decide +kernel : ∀ t : Fin grid2.N, _)

variable (V : (c : Dev nD) → (b : Ref sig .tc) → Buf (Elt Ideal) ((c : Thread nD τ).loc b))

/-- Entry (r, h) of the score tile at point `t` is entry (1024·(t mod 8) + r, h) of S. -/
theorem tileS_apply (c : Dev nD) (t : Fin cfg2.N) (y : S1024x1024.Idx) (i : S8192x1024.Idx)
    (h0 : (i 0).val = (t.val % 8) * 1024 + (y 0).val) (h1 : (i 1).val = (y 1).val) :
    (iblk2 V c 0 t : Vec Ideal S1024x1024 .bf16) y = (V c main_v2 : S8192x1024.Idx → EReal) i := by
  obtain ⟨e0, e1, -⟩ := where2 t
  unfold iblk2
  rw [View.read_apply]
  show V c main_v2 _ = V c main_v2 _
  congr 1
  funext a
  apply Fin.ext
  match a with
  | ⟨0, _⟩ => show win2_0.index t (0 : Fin 2) * 1024 + 1 * (y 0).val = (i 0).val; omega
  | ⟨1, _⟩ => show win2_0.index t (1 : Fin 2) * 1024 + 1 * (y 1).val = (i 1).val; omega

/-- Entry (q, h) of the key tile at point `t` is entry (2048·(t div 8) + q, h) of K. -/
theorem tileK_apply (c : Dev nD) (t : Fin cfg2.N) (y : S2048x1024.Idx) (i : S8192x1024.Idx)
    (h0 : (i 0).val = (t.val / 8) * 2048 + (y 0).val) (h1 : (i 1).val = (y 1).val) :
    (iblk2 V c 1 t : Vec Ideal S2048x1024 .bf16) y = (V c main_v3 : S8192x1024.Idx → EReal) i := by
  obtain ⟨-, -, e0, e1, -⟩ := where2 t
  unfold iblk2
  rw [View.read_apply]
  show V c main_v3 _ = V c main_v3 _
  congr 1
  funext a
  apply Fin.ext
  match a with
  | ⟨0, _⟩ => show win2_1.index t (0 : Fin 2) * 2048 + 1 * (y 0).val = (i 0).val; omega
  | ⟨1, _⟩ => show win2_1.index t (1 : Fin 2) * 1024 + 1 * (y 1).val = (i 1).val; omega

end Cert.KernelIdeal.Hand

end
-- ==== Proof.KI.LseSum.lean ====
/-
  The online log-sum-exp pass as a sum. Fix a real score matrix sc with Σ_h S(i,h)·K(j,h) = sc(i,j). Down each
  column j, after the tile with index n of its column block the running maximum is SOME real m and the running mass is
  Σ_{i < 1024·(n+1)} exp(sc(i,j) − m): the seed rows give this at n = 0 with the empty sum, and one tile turns
  (m, Σ_{i<n₀} exp(sc(i,j) − m)) into (m', Σ_{i<n₀+1024} exp(sc(i,j) − m')) because exp(m − m')·exp(a − m) = exp(a − m').
  Which real the maximum is never matters. After the last tile the output row is m + log Σ_{i<8192} exp(sc(i,j) − m).
-/
import proofs.«125521_j15702400434434_2_alg».proof.Proof.KI.LseAt
import proofs.«125521_j15702400434434_2_alg».proof.Proof.LibOnlineColSoftmax
import proofs.«125521_j15702400434434_2_alg».proof.Proof.AttnSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Two facts on the extended reals -/

/-- One tile's update of the mass, for a real old maximum `m` and a real new one `m'`. -/
theorem mass_step (a : ℕ → ℝ) (n₀ : ℕ) (m m' : ℝ) :
    Ideal.exp ((m : EReal) - (m' : EReal)) * ((∑ i ∈ Finset.range n₀, Real.exp (a i - m) : ℝ) : EReal)
        + ∑ r : Fin 1024, Ideal.exp ((a (n₀ + r.val) : EReal) - (m' : EReal))
      = ((∑ i ∈ Finset.range (n₀ + 1024), Real.exp (a i - m') : ℝ) : EReal) := by
  rw [OnlineColSoftmax.exp_coe_sub, OnlineColSoftmax.sum_exp_coe_sub (fun r : Fin 1024 => a (n₀ + r.val)) m',
    ← EReal.coe_mul, ← EReal.coe_add]
  congr 1
  rw [Finset.sum_range_add, Finset.mul_sum, Finset.sum_range (fun x => Real.exp (a (n₀ + x) - m'))]
  congr 1
  refine Finset.sum_congr rfl fun i _ => ?_
  rw [← Real.exp_add]; congr 1; ring

/-- A real against the maximum of a tile's real column is a real. -/
theorem max_fold_real (m : ℝ) (T : Fin 1024 → ℝ) :
    ∃ M : ℝ, max (m : EReal) ((Finset.univ : Finset (Fin 1024)).fold max (⊥ : EReal) (fun r => (T r : EReal))) = (M : EReal) := by
  obtain ⟨M₀, hM₀⟩ := AttnSpec.colMax_real (N := 1024) (M := 1) (by norm_num) (fun r _ => (T r : EReal)) 0 (fun i => ⟨T i, rfl⟩)
  rw [AttnSpec.colMax_eq_fold] at hM₀
  exact ⟨max m M₀, by rw [hM₀]; exact (EReal.coe_strictMono.monotone.map_max).symm⟩

/-- The seed of the running maximum is a (very negative) real. -/
theorem seed_real : ∃ s : ℝ, Ideal.ofBits .f32 0xFF333332#32 = (s : EReal) := by
  show ∃ s : ℝ, Ideal.ieee 8 23 (0xFF333332#32) = (s : EReal)
  unfold Ideal.ieee
  simp only []
  rw [if_neg (by decide), if_neg (by decide)]
  exact ⟨_, rfl⟩

theorem pay6_eq (x0 : Vec Ideal S1024x1024 .bf16) (x1 : Vec Ideal S2048x1024 .bf16) (xm : Vec Ideal S1x2048 .f32) :
    k2_pay6 (F := Ideal) x0 x1 xm = k2_pay4 (F := Ideal) x0 x1 xm := by
  unfold k2_pay6; exact shapeCast_self _ _

/-! ## The scores of a tile -/

section Scores
variable (V : (c : Dev nD) → (b : Ref sig .tc) → Buf (Elt Ideal) ((c : Thread nD τ).loc b)) (c : Dev nD)
  (sc : Fin 8192 → Fin 8192 → ℝ)
  (hsc : ∀ i j : Fin 8192, AttnSpec.scores (AttnSpec.mat (a := 8192) (b := 1024) (V c main_v2)) (AttnSpec.mat (a := 8192) (b := 1024) (V c main_v3)) i j = (sc i j : EReal))

/-- Column `j` of the scores as a function of a natural row number (zero past the end). -/
def colScore (j : Fin 8192) : ℕ → ℝ := fun i => if h : i < 8192 then sc ⟨i, h⟩ j else 0

include hsc in
/-- Entry (r, q) of the score tile at point `t` is the score of row 1024·(t mod 8) + r and column 2048·(t div 8) + q. -/
theorem tileScore (t : Fin cfg2.N) (r : Fin 1024) (q : Fin 2048) (hj : 2048 * (t.val / 8) + q.val < 8192) :
    (k2_pay3 (F := Ideal) (iblk2 V c 0 t) (iblk2 V c 1 t) : S1024x2048.Idx → EReal) (ix2 r q)
      = (colScore sc ⟨2048 * (t.val / 8) + q.val, hj⟩ (1024 * (t.val % 8) + r.val) : EReal) := by
  have hN : t.val < 32 := lt_of_lt_of_eq t.isLt (show cfg2.N = 32 from N_2)
  have hi : 1024 * (t.val % 8) + r.val < 8192 := by have := r.isLt; omega
  rw [tile_apply]
  unfold colScore
  rw [dif_pos hi, ← hsc]
  unfold AttnSpec.scores AttnSpec.mat
  refine Finset.sum_congr rfl fun h _ => ?_
  rw [tileS_apply V c t (ix2 r h) (ix2 (⟨1024 * (t.val % 8) + r.val, hi⟩ : Fin 8192) h) (by show 1024 * (t.val % 8) + r.val = (t.val % 8) * 1024 + r.val; omega) rfl,
    tileK_apply V c t (ix2 q h) (ix2 (⟨2048 * (t.val / 8) + q.val, hj⟩ : Fin 8192) h) (by show 2048 * (t.val / 8) + q.val = (t.val / 8) * 2048 + q.val; omega) rfl]

include hsc in
/-- ONE TILE: from a real maximum and the mass of the first n₀ rows to a real maximum and the mass of the first n₀ + 1024. -/
theorem tile_inv (t : Fin cfg2.N) (q : Fin 2048) (hj : 2048 * (t.val / 8) + q.val < 8192) (xm xl : Vec Ideal S1x2048 .f32) (m : ℝ)
    (hm : (xm : S1x2048.Idx → EReal) (ix2 (0 : Fin 1) q) = (m : EReal))
    (hl : (xl : S1x2048.Idx → EReal) (ix2 (0 : Fin 1) q) = ((∑ i ∈ Finset.range (1024 * (t.val % 8)), Real.exp (colScore sc ⟨2048 * (t.val / 8) + q.val, hj⟩ i - m) : ℝ) : EReal)) :
    ∃ m' : ℝ, (k2_pay6 (F := Ideal) (iblk2 V c 0 t) (iblk2 V c 1 t) xm : S1x2048.Idx → EReal) (ix2 (0 : Fin 1) q) = (m' : EReal)
      ∧ (k2_pay5 (F := Ideal) (iblk2 V c 0 t) (iblk2 V c 1 t) xm xm xl : S1x2048.Idx → EReal) (ix2 (0 : Fin 1) q)
          = ((∑ i ∈ Finset.range (1024 * (t.val % 8) + 1024), Real.exp (colScore sc ⟨2048 * (t.val / 8) + q.val, hj⟩ i - m') : ℝ) : EReal) := by
  have hT : ∀ r : Fin 1024, (k2_pay3 (F := Ideal) (iblk2 V c 0 t) (iblk2 V c 1 t) : S1024x2048.Idx → EReal) (ix2 r q)
      = (colScore sc ⟨2048 * (t.val / 8) + q.val, hj⟩ (1024 * (t.val % 8) + r.val) : EReal) := fun r => tileScore V c sc hsc t r q hj
  obtain ⟨m', hm'⟩ := max_fold_real m (fun r => colScore sc ⟨2048 * (t.val / 8) + q.val, hj⟩ (1024 * (t.val % 8) + r.val))
  have h4 : (k2_pay4 (F := Ideal) (iblk2 V c 0 t) (iblk2 V c 1 t) xm : S1x2048.Idx → EReal) (ix2 (0 : Fin 1) q) = (m' : EReal) := by
    rw [newMax_apply, hm]; simp only [hT]; exact hm'
  refine ⟨m', by rw [pay6_eq]; exact h4, ?_⟩
  rw [newMass_apply, h4, hm, hl]; simp only [hT]
  exact mass_step (colScore sc ⟨2048 * (t.val / 8) + q.val, hj⟩) (1024 * (t.val % 8)) m m'

/-! ## The two scratch rows after every point -/

include hsc in
/-- After point `n`, at every column of its block: the running maximum is a real `m` and the running mass is the sum of
    exp(score − m) over the rows of the tiles so far. By induction on the point. -/
theorem rows_inv : ∀ (n : ℕ) (hn : n < cfg2.N) (q : Fin 2048) (hj : 2048 * (n / 8) + q.val < 8192),
    ∃ m : ℝ, ((rowsAt V c n hn).2.1 : S1x2048.Idx → EReal) (ix2 (0 : Fin 1) q) = (m : EReal)
      ∧ ((rowsAt V c n hn).2.2 : S1x2048.Idx → EReal) (ix2 (0 : Fin 1) q)
          = ((∑ i ∈ Finset.range (1024 * (n % 8) + 1024), Real.exp (colScore sc ⟨2048 * (n / 8) + q.val, hj⟩ i - m) : ℝ) : EReal) := by
  intro n
  induction n with
  | zero =>
    intro hn q hj
    obtain ⟨s, hs⟩ := seed_real
    have h := tile_inv V c sc hsc ⟨0, hn⟩ q hj (k2_pay1 (F := Ideal)) (k2_pay2 (F := Ideal)) s
      (by rw [seedMax_apply]; exact hs) (by rw [seedMass_apply]; simp)
    rw [rowsAt_first V c ⟨0, hn⟩ (Nat.zero_mod _), firstRows_max, firstRows_mass]
    exact h
  | succ n ih =>
    intro hn q hj
    by_cases h0 : (n + 1) % 8 = 0
    · obtain ⟨s, hs⟩ := seed_real
      have h := tile_inv V c sc hsc ⟨n + 1, hn⟩ q hj (k2_pay1 (F := Ideal)) (k2_pay2 (F := Ideal)) s
        (by rw [seedMax_apply]; exact hs) (by rw [seedMass_apply]; simp [h0])
      rw [rowsAt_first V c ⟨n + 1, hn⟩ h0, firstRows_max, firstRows_mass]
      exact h
    · have hdiv : n / 8 = (n + 1) / 8 := by omega
      have hmod : n % 8 + 1 = (n + 1) % 8 := by omega
      have hj' : 2048 * (n / 8) + q.val < 8192 := by rw [hdiv]; exact hj
      obtain ⟨m, hm, hl⟩ := ih (Nat.lt_of_succ_lt hn) q hj'
      have hcol : (⟨2048 * (n / 8) + q.val, hj'⟩ : Fin 8192) = ⟨2048 * ((n + 1) / 8) + q.val, hj⟩ := Fin.ext (by show 2048 * (n / 8) + q.val = 2048 * ((n + 1) / 8) + q.val; omega)
      rw [hcol, show 1024 * (n % 8) + 1024 = 1024 * ((n + 1) % 8) from by omega] at hl
      have h := tile_inv V c sc hsc ⟨n + 1, hn⟩ q hj _ _ m hm hl
      by_cases h1 : (n + 1) % 8 = 7
      · rw [rowsAt_last V c ⟨n + 1, hn⟩ h0 h1, lastRows_max, lastRows_mass]; exact h
      · rw [rowsAt_middle V c ⟨n + 1, hn⟩ h0 h1, middleRows_max, middleRows_mass]; exact h

include hsc in
/-- THE OUTPUT ROW at a last tile: m + log of the whole column's mass, for some real m. -/
theorem out_row (t : Fin cfg2.N) (h7 : t.val % 8 = 7) (q : Fin 2048) (hj : 2048 * (t.val / 8) + q.val < 8192) :
    ∃ m : ℝ, ((rowsAt V c t.val t.isLt).1 : S1x2048.Idx → EReal) (ix2 (0 : Fin 1) q)
      = (m : EReal) + Ideal.log (((∑ i : Fin 8192, Real.exp (sc i ⟨2048 * (t.val / 8) + q.val, hj⟩ - m) : ℝ)) : EReal) := by
  have h0 : ¬t.val % 8 = 0 := by omega
  obtain ⟨m, hm, hl⟩ := rows_inv V c sc hsc t.val t.isLt q hj
  refine ⟨m, ?_⟩
  rw [rowsAt_last V c t h0 h7] at hm hl ⊢
  rw [lastRows_max] at hm; rw [lastRows_mass] at hl
  have e : (∑ i ∈ Finset.range (1024 * (t.val % 8) + 1024), Real.exp (colScore sc ⟨2048 * (t.val / 8) + q.val, hj⟩ i - m))
      = ∑ i : Fin 8192, Real.exp (sc i ⟨2048 * (t.val / 8) + q.val, hj⟩ - m) := by
    rw [h7, show 1024 * 7 + 1024 = 8192 from by norm_num, Finset.sum_range]
    refine Finset.sum_congr rfl fun i _ => ?_
    unfold colScore
    rw [dif_pos i.isLt]
  rw [lastRows_out, out_apply, hm, hl, e]

end Scores

end Cert.KernelIdeal.Hand

end
-- ==== Proof.KI.LseArray.lean ====
/-
  The log-sum-exp row as an array. The output row's block for column block k is written back once, after the last
  tile of that block (point 8k + 7), so column j of the final array is what that tile left at column j mod 2048 of its
  row; every column lies in exactly that block. Hence column j holds m + log Σ_i exp(sc(i,j) − m) for some real m.
-/
import proofs.«125521_j15702400434434_2_alg».proof.Proof.KI.LseSum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- Column `j` of the row the last tile of `j`'s column block left. -/
def lseAtCol (c : Dev nD) (j : Fin 8192) : EReal :=
  ((rowsAt V c (8 * (j.val / 2048) + 7) (by have := j.isLt; rw [show cfg2.N = 32 from N_2]; omega)).1 : S1x2048.Idx → EReal)
    (ix2 (0 : Fin 1) (⟨j.val % 2048, Nat.mod_lt _ (by norm_num)⟩ : Fin 2048))

/-- The whole row. -/
def lseArr (c : Dev nD) : S1x8192.Idx → EReal := fun x => lseAtCol V c (x 1)

theorem rowsAt_congr (c : Dev nD) {n n' : ℕ} (e : n = n') (h : n < cfg2.N) (h' : n' < cfg2.N) : rowsAt V c n h = rowsAt V c n' h' := by
  subst e; rfl

/-- Column `j` read through the last tile `t` of its block. -/
theorem lseAtCol_of (c : Dev nD) (t : Fin cfg2.N) (h7 : t.val % 8 = 7) (q : Fin 2048) (j : Fin 8192) (hj : j.val = (t.val / 8) * 2048 + q.val) :
    lseAtCol V c j = ((rowsAt V c t.val t.isLt).1 : S1x2048.Idx → EReal) (ix2 (0 : Fin 1) q) := by
  unfold lseAtCol
  have e1 : 8 * (j.val / 2048) + 7 = t.val := by have := q.isLt; omega
  have e2 : (⟨j.val % 2048, Nat.mod_lt _ (by norm_num)⟩ : Fin 2048) = q := Fin.ext (by show j.val % 2048 = q.val; have := q.isLt; omega)
  rw [rowsAt_congr V c e1 _ t.isLt, e2]

/-- What a last tile writes back is its block of the row. -/
theorem written2_eq (c : Dev nD) (t : Fin cfg2.N) (hfl : (cfg2.win 2).flush t = true) :
    (dat2 V c).flushed 2 t = ((cfg2.win 2).blk t).view.read (Elt Ideal) (lseArr V c) := by
  have h7 : t.val % 8 = 7 := (flush2_2 t).mp hfl
  obtain ⟨-, -, -, -, e0, e1⟩ := where2 t
  show (cfg2.win 2).cut (grid2.coords t) ((dat2 V c).after 2 t) = _
  rw [after2_2]
  funext y
  obtain ⟨u, q, rfl⟩ : ∃ (u : Fin 1) (q : Fin 2048), y = ix2 u q := ⟨y 0, y 1, eq_ix2 y⟩
  rw [View.read_apply]
  show ((rowsAt V c t.val t.isLt).1 : S1x2048.Idx → EReal) (ix2 u q) = lseAtCol V c ((((cfg2.win 2).blk t).view.emb (ix2 u q)) 1)
  have hu : u = (0 : Fin 1) := Subsingleton.elim _ _
  subst hu
  exact (lseAtCol_of V c t h7 q _ (by show win2_2.index t (1 : Fin 2) * 2048 + 1 * q.val = (t.val / 8) * 2048 + q.val; omega)).symm

/-- An index of the row is in point `t`'s block iff, on each axis, it lies in the block's range. -/
theorem in_block2 (t : Fin cfg2.N) (i : S1x8192.Idx) :
    i ∈ ((cfg2.win 2).blk t).view.set ↔ ∀ a : Fin 2, win2_2.index t a * S1x2048.size a ≤ (i a).val
      ∧ (i a).val < win2_2.index t a * S1x2048.size a + S1x2048.size a := by
  show i ∈ ((View.whole main_v4).slice (win2_2.rect t)).set ↔ _
  rw [View.set_slice_whole, Rect.mem_set_unit]
  exact Iff.rfl

/-- Every column is written: column j by the last tile of block j div 2048. -/
theorem covered2 (i : S1x8192.Idx) :
    ∃ t : Fin cfg2.N, (cfg2.win 2).flush t = true ∧ i ∈ ((cfg2.win 2).blk t).view.set := by
  have hi0 : (i 0).val < 1 := (i 0).isLt
  have hi1 : (i 1).val < 8192 := (i 1).isLt
  have hN : cfg2.N = 32 := N_2
  have ht : 8 * ((i 1).val / 2048) + 7 < cfg2.N := lt_of_lt_of_eq (by omega) hN.symm
  obtain ⟨-, -, -, -, e0, e1⟩ := where2 ⟨8 * ((i 1).val / 2048) + 7, ht⟩
  refine ⟨⟨8 * ((i 1).val / 2048) + 7, ht⟩, (flush2_2 _).mpr (by show (8 * ((i 1).val / 2048) + 7) % 8 = 7; omega), ?_⟩
  rw [in_block2]
  intro a
  match a with
  | ⟨0, _⟩ =>
    show win2_2.index ⟨8 * ((i 1).val / 2048) + 7, ht⟩ (0 : Fin 2) * 1 ≤ (i 0).val
      ∧ (i 0).val < win2_2.index ⟨8 * ((i 1).val / 2048) + 7, ht⟩ (0 : Fin 2) * 1 + 1
    rw [e0]; omega
  | ⟨1, _⟩ =>
    show win2_2.index ⟨8 * ((i 1).val / 2048) + 7, ht⟩ (1 : Fin 2) * 2048 ≤ (i 1).val
      ∧ (i 1).val < win2_2.index ⟨8 * ((i 1).val / 2048) + 7, ht⟩ (1 : Fin 2) * 2048 + 2048
    rw [e1]; show (8 * ((i 1).val / 2048) + 7) / 8 * 2048 ≤ (i 1).val ∧ (i 1).val < (8 * ((i 1).val / 2048) + 7) / 8 * 2048 + 2048; omega

/-- The row after the region's last point. -/
theorem lse_array (c : Dev nD) : (dat2 V c).arrAt 2 cfg2.N = lseArr V c :=
  (dat2 V c).arrAt_eq_of_cover 2 (lseArr V c) (fun t h => written2_eq V c t h) covered2

/-- THE LOG-SUM-EXP ROW, entry by entry: for real scores, column j holds m + log Σ_i exp(sc(i,j) − m) for some real m. -/
theorem lse_entry (c : Dev nD) (sc : Fin 8192 → Fin 8192 → ℝ)
    (hsc : ∀ i j : Fin 8192, AttnSpec.scores (AttnSpec.mat (a := 8192) (b := 1024) (V c main_v2)) (AttnSpec.mat (a := 8192) (b := 1024) (V c main_v3)) i j = (sc i j : EReal)) (j : Fin 8192) :
    ∃ m : ℝ, ((dat2 (F := Ideal) V c).arrAt 2 cfg2.N : S1x8192.Idx → EReal) (ix2 (0 : Fin 1) j)
      = (m : EReal) + Ideal.log (((∑ i : Fin 8192, Real.exp (sc i j - m) : ℝ)) : EReal) := by
  have hN : cfg2.N = 32 := N_2
  have hjl := j.isLt
  have ht : 8 * (j.val / 2048) + 7 < cfg2.N := lt_of_lt_of_eq (by omega) hN.symm
  have hq : j.val % 2048 < 2048 := Nat.mod_lt _ (by norm_num)
  have hcol : 2048 * ((8 * (j.val / 2048) + 7) / 8) + j.val % 2048 < 8192 := by omega
  obtain ⟨m, hm⟩ := out_row V c sc hsc ⟨8 * (j.val / 2048) + 7, ht⟩ (by show (8 * (j.val / 2048) + 7) % 8 = 7; omega) ⟨j.val % 2048, hq⟩ hcol
  refine ⟨m, ?_⟩
  rw [lse_array]
  show lseAtCol V c j = _
  rw [lseAtCol_of V c ⟨8 * (j.val / 2048) + 7, ht⟩ (by show (8 * (j.val / 2048) + 7) % 8 = 7; omega) ⟨j.val % 2048, hq⟩ j
    (by show j.val = (8 * (j.val / 2048) + 7) / 8 * 2048 + j.val % 2048; omega), hm]
  have ej : (⟨2048 * ((8 * (j.val / 2048) + 7) / 8) + j.val % 2048, hcol⟩ : Fin 8192) = j := Fin.ext (by show 2048 * ((8 * (j.val / 2048) + 7) / 8) + j.val % 2048 = j.val; omega)
  rw [ej]

end Cert.KernelIdeal.Hand

end
-- ==== Proof.Bridge.lean ====
/-
  The algebraic conjunct: at the ideal instance the kernel and the reference, run from memories that
  agree on the six argument arrays, end with equal results.

  Both results are the attention specification of the launched arrays: the reference by reading its
  operations at an index, the kernel by reading what its four passes leave.  The one law between them
  is that a softmax computed through a running log-sum-exp, with whatever real shifts, is the softmax
  shifted by the column maximum; it holds because under the precondition every score is a real.
-/
import proofs.«125521_j15702400434434_2_alg».proof.Defs
import proofs.«125521_j15702400434434_2_alg».proof.Proof.BridgeValues
import proofs.«125521_j15702400434434_2_alg».proof.Proof.RefSide
import proofs.«125521_j15702400434434_2_alg».proof.Proof.KI.LseArray

noncomputable section

namespace Cert.Bridge

open Idealize.ShloMosaic Idealize.ShloMosaic.TcCoe Idealize.ShloMosaic.ValueIdx Idealize.SL.Sem

/-- The log-sum-exp pass leaves, in column j of its row, m + log (sum over i of exp (score i j - m))
    for some real m. -/
theorem lseFact (m : (ℓ : Loc Cert.KernelIdeal.nD Cert.KernelIdeal.τ Cert.KernelIdeal.sig) → Buf (Elt Ideal) ℓ)
    (c : Dev Cert.KernelIdeal.nD) : LseFact m c :=
  fun sc hsc j =>
    Cert.KernelIdeal.Hand.lse_entry (Cert.KernelIdeal.Hand.atTc (Cert.KernelIdeal.Hand.U3 m)) c sc hsc j

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hpre : Cert.Pre_finite_inputs.fn (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) = (fun _ => 1#1))
  (hag :
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include hpre hag

/-- The reference's first result is the kernel's. -/
theorem res0_eq :
    (Cert.ReferenceIdeal.Value.res_main_v22 (F := Ideal) m' c : Cert.ReferenceIdeal.S8192x8192.Idx → EReal)
      = (Cert.KernelIdeal.Hand.o60 m c : Cert.ReferenceIdeal.S8192x8192.Idx → EReal) := by
  funext idx
  obtain ⟨i, j, rfl⟩ : ∃ (i j : Fin 8192), idx = ix2 i j := ⟨idx 0, idx 1, eq_ix2 idx⟩
  refine (Cert.ReferenceIdeal.RefValue.res_out0_at m' c i j).trans ?_
  obtain ⟨g0, g1, g2, g3, g4, g5⟩ := hag
  have a0 : Cert.ReferenceIdeal.RefValue.arg0 m' c = m ((c.tc : Thread Cert.KernelIdeal.nD Cert.KernelIdeal.τ).loc Cert.KernelIdeal.main_arg0) := g0
  have a1 : Cert.ReferenceIdeal.RefValue.arg1 m' c = m ((c.tc : Thread Cert.KernelIdeal.nD Cert.KernelIdeal.τ).loc Cert.KernelIdeal.main_arg1) := g1
  have a2 : Cert.ReferenceIdeal.RefValue.arg2 m' c = m ((c.tc : Thread Cert.KernelIdeal.nD Cert.KernelIdeal.τ).loc Cert.KernelIdeal.main_arg2) := g2
  have a3 : Cert.ReferenceIdeal.RefValue.arg3 m' c = m ((c.tc : Thread Cert.KernelIdeal.nD Cert.KernelIdeal.τ).loc Cert.KernelIdeal.main_arg3) := g3
  have a4 : Cert.ReferenceIdeal.RefValue.arg4 m' c = m ((c.tc : Thread Cert.KernelIdeal.nD Cert.KernelIdeal.τ).loc Cert.KernelIdeal.main_arg4) := g4
  have a5 : Cert.ReferenceIdeal.RefValue.arg5 m' c = m ((c.tc : Thread Cert.KernelIdeal.nD Cert.KernelIdeal.τ).loc Cert.KernelIdeal.main_arg5) := g5
  rw [a0, a1, a2, a3, a4, a5]
  exact (o60_entry m c hpre (lseFact m c) i j).symm

/-- The reference's second result is the kernel's. -/
theorem res1_eq :
    (Cert.ReferenceIdeal.Value.res_main_v23 (F := Ideal) m' c : Cert.ReferenceIdeal.S8192x2048.Idx → EReal)
      = (Cert.KernelIdeal.Hand.o61 m c : Cert.ReferenceIdeal.S8192x2048.Idx → EReal) := by
  funext idx
  obtain ⟨i, d, rfl⟩ : ∃ (i : Fin 8192) (d : Fin 2048), idx = ix2 i d := ⟨idx 0, idx 1, eq_ix2 idx⟩
  refine (Cert.ReferenceIdeal.RefValue.res_out1_at m' c i d).trans ?_
  obtain ⟨g0, g1, g2, g3, g4, g5⟩ := hag
  have a0 : Cert.ReferenceIdeal.RefValue.arg0 m' c = m ((c.tc : Thread Cert.KernelIdeal.nD Cert.KernelIdeal.τ).loc Cert.KernelIdeal.main_arg0) := g0
  have a1 : Cert.ReferenceIdeal.RefValue.arg1 m' c = m ((c.tc : Thread Cert.KernelIdeal.nD Cert.KernelIdeal.τ).loc Cert.KernelIdeal.main_arg1) := g1
  have a2 : Cert.ReferenceIdeal.RefValue.arg2 m' c = m ((c.tc : Thread Cert.KernelIdeal.nD Cert.KernelIdeal.τ).loc Cert.KernelIdeal.main_arg2) := g2
  have a3 : Cert.ReferenceIdeal.RefValue.arg3 m' c = m ((c.tc : Thread Cert.KernelIdeal.nD Cert.KernelIdeal.τ).loc Cert.KernelIdeal.main_arg3) := g3
  have a4 : Cert.ReferenceIdeal.RefValue.arg4 m' c = m ((c.tc : Thread Cert.KernelIdeal.nD Cert.KernelIdeal.τ).loc Cert.KernelIdeal.main_arg4) := g4
  have a5 : Cert.ReferenceIdeal.RefValue.arg5 m' c = m ((c.tc : Thread Cert.KernelIdeal.nD Cert.KernelIdeal.τ).loc Cert.KernelIdeal.main_arg5) := g5
  rw [a0, a1, a2, a3, a4, a5]
  exact (o61_entry m c hpre (lseFact m c) i d).symm

end Results

/-- The kernel and the reference, at the ideal instance, from memories agreeing on the arguments and
    under the precondition: both run, end with equal results, and leave the arguments unchanged. -/
theorem algebraic :
    Cert.algebraic_KernelIdeal_ReferenceIdeal (hKernelIdeal := Cert.KernelIdeal.Gen.facts)
      (hReferenceIdeal := Cert.ReferenceIdeal.Gen.facts)
      (hPre_finite_inputs := Cert.Pre_finite_inputs.Gen.facts) := by
  intro m g m' g' hpre hagree
  refine ⟨fun c => Cert.KernelIdeal.Hand.o60 m c, fun c => Cert.KernelIdeal.Hand.o61 m c,
    Cert.KernelIdeal.Hand.run_results m g, ?_⟩
  refine (θ_run Cert.ReferenceIdeal.defs _ _).mono (fun r h c => ?_)
    (Cert.ReferenceIdeal.Value.run (F := Ideal) m' g')
  obtain ⟨h22, h23, hargs⟩ := h c
  exact ⟨h22.trans (res0_eq m m' c (hpre c) (hagree c)), h23.trans (res1_eq m m' c (hpre c) (hagree c)), hargs⟩

end Cert.Bridge

end
-- ==== Proof.lean ====
/-
  The certificate of a two-pass attention kernel against its jnp reference.
  Both programs compute S = X·Wsᵀ + bs and K = E·Wkᵀ + bk, the scores S·Kᵀ, a softmax down each COLUMN of the scores,
  and the product of that matrix with E. The kernel normalises through a per-column log-sum-exp kept online over eight
  row tiles (a running maximum seeded with a finite number, a running mass), then recomputes each score tile and
  writes exp(score − lse); the reference subtracts the true column maximum, exponentiates and divides by the column
  sum. On the extended reals, for real inputs, both are exp(score)/Σ exp(score): the shift cancels whatever real it is.
  The three frames: each program runs to the end, faults nowhere and leaves its arguments unchanged — the kernel's
  four regions are run in sequence over the buffers' contents stage by stage (Proof/K, Proof/KI), the reference is a
  straight line of host operations. The idealization rewrote nothing, so there is nothing to preserve.
-/
import proofs.«125521_j15702400434434_2_alg».proof.Defs
import proofs.«125521_j15702400434434_2_alg».proof.Proof.Gen.Kernel
import proofs.«125521_j15702400434434_2_alg».proof.Proof.Gen.KernelIdeal
import proofs.«125521_j15702400434434_2_alg».proof.Proof.Gen.ReferenceIdeal
import proofs.«125521_j15702400434434_2_alg».proof.Proof.Gen.Pre_finite_inputs
import proofs.«125521_j15702400434434_2_alg».proof.Proof.Gen.ReferenceIdeal.Run
import proofs.«125521_j15702400434434_2_alg».proof.Proof.K.Frame
import proofs.«125521_j15702400434434_2_alg».proof.Proof.KI.Frame
import proofs.«125521_j15702400434434_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its frame is its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
